-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v57)) (v1 : (c : Dev Cert.KernelIdeal.nD) → Buf (Elt Ideal) ((c.tc : Thread Cert.KernelIdeal.nD Cert.KernelIdeal.τ).loc Cert.KernelIdeal.main_v58)) (v2 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_v58) = v1 c
          ∧ r.2.mem ((c.tc : Thread Cert.KernelIdeal.nD Cert.KernelIdeal.τ).loc Cert.KernelIdeal.main_v59) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_v73) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S1x65536x8 : Shape := ⟨3, ![1, 65536, 8]⟩
abbrev S65536x1 : Shape := ⟨2, ![65536, 1]⟩
abbrev S1024x8 : Shape := ⟨2, ![1024, 8]⟩
abbrev S8x8 : Shape := ⟨2, ![8, 8]⟩
abbrev S1x8 : Shape := ⟨2, ![1, 8]⟩
abbrev S8 : Shape := ⟨1, ![8]⟩
abbrev S8x5 : Shape := ⟨2, ![8, 5]⟩
abbrev S5 : Shape := ⟨1, ![5]⟩
abbrev S5x5 : Shape := ⟨2, ![5, 5]⟩
abbrev S5x1 : Shape := ⟨2, ![5, 1]⟩
abbrev S1 : Shape := ⟨1, ![1]⟩
abbrev S4x1024 : Shape := ⟨2, ![4, 1024]⟩
abbrev S4x1 : Shape := ⟨2, ![4, 1]⟩
abbrev S1x5 : Shape := ⟨2, ![1, 5]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1x65536x8 : S_.BroadcastsInDim S1x65536x8 (![] : Fin 0 → Fin S1x65536x8.rank)
  reducesTo_S1x65536x8_S_d0_1_2 : S1x65536x8.ReducesTo [0, 1, 2] S_
  bcast_S_S65536x1 : S_.BroadcastsInDim S65536x1 (![] : Fin 0 → Fin S65536x1.rank)
  reducesTo_S65536x1_S_d0_1 : S65536x1.ReducesTo [0, 1] S_
  bcast_S_S1024x8 : S_.BroadcastsInDim S1024x8 (![] : Fin 0 → Fin S1024x8.rank)
  reducesTo_S1024x8_S_d0_1 : S1024x8.ReducesTo [0, 1] S_
  bcast_S_S8x8 : S_.BroadcastsInDim S8x8 (![] : Fin 0 → Fin S8x8.rank)
  reducesTo_S8x8_S_d0_1 : S8x8.ReducesTo [0, 1] S_
  bcast_S_S1x8 : S_.BroadcastsInDim S1x8 (![] : Fin 0 → Fin S1x8.rank)
  reducesTo_S1x8_S_d0_1 : S1x8.ReducesTo [0, 1] S_
  bcast_S_S8 : S_.BroadcastsInDim S8 (![] : Fin 0 → Fin S8.rank)
  reducesTo_S8_S_d0 : S8.ReducesTo [0] S_
  bcast_S_S8x5 : S_.BroadcastsInDim S8x5 (![] : Fin 0 → Fin S8x5.rank)
  reducesTo_S8x5_S_d0_1 : S8x5.ReducesTo [0, 1] S_
  bcast_S_S5 : S_.BroadcastsInDim S5 (![] : Fin 0 → Fin S5.rank)
  reducesTo_S5_S_d0 : S5.ReducesTo [0] S_
  bcast_S_S5x5 : S_.BroadcastsInDim S5x5 (![] : Fin 0 → Fin S5x5.rank)
  reducesTo_S5x5_S_d0_1 : S5x5.ReducesTo [0, 1] S_
  bcast_S_S5x1 : S_.BroadcastsInDim S5x1 (![] : Fin 0 → Fin S5x1.rank)
  reducesTo_S5x1_S_d0_1 : S5x1.ReducesTo [0, 1] S_
  bcast_S_S1 : S_.BroadcastsInDim S1 (![] : Fin 0 → Fin S1.rank)
  reducesTo_S1_S_d0 : S1.ReducesTo [0] S_
  bcast_S_S4x1024 : S_.BroadcastsInDim S4x1024 (![] : Fin 0 → Fin S4x1024.rank)
  reducesTo_S4x1024_S_d0_1 : S4x1024.ReducesTo [0, 1] S_
  bcast_S_S4x1 : S_.BroadcastsInDim S4x1 (![] : Fin 0 → Fin S4x1.rank)
  reducesTo_S4x1_S_d0_1 : S4x1.ReducesTo [0, 1] S_
  bcast_S_S1x5 : S_.BroadcastsInDim S1x5 (![] : Fin 0 → Fin S1x5.rank)
  reducesTo_S1x5_S_d0_1 : S1x5.ReducesTo [0, 1] S_

variable [Facts]

def fn_part8 {F : FTy → Type} [FloatOps F] (main_arg28 : FVec F S1x5 .f32) (main_arg29 : FVec F S1x5 .f32) (main_v133 : IVec S_ 1) (main_v136 : IVec S4x1 1) : IVec S_ 1 :=
  let main_c_53 : IVec S_ 1 := constantI S_ 1 1#1
  let main_v137 : IVec S_ 1 := (fun x v => Host.reduce IntOp.andi x v reducesTo_S4x1_S_d0_1 h_S_) main_v136 main_c_53
  let main_v138 : IVec S_ 1 := andi main_v133 main_v137
  let main_v139 : FVec F S1x5 .f32 := Host.absf main_arg28
  let main_cst_54 : FVec F S_ .f32 := constant S_ .f32 0x7F800000#32
  let main_v140 : FVec F S1x5 .f32 := broadcastInDim S1x5 ![] bcast_S_S1x5 main_cst_54
  let main_v141 : IVec S1x5 1 := cmpf .olt main_v139 main_v140
  let main_c_55 : IVec S_ 1 := constantI S_ 1 1#1
  let main_v142 : IVec S_ 1 := (fun x v => Host.reduce IntOp.andi x v reducesTo_S1x5_S_d0_1 h_S_) main_v141 main_c_55
  let main_v143 : IVec S_ 1 := andi main_v138 main_v142
  let main_v144 : FVec F S1x5 .f32 := Host.absf main_arg29
  let main_cst_56 : FVec F S_ .f32 := constant S_ .f32 0x7F800000#32
  let main_v145 : FVec F S1x5 .f32 := broadcastInDim S1x5 ![] bcast_S_S1x5 main_cst_56
  let main_v146 : IVec S1x5 1 := cmpf .olt main_v144 main_v145
  let main_c_57 : IVec S_ 1 := constantI S_ 1 1#1
  let main_v147 : IVec S_ 1 := (fun x v => Host.reduce IntOp.andi x v reducesTo_S1x5_S_d0_1 h_S_) main_v146 main_c_57
  let main_v148 : IVec S_ 1 := andi main_v143 main_v147
  main_v148

def fn_part7 {F : FTy → Type} [FloatOps F] (main_arg25 : FVec F S1 .f32) (main_arg26 : FVec F S4x1024 .f32) (main_arg27 : FVec F S4x1 .f32) (main_arg28 : FVec F S1x5 .f32) (main_arg29 : FVec F S1x5 .f32) (main_v118 : IVec S_ 1) (main_v119 : FVec F S5x1 .f32) : IVec S_ 1 :=
  let main_cst_46 : FVec F S_ .f32 := constant S_ .f32 0x7F800000#32
  let main_v120 : FVec F S5x1 .f32 := broadcastInDim S5x1 ![] bcast_S_S5x1 main_cst_46
  let main_v121 : IVec S5x1 1 := cmpf .olt main_v119 main_v120
  let main_c_47 : IVec S_ 1 := constantI S_ 1 1#1
  let main_v122 : IVec S_ 1 := (fun x v => Host.reduce IntOp.andi x v reducesTo_S5x1_S_d0_1 h_S_) main_v121 main_c_47
  let main_v123 : IVec S_ 1 := andi main_v118 main_v122
  let main_v124 : FVec F S1 .f32 := Host.absf main_arg25
  let main_cst_48 : FVec F S_ .f32 := constant S_ .f32 0x7F800000#32
  let main_v125 : FVec F S1 .f32 := broadcastInDim S1 ![] bcast_S_S1 main_cst_48
  let main_v126 : IVec S1 1 := cmpf .olt main_v124 main_v125
  let main_c_49 : IVec S_ 1 := constantI S_ 1 1#1
  let main_v127 : IVec S_ 1 := (fun x v => Host.reduce IntOp.andi x v reducesTo_S1_S_d0 h_S_) main_v126 main_c_49
  let main_v128 : IVec S_ 1 := andi main_v123 main_v127
  let main_v129 : FVec F S4x1024 .f32 := Host.absf main_arg26
  let main_cst_50 : FVec F S_ .f32 := constant S_ .f32 0x7F800000#32
  let main_v130 : FVec F S4x1024 .f32 := broadcastInDim S4x1024 ![] bcast_S_S4x1024 main_cst_50
  let main_v131 : IVec S4x1024 1 := cmpf .olt main_v129 main_v130
  let main_c_51 : IVec S_ 1 := constantI S_ 1 1#1
  let main_v132 : IVec S_ 1 := (fun x v => Host.reduce IntOp.andi x v reducesTo_S4x1024_S_d0_1 h_S_) main_v131 main_c_51
  let main_v133 : IVec S_ 1 := andi main_v128 main_v132
  let main_v134 : FVec F S4x1 .f32 := Host.absf main_arg27
  let main_cst_52 : FVec F S_ .f32 := constant S_ .f32 0x7F800000#32
  let main_v135 : FVec F S4x1 .f32 := broadcastInDim S4x1 ![] bcast_S_S4x1 main_cst_52
  let main_v136 : IVec S4x1 1 := cmpf .olt main_v134 main_v135
  fn_part8 (F := F) main_arg28 main_arg29 main_v133 main_v136

def fn_part6 {F : FTy → Type} [FloatOps F] (main_arg21 : FVec F S5 .f32) (main_arg22 : FVec F S5x5 .f32) (main_arg23 : FVec F S5 .f32) (main_arg24 : FVec F S5x1 .f32) (main_arg25 : FVec F S1 .f32) (main_arg26 : FVec F S4x1024 .f32) (main_arg27 : FVec F S4x1 .f32) (main_arg28 : FVec F S1x5 .f32) (main_arg29 : FVec F S1x5 .f32) (main_v98 : IVec S_ 1) (main_v101 : IVec S8x5 1) (main_c_39 : IVec S_ 1) : IVec S_ 1 :=
  let main_v102 : IVec S_ 1 := (fun x v => Host.reduce IntOp.andi x v reducesTo_S8x5_S_d0_1 h_S_) main_v101 main_c_39
  let main_v103 : IVec S_ 1 := andi main_v98 main_v102
  let main_v104 : FVec F S5 .f32 := Host.absf main_arg21
  let main_cst_40 : FVec F S_ .f32 := constant S_ .f32 0x7F800000#32
  let main_v105 : FVec F S5 .f32 := broadcastInDim S5 ![] bcast_S_S5 main_cst_40
  let main_v106 : IVec S5 1 := cmpf .olt main_v104 main_v105
  let main_c_41 : IVec S_ 1 := constantI S_ 1 1#1
  let main_v107 : IVec S_ 1 := (fun x v => Host.reduce IntOp.andi x v reducesTo_S5_S_d0 h_S_) main_v106 main_c_41
  let main_v108 : IVec S_ 1 := andi main_v103 main_v107
  let main_v109 : FVec F S5x5 .f32 := Host.absf main_arg22
  let main_cst_42 : FVec F S_ .f32 := constant S_ .f32 0x7F800000#32
  let main_v110 : FVec F S5x5 .f32 := broadcastInDim S5x5 ![] bcast_S_S5x5 main_cst_42
  let main_v111 : IVec S5x5 1 := cmpf .olt main_v109 main_v110
  let main_c_43 : IVec S_ 1 := constantI S_ 1 1#1
  let main_v112 : IVec S_ 1 := (fun x v => Host.reduce IntOp.andi x v reducesTo_S5x5_S_d0_1 h_S_) main_v111 main_c_43
  let main_v113 : IVec S_ 1 := andi main_v108 main_v112
  let main_v114 : FVec F S5 .f32 := Host.absf main_arg23
  let main_cst_44 : FVec F S_ .f32 := constant S_ .f32 0x7F800000#32
  let main_v115 : FVec F S5 .f32 := broadcastInDim S5 ![] bcast_S_S5 main_cst_44
  let main_v116 : IVec S5 1 := cmpf .olt main_v114 main_v115
  let main_c_45 : IVec S_ 1 := constantI S_ 1 1#1
  let main_v117 : IVec S_ 1 := (fun x v => Host.reduce IntOp.andi x v reducesTo_S5_S_d0 h_S_) main_v116 main_c_45
  let main_v118 : IVec S_ 1 := andi main_v113 main_v117
  let main_v119 : FVec F S5x1 .f32 := Host.absf main_arg24
  fn_part7 (F := F) main_arg25 main_arg26 main_arg27 main_arg28 main_arg29 main_v118 main_v119

def fn_part5 {F : FTy → Type} [FloatOps F] (main_arg18 : FVec F S8 .f32) (main_arg19 : FVec F S8 .f32) (main_arg20 : FVec F S8x5 .f32) (main_arg21 : FVec F S5 .f32) (main_arg22 : FVec F S5x5 .f32) (main_arg23 : FVec F S5 .f32) (main_arg24 : FVec F S5x1 .f32) (main_arg25 : FVec F S1 .f32) (main_arg26 : FVec F S4x1024 .f32) (main_arg27 : FVec F S4x1 .f32) (main_arg28 : FVec F S1x5 .f32) (main_arg29 : FVec F S1x5 .f32) (main_v83 : IVec S_ 1) (main_v84 : FVec F S8 .f32) (main_cst_32 : FVec F S_ .f32) : IVec S_ 1 :=
  let main_v85 : FVec F S8 .f32 := broadcastInDim S8 ![] bcast_S_S8 main_cst_32
  let main_v86 : IVec S8 1 := cmpf .olt main_v84 main_v85
  let main_c_33 : IVec S_ 1 := constantI S_ 1 1#1
  let main_v87 : IVec S_ 1 := (fun x v => Host.reduce IntOp.andi x v reducesTo_S8_S_d0 h_S_) main_v86 main_c_33
  let main_v88 : IVec S_ 1 := andi main_v83 main_v87
  let main_v89 : FVec F S8 .f32 := Host.absf main_arg18
  let main_cst_34 : FVec F S_ .f32 := constant S_ .f32 0x7F800000#32
  let main_v90 : FVec F S8 .f32 := broadcastInDim S8 ![] bcast_S_S8 main_cst_34
  let main_v91 : IVec S8 1 := cmpf .olt main_v89 main_v90
  let main_c_35 : IVec S_ 1 := constantI S_ 1 1#1
  let main_v92 : IVec S_ 1 := (fun x v => Host.reduce IntOp.andi x v reducesTo_S8_S_d0 h_S_) main_v91 main_c_35
  let main_v93 : IVec S_ 1 := andi main_v88 main_v92
  let main_v94 : FVec F S8 .f32 := Host.absf main_arg19
  let main_cst_36 : FVec F S_ .f32 := constant S_ .f32 0x7F800000#32
  let main_v95 : FVec F S8 .f32 := broadcastInDim S8 ![] bcast_S_S8 main_cst_36
  let main_v96 : IVec S8 1 := cmpf .olt main_v94 main_v95
  let main_c_37 : IVec S_ 1 := constantI S_ 1 1#1
  let main_v97 : IVec S_ 1 := (fun x v => Host.reduce IntOp.andi x v reducesTo_S8_S_d0 h_S_) main_v96 main_c_37
  let main_v98 : IVec S_ 1 := andi main_v93 main_v97
  let main_v99 : FVec F S8x5 .f32 := Host.absf main_arg20
  let main_cst_38 : FVec F S_ .f32 := constant S_ .f32 0x7F800000#32
  let main_v100 : FVec F S8x5 .f32 := broadcastInDim S8x5 ![] bcast_S_S8x5 main_cst_38
  let main_v101 : IVec S8x5 1 := cmpf .olt main_v99 main_v100
  let main_c_39 : IVec S_ 1 := constantI S_ 1 1#1
  fn_part6 (F := F) main_arg21 main_arg22 main_arg23 main_arg24 main_arg25 main_arg26 main_arg27 main_arg28 main_arg29 main_v98 main_v101 main_c_39

def fn_part4 {F : FTy → Type} [FloatOps F] (main_arg14 : FVec F S1x8 .f32) (main_arg15 : FVec F S1x8 .f32) (main_arg16 : FVec F S8 .f32) (main_arg17 : FVec F S8 .f32) (main_arg18 : FVec F S8 .f32) (main_arg19 : FVec F S8 .f32) (main_arg20 : FVec F S8x5 .f32) (main_arg21 : FVec F S5 .f32) (main_arg22 : FVec F S5x5 .f32) (main_arg23 : FVec F S5 .f32) (main_arg24 : FVec F S5x1 .f32) (main_arg25 : FVec F S1 .f32) (main_arg26 : FVec F S4x1024 .f32) (main_arg27 : FVec F S4x1 .f32) (main_arg28 : FVec F S1x5 .f32) (main_arg29 : FVec F S1x5 .f32) (main_v63 : IVec S_ 1) (main_v67 : IVec S_ 1) : IVec S_ 1 :=
  let main_v68 : IVec S_ 1 := andi main_v63 main_v67
  let main_v69 : FVec F S1x8 .f32 := Host.absf main_arg14
  let main_cst_26 : FVec F S_ .f32 := constant S_ .f32 0x7F800000#32
  let main_v70 : FVec F S1x8 .f32 := broadcastInDim S1x8 ![] bcast_S_S1x8 main_cst_26
  let main_v71 : IVec S1x8 1 := cmpf .olt main_v69 main_v70
  let main_c_27 : IVec S_ 1 := constantI S_ 1 1#1
  let main_v72 : IVec S_ 1 := (fun x v => Host.reduce IntOp.andi x v reducesTo_S1x8_S_d0_1 h_S_) main_v71 main_c_27
  let main_v73 : IVec S_ 1 := andi main_v68 main_v72
  let main_v74 : FVec F S1x8 .f32 := Host.absf main_arg15
  let main_cst_28 : FVec F S_ .f32 := constant S_ .f32 0x7F800000#32
  let main_v75 : FVec F S1x8 .f32 := broadcastInDim S1x8 ![] bcast_S_S1x8 main_cst_28
  let main_v76 : IVec S1x8 1 := cmpf .olt main_v74 main_v75
  let main_c_29 : IVec S_ 1 := constantI S_ 1 1#1
  let main_v77 : IVec S_ 1 := (fun x v => Host.reduce IntOp.andi x v reducesTo_S1x8_S_d0_1 h_S_) main_v76 main_c_29
  let main_v78 : IVec S_ 1 := andi main_v73 main_v77
  let main_v79 : FVec F S8 .f32 := Host.absf main_arg16
  let main_cst_30 : FVec F S_ .f32 := constant S_ .f32 0x7F800000#32
  let main_v80 : FVec F S8 .f32 := broadcastInDim S8 ![] bcast_S_S8 main_cst_30
  let main_v81 : IVec S8 1 := cmpf .olt main_v79 main_v80
  let main_c_31 : IVec S_ 1 := constantI S_ 1 1#1
  let main_v82 : IVec S_ 1 := (fun x v => Host.reduce IntOp.andi x v reducesTo_S8_S_d0 h_S_) main_v81 main_c_31
  let main_v83 : IVec S_ 1 := andi main_v78 main_v82
  let main_v84 : FVec F S8 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_arg29 main_v83 main_v84 main_cst_32

def fn_part3 {F : FTy → Type} [FloatOps F] (main_arg11 : FVec F S8x8 .f32) (main_arg12 : FVec F S1x8 .f32) (main_arg13 : FVec F S1x8 .f32) (main_arg14 : FVec F S1x8 .f32) (main_arg15 : FVec F S1x8 .f32) (main_arg16 : FVec F S8 .f32) (main_arg17 : FVec F S8 .f32) (main_arg18 : FVec F S8 .f32) (main_arg19 : FVec F S8 .f32) (main_arg20 : FVec F S8x5 .f32) (main_arg21 : FVec F S5 .f32) (main_arg22 : FVec F S5x5 .f32) (main_arg23 : FVec F S5 .f32) (main_arg24 : FVec F S5x1 .f32) (main_arg25 : FVec F S1 .f32) (main_arg26 : FVec F S4x1024 .f32) (main_arg27 : FVec F S4x1 .f32) (main_arg28 : FVec F S1x5 .f32) (main_arg29 : FVec F S1x5 .f32) (main_v48 : IVec S_ 1) (main_v49 : FVec F S8x8 .f32) (main_v50 : FVec F S8x8 .f32) : IVec S_ 1 :=
  let main_v51 : IVec S8x8 1 := cmpf .olt main_v49 main_v50
  let main_c_19 : IVec S_ 1 := constantI S_ 1 1#1
  let main_v52 : IVec S_ 1 := (fun x v => Host.reduce IntOp.andi x v reducesTo_S8x8_S_d0_1 h_S_) main_v51 main_c_19
  let main_v53 : IVec S_ 1 := andi main_v48 main_v52
  let main_v54 : FVec F S8x8 .f32 := Host.absf main_arg11
  let main_cst_20 : FVec F S_ .f32 := constant S_ .f32 0x7F800000#32
  let main_v55 : FVec F S8x8 .f32 := broadcastInDim S8x8 ![] bcast_S_S8x8 main_cst_20
  let main_v56 : IVec S8x8 1 := cmpf .olt main_v54 main_v55
  let main_c_21 : IVec S_ 1 := constantI S_ 1 1#1
  let main_v57 : IVec S_ 1 := (fun x v => Host.reduce IntOp.andi x v reducesTo_S8x8_S_d0_1 h_S_) main_v56 main_c_21
  let main_v58 : IVec S_ 1 := andi main_v53 main_v57
  let main_v59 : FVec F S1x8 .f32 := Host.absf main_arg12
  let main_cst_22 : FVec F S_ .f32 := constant S_ .f32 0x7F800000#32
  let main_v60 : FVec F S1x8 .f32 := broadcastInDim S1x8 ![] bcast_S_S1x8 main_cst_22
  let main_v61 : IVec S1x8 1 := cmpf .olt main_v59 main_v60
  let main_c_23 : IVec S_ 1 := constantI S_ 1 1#1
  let main_v62 : IVec S_ 1 := (fun x v => Host.reduce IntOp.andi x v reducesTo_S1x8_S_d0_1 h_S_) main_v61 main_c_23
  let main_v63 : IVec S_ 1 := andi main_v58 main_v62
  let main_v64 : FVec F S1x8 .f32 := Host.absf main_arg13
  let main_cst_24 : FVec F S_ .f32 := constant S_ .f32 0x7F800000#32
  let main_v65 : FVec F S1x8 .f32 := broadcastInDim S1x8 ![] bcast_S_S1x8 main_cst_24
  let main_v66 : IVec S1x8 1 := cmpf .olt main_v64 main_v65
  let main_c_25 : IVec S_ 1 := constantI S_ 1 1#1
  let main_v67 : IVec S_ 1 := (fun x v => Host.reduce IntOp.andi x v reducesTo_S1x8_S_d0_1 h_S_) main_v66 main_c_25
  fn_part4 (F := F) main_arg14 main_arg15 main_arg16 main_arg17 main_arg18 main_arg19 main_arg20 main_arg21 main_arg22 main_arg23 main_arg24 main_arg25 main_arg26 main_arg27 main_arg28 main_arg29 main_v63 main_v67

def fn_part2 {F : FTy → Type} [FloatOps F] (main_arg7 : FVec F S1024x8 .f32) (main_arg8 : FVec F S8x8 .f32) (main_arg9 : FVec F S8x8 .f32) (main_arg10 : FVec F S8x8 .f32) (main_arg11 : FVec F S8x8 .f32) (main_arg12 : FVec F S1x8 .f32) (main_arg13 : FVec F S1x8 .f32) (main_arg14 : FVec F S1x8 .f32) (main_arg15 : FVec F S1x8 .f32) (main_arg16 : FVec F S8 .f32) (main_arg17 : FVec F S8 .f32) (main_arg18 : FVec F S8 .f32) (main_arg19 : FVec F S8 .f32) (main_arg20 : FVec F S8x5 .f32) (main_arg21 : FVec F S5 .f32) (main_arg22 : FVec F S5x5 .f32) (main_arg23 : FVec F S5 .f32) (main_arg24 : FVec F S5x1 .f32) (main_arg25 : FVec F S1 .f32) (main_arg26 : FVec F S4x1024 .f32) (main_arg27 : FVec F S4x1 .f32) (main_arg28 : FVec F S1x5 .f32) (main_arg29 : FVec F S1x5 .f32) (main_v33 : IVec S_ 1) : IVec S_ 1 :=
  let main_v34 : FVec F S1024x8 .f32 := Host.absf main_arg7
  let main_cst_12 : FVec F S_ .f32 := constant S_ .f32 0x7F800000#32
  let main_v35 : FVec F S1024x8 .f32 := broadcastInDim S1024x8 ![] bcast_S_S1024x8 main_cst_12
  let main_v36 : IVec S1024x8 1 := cmpf .olt main_v34 main_v35
  let main_c_13 : IVec S_ 1 := constantI S_ 1 1#1
  let main_v37 : IVec S_ 1 := (fun x v => Host.reduce IntOp.andi x v reducesTo_S1024x8_S_d0_1 h_S_) main_v36 main_c_13
  let main_v38 : IVec S_ 1 := andi main_v33 main_v37
  let main_v39 : FVec F S8x8 .f32 := Host.absf main_arg8
  let main_cst_14 : FVec F S_ .f32 := constant S_ .f32 0x7F800000#32
  let main_v40 : FVec F S8x8 .f32 := broadcastInDim S8x8 ![] bcast_S_S8x8 main_cst_14
  let main_v41 : IVec S8x8 1 := cmpf .olt main_v39 main_v40
  let main_c_15 : IVec S_ 1 := constantI S_ 1 1#1
  let main_v42 : IVec S_ 1 := (fun x v => Host.reduce IntOp.andi x v reducesTo_S8x8_S_d0_1 h_S_) main_v41 main_c_15
  let main_v43 : IVec S_ 1 := andi main_v38 main_v42
  let main_v44 : FVec F S8x8 .f32 := Host.absf main_arg9
  let main_cst_16 : FVec F S_ .f32 := constant S_ .f32 0x7F800000#32
  let main_v45 : FVec F S8x8 .f32 := broadcastInDim S8x8 ![] bcast_S_S8x8 main_cst_16
  let main_v46 : IVec S8x8 1 := cmpf .olt main_v44 main_v45
  let main_c_17 : IVec S_ 1 := constantI S_ 1 1#1
  let main_v47 : IVec S_ 1 := (fun x v => Host.reduce IntOp.andi x v reducesTo_S8x8_S_d0_1 h_S_) main_v46 main_c_17
  let main_v48 : IVec S_ 1 := andi main_v43 main_v47
  let main_v49 : FVec F S8x8 .f32 := Host.absf main_arg10
  let main_cst_18 : FVec F S_ .f32 := constant S_ .f32 0x7F800000#32
  let main_v50 : FVec F S8x8 .f32 := broadcastInDim S8x8 ![] bcast_S_S8x8 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_arg29 main_v48 main_v49 main_v50

def fn_part1 {F : FTy → Type} [FloatOps F] (main_arg4 : FVec F S1024x8 .f32) (main_arg5 : FVec F S1024x8 .f32) (main_arg6 : FVec F S1024x8 .f32) (main_arg7 : FVec F S1024x8 .f32) (main_arg8 : FVec F S8x8 .f32) (main_arg9 : FVec F S8x8 .f32) (main_arg10 : FVec F S8x8 .f32) (main_arg11 : FVec F S8x8 .f32) (main_arg12 : FVec F S1x8 .f32) (main_arg13 : FVec F S1x8 .f32) (main_arg14 : FVec F S1x8 .f32) (main_arg15 : FVec F S1x8 .f32) (main_arg16 : FVec F S8 .f32) (main_arg17 : FVec F S8 .f32) (main_arg18 : FVec F S8 .f32) (main_arg19 : FVec F S8 .f32) (main_arg20 : FVec F S8x5 .f32) (main_arg21 : FVec F S5 .f32) (main_arg22 : FVec F S5x5 .f32) (main_arg23 : FVec F S5 .f32) (main_arg24 : FVec F S5x1 .f32) (main_arg25 : FVec F S1 .f32) (main_arg26 : FVec F S4x1024 .f32) (main_arg27 : FVec F S4x1 .f32) (main_arg28 : FVec F S1x5 .f32) (main_arg29 : FVec F S1x5 .f32) (main_v13 : IVec S_ 1) (main_v16 : IVec S65536x1 1) : IVec S_ 1 :=
  let main_c_5 : IVec S_ 1 := constantI S_ 1 1#1
  let main_v17 : IVec S_ 1 := (fun x v => Host.reduce IntOp.andi x v reducesTo_S65536x1_S_d0_1 h_S_) main_v16 main_c_5
  let main_v18 : IVec S_ 1 := andi main_v13 main_v17
  let main_v19 : FVec F S1024x8 .f32 := Host.absf main_arg4
  let main_cst_6 : FVec F S_ .f32 := constant S_ .f32 0x7F800000#32
  let main_v20 : FVec F S1024x8 .f32 := broadcastInDim S1024x8 ![] bcast_S_S1024x8 main_cst_6
  let main_v21 : IVec S1024x8 1 := cmpf .olt main_v19 main_v20
  let main_c_7 : IVec S_ 1 := constantI S_ 1 1#1
  let main_v22 : IVec S_ 1 := (fun x v => Host.reduce IntOp.andi x v reducesTo_S1024x8_S_d0_1 h_S_) main_v21 main_c_7
  let main_v23 : IVec S_ 1 := andi main_v18 main_v22
  let main_v24 : FVec F S1024x8 .f32 := Host.absf main_arg5
  let main_cst_8 : FVec F S_ .f32 := constant S_ .f32 0x7F800000#32
  let main_v25 : FVec F S1024x8 .f32 := broadcastInDim S1024x8 ![] bcast_S_S1024x8 main_cst_8
  let main_v26 : IVec S1024x8 1 := cmpf .olt main_v24 main_v25
  let main_c_9 : IVec S_ 1 := constantI S_ 1 1#1
  let main_v27 : IVec S_ 1 := (fun x v => Host.reduce IntOp.andi x v reducesTo_S1024x8_S_d0_1 h_S_) main_v26 main_c_9
  let main_v28 : IVec S_ 1 := andi main_v23 main_v27
  let main_v29 : FVec F S1024x8 .f32 := Host.absf main_arg6
  let main_cst_10 : FVec F S_ .f32 := constant S_ .f32 0x7F800000#32
  let main_v30 : FVec F S1024x8 .f32 := broadcastInDim S1024x8 ![] bcast_S_S1024x8 main_cst_10
  let main_v31 : IVec S1024x8 1 := cmpf .olt main_v29 main_v30
  let main_c_11 : IVec S_ 1 := constantI S_ 1 1#1
  let main_v32 : IVec S_ 1 := (fun x v => Host.reduce IntOp.andi x v reducesTo_S1024x8_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v33

def fn {F : FTy → Type} [FloatOps F] (main_arg0 : FVec F S65536x1024 .f32) (main_arg1 : FVec F S1x65536x8 .f32) (main_arg2 : FVec F S1x65536x8 .f32) (main_arg3 : FVec F S65536x1 .f32) (main_arg4 : FVec F S1024x8 .f32) (main_arg5 : FVec F S1024x8 .f32) (main_arg6 : FVec F S1024x8 .f32) (main_arg7 : FVec F S1024x8 .f32) (main_arg8 : FVec F S8x8 .f32) (main_arg9 : FVec F S8x8 .f32) (main_arg10 : FVec F S8x8 .f32) (main_arg11 : FVec F S8x8 .f32) (main_arg12 : FVec F S1x8 .f32) (main_arg13 : FVec F S1x8 .f32) (main_arg14 : FVec F S1x8 .f32) (main_arg15 : FVec F S1x8 .f32) (main_arg16 : FVec F S8 .f32) (main_arg17 : FVec F S8 .f32) (main_arg18 : FVec F S8 .f32) (main_arg19 : FVec F S8 .f32) (main_arg20 : FVec F S8x5 .f32) (main_arg21 : FVec F S5 .f32) (main_arg22 : FVec F S5x5 .f32) (main_arg23 : FVec F S5 .f32) (main_arg24 : FVec F S5x1 .f32) (main_arg25 : FVec F S1 .f32) (main_arg26 : FVec F S4x1024 .f32) (main_arg27 : FVec F S4x1 .f32) (main_arg28 : FVec F S1x5 .f32) (main_arg29 : FVec F S1x5 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S1x65536x8 .f32 := Host.absf main_arg1
  let main_cst_0 : FVec F S_ .f32 := constant S_ .f32 0x7F800000#32
  let main_v5 : FVec F S1x65536x8 .f32 := broadcastInDim S1x65536x8 ![] bcast_S_S1x65536x8 main_cst_0
  let main_v6 : IVec S1x65536x8 1 := cmpf .olt main_v4 main_v5
  let main_c_1 : IVec S_ 1 := constantI S_ 1 1#1
  let main_v7 : IVec S_ 1 := (fun x v => Host.reduce IntOp.andi x v reducesTo_S1x65536x8_S_d0_1_2 h_S_) main_v6 main_c_1
  let main_v8 : IVec S_ 1 := andi main_v3 main_v7
  let main_v9 : FVec F S1x65536x8 .f32 := Host.absf main_arg2
  let main_cst_2 : FVec F S_ .f32 := constant S_ .f32 0x7F800000#32
  let main_v10 : FVec F S1x65536x8 .f32 := broadcastInDim S1x65536x8 ![] bcast_S_S1x65536x8 main_cst_2
  let main_v11 : IVec S1x65536x8 1 := cmpf .olt main_v9 main_v10
  let main_c_3 : IVec S_ 1 := constantI S_ 1 1#1
  let main_v12 : IVec S_ 1 := (fun x v => Host.reduce IntOp.andi x v reducesTo_S1x65536x8_S_d0_1_2 h_S_) main_v11 main_c_3
  let main_v13 : IVec S_ 1 := andi main_v8 main_v12
  let main_v14 : FVec F S65536x1 .f32 := Host.absf main_arg3
  let main_cst_4 : FVec F S_ .f32 := constant S_ .f32 0x7F800000#32
  let main_v15 : FVec F S65536x1 .f32 := broadcastInDim S65536x1 ![] bcast_S_S65536x1 main_cst_4
  let main_v16 : IVec S65536x1 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v13 main_v16
-- ==== Kernel.lean ====
abbrev S65536x1024 : Shape := ⟨2, ![65536, 1024]⟩
abbrev S1x65536x8 : Shape := ⟨3, ![1, 65536, 8]⟩
abbrev S65536x1 : Shape := ⟨2, ![65536, 1]⟩
abbrev S1024x8 : Shape := ⟨2, ![1024, 8]⟩
abbrev S8x8 : Shape := ⟨2, ![8, 8]⟩
abbrev S1x8 : Shape := ⟨2, ![1, 8]⟩
abbrev S8 : Shape := ⟨1, ![8]⟩
abbrev S8x5 : Shape := ⟨2, ![8, 5]⟩
abbrev S5 : Shape := ⟨1, ![5]⟩
abbrev S5x5 : Shape := ⟨2, ![5, 5]⟩
abbrev S5x1 : Shape := ⟨2, ![5, 1]⟩
abbrev S1 : Shape := ⟨1, ![1]⟩
abbrev S4x1024 : Shape := ⟨2, ![4, 1024]⟩
abbrev S4x1 : Shape := ⟨2, ![4, 1]⟩
abbrev S1x5 : Shape := ⟨2, ![1, 5]⟩
abbrev S1x1024 : Shape := ⟨2, ![1, 1024]⟩
abbrev S1024 : Shape := ⟨1, ![1024]⟩
abbrev S1024x1 : Shape := ⟨2, ![1024, 1]⟩
abbrev S1x1 : Shape := ⟨2, ![1, 1]⟩
abbrev S1024x32 : Shape := ⟨2, ![1024, 32]⟩
abbrev S8x32 : Shape := ⟨2, ![8, 32]⟩
abbrev S1x32 : Shape := ⟨2, ![1, 32]⟩
abbrev S32 : Shape := ⟨1, ![32]⟩
abbrev S32x1 : Shape := ⟨2, ![32, 1]⟩
abbrev S65536x8 : Shape := ⟨2, ![65536, 8]⟩
abbrev S8x65536 : Shape := ⟨2, ![8, 65536]⟩
abbrev S1x65536 : Shape := ⟨2, ![1, 65536]⟩
abbrev S2048x1024 : Shape := ⟨2, ![2048, 1024]⟩
abbrev S8x2048 : Shape := ⟨2, ![8, 2048]⟩
abbrev S1x2048 : Shape := ⟨2, ![1, 2048]⟩
abbrev S32x2048 : Shape := ⟨2, ![32, 2048]⟩
abbrev S5x2048 : Shape := ⟨2, ![5, 2048]⟩

abbrev nBuf : Space → Nat
  | .hbm => 92
  | .vmem => 26
  | .smem => 0
  | _ => 0

abbrev bufTy : (tb : Table) → Fin (tcTables nBuf tb) → BufTy
  | .hbm, ⟨0, _⟩ => ⟨S65536x1024, .f32⟩
  | .hbm, ⟨1, _⟩ => ⟨S1x65536x8, .f32⟩
  | .hbm, ⟨2, _⟩ => ⟨S1x65536x8, .f32⟩
  | .hbm, ⟨3, _⟩ => ⟨S65536x1, .f32⟩
  | .hbm, ⟨4, _⟩ => ⟨S1024x8, .f32⟩
  | .hbm, ⟨5, _⟩ => ⟨S1024x8, .f32⟩
  | .hbm, ⟨6, _⟩ => ⟨S1024x8, .f32⟩
  | .hbm, ⟨7, _⟩ => ⟨S1024x8, .f32⟩
  | .hbm, ⟨8, _⟩ => ⟨S8x8, .f32⟩
  | .hbm, ⟨9, _⟩ => ⟨S8x8, .f32⟩
  | .hbm, ⟨10, _⟩ => ⟨S8x8, .f32⟩
  | .hbm, ⟨11, _⟩ => ⟨S8x8, .f32⟩
  | .hbm, ⟨12, _⟩ => ⟨S1x8, .f32⟩
  | .hbm, ⟨13, _⟩ => ⟨S1x8, .f32⟩
  | .hbm, ⟨14, _⟩ => ⟨S1x8, .f32⟩
  | .hbm, ⟨15, _⟩ => ⟨S1x8, .f32⟩
  | .hbm, ⟨16, _⟩ => ⟨S8, .f32⟩
  | .hbm, ⟨17, _⟩ => ⟨S8, .f32⟩
  | .hbm, ⟨18, _⟩ => ⟨S8, .f32⟩
  | .hbm, ⟨19, _⟩ => ⟨S8, .f32⟩
  | .hbm, ⟨20, _⟩ => ⟨S8x5, .f32⟩
  | .hbm, ⟨21, _⟩ => ⟨S5, .f32⟩
  | .hbm, ⟨22, _⟩ => ⟨S5x5, .f32⟩
  | .hbm, ⟨23, _⟩ => ⟨S5, .f32⟩
  | .hbm, ⟨24, _⟩ => ⟨S5x1, .f32⟩
  | .hbm, ⟨25, _⟩ => ⟨S1, .f32⟩
  | .hbm, ⟨26, _⟩ => ⟨S4x1024, .f32⟩
  | .hbm, ⟨27, _⟩ => ⟨S4x1, .f32⟩
  | .hbm, ⟨28, _⟩ => ⟨S1x5, .f32⟩
  | .hbm, ⟨29, _⟩ => ⟨S1x5, .f32⟩
  | .hbm, ⟨30, _⟩ => ⟨S1x1024, .f32⟩
  | .hbm, ⟨31, _⟩ => ⟨S1024, .f32⟩
  | .hbm, ⟨32, _⟩ => ⟨S1024x1, .f32⟩
  | .hbm, ⟨33, _⟩ => ⟨S1024x8, .f32⟩
  | .hbm, ⟨34, _⟩ => ⟨S1024x8, .f32⟩
  | .hbm, ⟨35, _⟩ => ⟨S1x1024, .f32⟩
  | .hbm, ⟨36, _⟩ => ⟨S1024, .f32⟩
  | .hbm, ⟨37, _⟩ => ⟨S1024x1, .f32⟩
  | .hbm, ⟨38, _⟩ => ⟨S1024x8, .f32⟩
  | .hbm, ⟨39, _⟩ => ⟨S1024x8, .f32⟩
  | .hbm, ⟨40, _⟩ => ⟨S1x1024, .f32⟩
  | .hbm, ⟨41, _⟩ => ⟨S1024, .f32⟩
  | .hbm, ⟨42, _⟩ => ⟨S1024x1, .f32⟩
  | .hbm, ⟨43, _⟩ => ⟨S1024x8, .f32⟩
  | .hbm, ⟨44, _⟩ => ⟨S1024x8, .f32⟩
  | .hbm, ⟨45, _⟩ => ⟨S1x1024, .f32⟩
  | .hbm, ⟨46, _⟩ => ⟨S1024, .f32⟩
  | .hbm, ⟨47, _⟩ => ⟨S1024x1, .f32⟩
  | .hbm, ⟨48, _⟩ => ⟨S1024x8, .f32⟩
  | .hbm, ⟨49, _⟩ => ⟨S1024x8, .f32⟩
  | .hbm, ⟨50, _⟩ => ⟨S1x1, .f32⟩
  | .hbm, ⟨51, _⟩ => ⟨S1, .f32⟩
  | .hbm, ⟨52, _⟩ => ⟨S1x1, .f32⟩
  | .hbm, ⟨53, _⟩ => ⟨S1x8, .f32⟩
  | .hbm, ⟨54, _⟩ => ⟨S1x8, .f32⟩
  | .hbm, ⟨55, _⟩ => ⟨S1x1, .f32⟩
  | .hbm, ⟨56, _⟩ => ⟨S1, .f32⟩
  | .hbm, ⟨57, _⟩ => ⟨S1x1, .f32⟩
  | .hbm, ⟨58, _⟩ => ⟨S1x8, .f32⟩
  | .hbm, ⟨59, _⟩ => ⟨S1x8, .f32⟩
  | .hbm, ⟨60, _⟩ => ⟨S1x1, .f32⟩
  | .hbm, ⟨61, _⟩ => ⟨S1, .f32⟩
  | .hbm, ⟨62, _⟩ => ⟨S1x1, .f32⟩
  | .hbm, ⟨63, _⟩ => ⟨S1x8, .f32⟩
  | .hbm, ⟨64, _⟩ => ⟨S1x8, .f32⟩
  | .hbm, ⟨65, _⟩ => ⟨S1x1, .f32⟩
  | .hbm, ⟨66, _⟩ => ⟨S1, .f32⟩
  | .hbm, ⟨67, _⟩ => ⟨S1x1, .f32⟩
  | .hbm, ⟨68, _⟩ => ⟨S1x8, .f32⟩
  | .hbm, ⟨69, _⟩ => ⟨S1x8, .f32⟩
  | .hbm, ⟨70, _⟩ => ⟨S1024x32, .f32⟩
  | .hbm, ⟨71, _⟩ => ⟨S8x32, .f32⟩
  | .hbm, ⟨72, _⟩ => ⟨S1x32, .f32⟩
  | .hbm, ⟨73, _⟩ => ⟨S32, .f32⟩
  | .hbm, ⟨74, _⟩ => ⟨S32x1, .f32⟩
  | .hbm, ⟨75, _⟩ => ⟨S32x1, .f32⟩
  | .hbm, ⟨76, _⟩ => ⟨S5x1, .f32⟩
  | .hbm, ⟨77, _⟩ => ⟨S5x1, .f32⟩
  | .hbm, ⟨78, _⟩ => ⟨S1x1, .f32⟩
  | .hbm, ⟨79, _⟩ => ⟨S5x1, .f32⟩
  | .hbm, ⟨80, _⟩ => ⟨S5x1, .f32⟩
  | .hbm, ⟨81, _⟩ => ⟨S65536x8, .f32⟩
  | .hbm, ⟨82, _⟩ => ⟨S8x65536, .f32⟩
  | .hbm, ⟨83, _⟩ => ⟨S65536x8, .f32⟩
  | .hbm, ⟨84, _⟩ => ⟨S8x65536, .f32⟩
  | .hbm, ⟨85, _⟩ => ⟨S1x65536, .f32⟩
  | .hbm, ⟨86, _⟩ => ⟨S1x65536, .f32⟩
  | .hbm, ⟨87, _⟩ => ⟨S8x65536, .f32⟩
  | .hbm, ⟨88, _⟩ => ⟨S8x65536, .f32⟩
  | .hbm, ⟨89, _⟩ => ⟨S65536x1, .f32⟩
  | .hbm, ⟨90, _⟩ => ⟨S65536x8, .f32⟩
  | .hbm, ⟨91, _⟩ => ⟨S65536x8, .f32⟩
  | .local _ .vmem, ⟨0, _⟩ => ⟨S2048x1024, .f32⟩
  | .local _ .vmem, ⟨1, _⟩ => ⟨S2048x1024, .f32⟩
  | .local _ .vmem, ⟨2, _⟩ => ⟨S8x2048, .f32⟩
  | .local _ .vmem, ⟨3, _⟩ => ⟨S8x2048, .f32⟩
  | .local _ .vmem, ⟨4, _⟩ => ⟨S8x2048, .f32⟩
  | .local _ .vmem, ⟨5, _⟩ => ⟨S8x2048, .f32⟩
  | .local _ .vmem, ⟨6, _⟩ => ⟨S1x2048, .f32⟩
  | .local _ .vmem, ⟨7, _⟩ => ⟨S1x2048, .f32⟩
  | .local _ .vmem, ⟨8, _⟩ => ⟨S1024x32, .f32⟩
  | .local _ .vmem, ⟨9, _⟩ => ⟨S8x32, .f32⟩
  | .local _ .vmem, ⟨10, _⟩ => ⟨S32x1, .f32⟩
  | .local _ .vmem, ⟨11, _⟩ => ⟨S32x1, .f32⟩
  | .local _ .vmem, ⟨12, _⟩ => ⟨S8x5, .f32⟩
  | .local _ .vmem, ⟨13, _⟩ => ⟨S5x1, .f32⟩
  | .local _ .vmem, ⟨14, _⟩ => ⟨S5x5, .f32⟩
  | .local _ .vmem, ⟨15, _⟩ => ⟨S5x1, .f32⟩
  | .local _ .vmem, ⟨16, _⟩ => ⟨S5x1, .f32⟩
  | .local _ .vmem, ⟨17, _⟩ => ⟨S1x1, .f32⟩
  | .local _ .vmem, ⟨18, _⟩ => ⟨S5x1, .f32⟩
  | .local _ .vmem, ⟨19, _⟩ => ⟨S5x1, .f32⟩
  | .local _ .vmem, ⟨20, _⟩ => ⟨S1x2048, .f32⟩
  | .local _ .vmem, ⟨21, _⟩ => ⟨S1x2048, .f32⟩
  | .local _ .vmem, ⟨22, _⟩ => ⟨S8x2048, .f32⟩
  | .local _ .vmem, ⟨23, _⟩ => ⟨S8x2048, .f32⟩
  | .local _ .vmem, ⟨24, _⟩ => ⟨S8x2048, .f32⟩
  | .local _ .vmem, ⟨25, _⟩ => ⟨S8x2048, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56_0 : Ref sig .tc := ⟨.hbm, 86, rfl⟩
abbrev main_v56_1 : Ref sig .tc := ⟨.hbm, 87, rfl⟩
abbrev main_v56_2 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x5 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S5x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S5x5 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S5x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S5x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S5x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S5x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x2048 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x2048 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

class Facts₀ : Prop where
  slices_S4x1024_S1x1024_0_0 : S4x1024.Slices ![0, 0] S1x1024
  shapeCasts_S1x1024_S1024 : S1x1024.ShapeCasts S1024
  bcast_S1024_S1024x1_0 : S1024.BroadcastsInDim S1024x1 (![0] : Fin 1 → Fin S1024x1.rank)
  bcast_S1024x1_S1024x8_0_1 : S1024x1.BroadcastsInDim S1024x8 (![0, 1] : Fin 2 → Fin S1024x8.rank)
  slices_S4x1024_S1x1024_1_0 : S4x1024.Slices ![1, 0] S1x1024
  slices_S4x1024_S1x1024_2_0 : S4x1024.Slices ![2, 0] S1x1024
  slices_S4x1024_S1x1024_3_0 : S4x1024.Slices ![3, 0] S1x1024
  slices_S4x1_S1x1_0_0 : S4x1.Slices ![0, 0] S1x1
  shapeCasts_S1x1_S1 : S1x1.ShapeCasts S1
  bcast_S1_S1x1_0 : S1.BroadcastsInDim S1x1 (![0] : Fin 1 → Fin S1x1.rank)
  bcast_S1x1_S1x8_0_1 : S1x1.BroadcastsInDim S1x8 (![0, 1] : Fin 2 → Fin S1x8.rank)
  slices_S4x1_S1x1_1_0 : S4x1.Slices ![1, 0] S1x1
  slices_S4x1_S1x1_2_0 : S4x1.Slices ![2, 0] S1x1
  slices_S4x1_S1x1_3_0 : S4x1.Slices ![3, 0] S1x1
  concatenates_S1024x8_S1024x8_S1024x8_S1024x8_S1024x32_d1 : Shape.Concatenates [S1024x8, S1024x8, S1024x8, S1024x8] S1024x32 1
  concatenates_S8x8_S8x8_S8x8_S8x8_S8x32_d1 : Shape.Concatenates [S8x8, S8x8, S8x8, S8x8] S8x32 1
  concatenates_S1x8_S1x8_S1x8_S1x8_S1x32_d1 : Shape.Concatenates [S1x8, S1x8, S1x8, S1x8] S1x32 1
  concatenates_S8_S8_S8_S8_S32_d0 : Shape.Concatenates [S8, S8, S8, S8] S32 0
  transposes_S1x32_S32x1_1_0 : S1x32.Transposes [1, 0] S32x1
  shapeCasts_S32_S32x1 : S32.ShapeCasts S32x1
  shapeCasts_S5_S5x1 : S5.ShapeCasts S5x1
  shapeCasts_S1_S1x1 : S1.ShapeCasts S1x1
  shapeCasts_S1x5_S5x1 : S1x5.ShapeCasts S5x1
  shapeCasts_S1x65536x8_S65536x8 : S1x65536x8.ShapeCasts S65536x8
  transposes_S65536x8_S8x65536_1_0 : S65536x8.Transposes [1, 0] S8x65536
  transposes_S65536x1_S1x65536_1_0 : S65536x1.Transposes [1, 0] S1x65536
  inb_S2048x1024_S2048x1024_0_0 : ∀ a, (![0, 0] : Fin 2 → Nat) a + S2048x1024.size a ≤ S2048x1024.size a
  h_S2048x1024 : 0 < S2048x1024.numel
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  bitsLt_bf16_f32 : FTy.bits .bf16 < FTy.bits .f32
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S8x32_S8x32_0_0 : ∀ a, (![0, 0] : Fin 2 → Nat) a + S8x32.size a ≤ S8x32.size a
  h_S8x32 : 0 < S8x32.numel
  shapeCasts_S8x32_S8x32 : S8x32.ShapeCasts S8x32
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x2048 : S32x1.Broadcasts S32x2048
  broadcasts_S1x2048_S32x2048 : S1x2048.Broadcasts S32x2048
  slices_S32x2048_o0_0_S8x2048 : S32x2048.Slices ![0, 0] S8x2048
  slices_S32x2048_o8_0_S8x2048 : S32x2048.Slices ![8, 0] S8x2048
  slices_S32x2048_o16_0_S8x2048 : S32x2048.Slices ![16, 0] S8x2048
  slices_S32x2048_o24_0_S8x2048 : S32x2048.Slices ![24, 0] S8x2048
  inb_S8x5_S8x5_0_0 : ∀ a, (![0, 0] : Fin 2 → Nat) a + S8x5.size a ≤ S8x5.size a
  h_S8x5 : 0 < S8x5.numel
  inb_S5x1_S5x1_0_0 : ∀ a, (![0, 0] : Fin 2 → Nat) a + S5x1.size a ≤ S5x1.size a
  h_S5x1 : 0 < S5x1.numel
  shapeCasts_S5x1_S5x1 : S5x1.ShapeCasts S5x1
  broadcasts_S5x1_S5x2048 : S5x1.Broadcasts S5x2048
  inb_S5x5_S5x5_0_0 : ∀ a, (![0, 0] : Fin 2 → Nat) a + S5x5.size a ≤ S5x5.size a
  h_S5x5 : 0 < S5x5.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x2048 : S1x1.Broadcasts S1x2048
  transposes_S1x65536_S65536x1_1_0 : S1x65536.Transposes [1, 0] S65536x1
  transposes_S8x65536_S65536x8_1_0 : S8x65536.Transposes [1, 0] S65536x8
  dot_S1024x32_S2048x1024_S32x2048_0_1_1_0_n_n_wf : DotDims.WF S1024x32 S2048x1024 S32x2048 [0] [1] [1] [0] [] []
  dot_S8x32_S8x2048_S32x2048_0_0_1_1_n_n_wf : DotDims.WF S8x32 S8x2048 S32x2048 [0] [0] [1] [1] [] []
  dot_S8x5_S8x2048_S5x2048_0_0_1_1_n_n_wf : DotDims.WF S8x5 S8x2048 S5x2048 [0] [0] [1] [1] [] []
  dot_S5x5_S5x2048_S5x2048_0_0_1_1_n_n_wf : DotDims.WF S5x5 S5x2048 S5x2048 [0] [0] [1] [1] [] []
  dot_S5x1_S5x2048_S1x2048_0_0_1_1_n_n_wf : DotDims.WF S5x1 S5x2048 S1x2048 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x2048.size a ≤ S8x65536.size a
  hwx0_1 : ∀ i : grid0.Coords, EltTy.bits .f32 = 32 ∨ (Rect.block (s := S8x65536) S8x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x2048.size a ≤ S8x65536.size a
  hwx0_2 : ∀ i : grid0.Coords, EltTy.bits .f32 = 32 ∨ (Rect.block (s := S8x65536) S8x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x65536.size a
  hwx0_3 : ∀ i : grid0.Coords, EltTy.bits .f32 = 32 ∨ (Rect.block (s := S1x65536) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x32.size a ≤ S1024x32.size a
  hwx0_4 : ∀ i : grid0.Coords, EltTy.bits .f32 = 32 ∨ (Rect.block (s := S1024x32) S1024x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x32.size a ≤ S8x32.size a
  hwx0_5 : ∀ i : grid0.Coords, EltTy.bits .f32 = 32 ∨ (Rect.block (s := S8x32) S8x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x1.size a ≤ S32x1.size a
  hwx0_6 : ∀ i : grid0.Coords, EltTy.bits .f32 = 32 ∨ (Rect.block (s := S32x1) S32x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x1.size a ≤ S32x1.size a
  hwx0_7 : ∀ i : grid0.Coords, EltTy.bits .f32 = 32 ∨ (Rect.block (s := S32x1) S32x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8x5.size a ≤ S8x5.size a
  hwx0_8 : ∀ i : grid0.Coords, EltTy.bits .f32 = 32 ∨ (Rect.block (s := S8x5) S8x5.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S5x1.size a ≤ S5x1.size a
  hwx0_9 : ∀ i : grid0.Coords, EltTy.bits .f32 = 32 ∨ (Rect.block (s := S5x1) S5x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S5x5.size a ≤ S5x5.size a
  hwx0_10 : ∀ i : grid0.Coords, EltTy.bits .f32 = 32 ∨ (Rect.block (s := S5x5) S5x5.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S5x1.size a ≤ S5x1.size a
  hwx0_11 : ∀ i : grid0.Coords, EltTy.bits .f32 = 32 ∨ (Rect.block (s := S5x1) S5x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S5x1.size a ≤ S5x1.size a
  hwx0_12 : ∀ i : grid0.Coords, EltTy.bits .f32 = 32 ∨ (Rect.block (s := S5x1) S5x1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1.size a ≤ S1x1.size a
  hwx0_13 : ∀ i : grid0.Coords, EltTy.bits .f32 = 32 ∨ (Rect.block (s := S1x1) S1x1.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S5x1.size a ≤ S5x1.size a
  hwx0_14 : ∀ i : grid0.Coords, EltTy.bits .f32 = 32 ∨ (Rect.block (s := S5x1) S5x1.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S5x1.size a ≤ S5x1.size a
  hwx0_15 : ∀ i : grid0.Coords, EltTy.bits .f32 = 32 ∨ (Rect.block (s := S5x1) S5x1.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x2048.size a ≤ S1x65536.size a
  hwx0_16 : ∀ i : grid0.Coords, EltTy.bits .f32 = 32 ∨ (Rect.block (s := S1x65536) S1x2048.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S8x2048.size a ≤ S8x65536.size a
  hwx0_17 : ∀ i : grid0.Coords, EltTy.bits .f32 = 32 ∨ (Rect.block (s := S8x65536) S8x2048.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S8x2048.size a ≤ S8x65536.size a
  hwx0_18 : ∀ i : grid0.Coords, EltTy.bits .f32 = 32 ∨ (Rect.block (s := S8x65536) S8x2048.size (cc0_transform_18 i) (hinb0_18 i)).WholeWords (EltTy.packing .f32)

variable [Facts₀]

def dot_S1024x32_S2048x1024_S32x2048_0_1_1_0_n_n : DotDims S1024x32 S2048x1024 S32x2048 where
  lhsContracting := [0]
  rhsContracting := [1]
  lhsNonContracting := [1]
  rhsNonContracting := [0]
  lhsBatch := []
  rhsBatch := []
  wf := dot_S1024x32_S2048x1024_S32x2048_0_1_1_0_n_n_wf
def dot_S8x32_S8x2048_S32x2048_0_0_1_1_n_n : DotDims S8x32 S8x2048 S32x2048 where
  lhsContracting := [0]
  rhsContracting := [0]
  lhsNonContracting := [1]
  rhsNonContracting := [1]
  lhsBatch := []
  rhsBatch := []
  wf := dot_S8x32_S8x2048_S32x2048_0_0_1_1_n_n_wf
def dot_S8x5_S8x2048_S5x2048_0_0_1_1_n_n : DotDims S8x5 S8x2048 S5x2048 where
  lhsContracting := [0]
  rhsContracting := [0]
  lhsNonContracting := [1]
  rhsNonContracting := [1]
  lhsBatch := []
  rhsBatch := []
  wf := dot_S8x5_S8x2048_S5x2048_0_0_1_1_n_n_wf
def dot_S5x5_S5x2048_S5x2048_0_0_1_1_n_n : DotDims S5x5 S5x2048 S5x2048 where
  lhsContracting := [0]
  rhsContracting := [0]
  lhsNonContracting := [1]
  rhsNonContracting := [1]
  lhsBatch := []
  rhsBatch := []
  wf := dot_S5x5_S5x2048_S5x2048_0_0_1_1_n_n_wf
def dot_S5x1_S5x2048_S1x2048_0_0_1_1_n_n : DotDims S5x1 S5x2048 S1x2048 where
  lhsContracting := [0]
  rhsContracting := [0]
  lhsNonContracting := [1]
  rhsNonContracting := [1]
  lhsBatch := []
  rhsBatch := []
  wf := dot_S5x1_S5x2048_S1x2048_0_0_1_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v52) S8x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v54) S8x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v55) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v40) S1024x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v41) S8x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v44) S32x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v45) S32x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg20) S8x5.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v46) S5x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg22) S5x5.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v47) S5x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg24) S5x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v48) S1x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v49) S5x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v50) S5x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v56_0) S1x2048.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v56_1) S8x2048.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v56_2) S8x2048.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S1x65536x8 : Shape := ⟨3, ![1, 65536, 8]⟩
abbrev S65536x1 : Shape := ⟨2, ![65536, 1]⟩
abbrev S1024x8 : Shape := ⟨2, ![1024, 8]⟩
abbrev S8x8 : Shape := ⟨2, ![8, 8]⟩
abbrev S1x8 : Shape := ⟨2, ![1, 8]⟩
abbrev S8 : Shape := ⟨1, ![8]⟩
abbrev S8x5 : Shape := ⟨2, ![8, 5]⟩
abbrev S5 : Shape := ⟨1, ![5]⟩
abbrev S5x5 : Shape := ⟨2, ![5, 5]⟩
abbrev S5x1 : Shape := ⟨2, ![5, 1]⟩
abbrev S1 : Shape := ⟨1, ![1]⟩
abbrev S4x1024 : Shape := ⟨2, ![4, 1024]⟩
abbrev S4x1 : Shape := ⟨2, ![4, 1]⟩
abbrev S1x5 : Shape := ⟨2, ![1, 5]⟩
abbrev S65536x8 : Shape := ⟨2, ![65536, 8]⟩
abbrev S1x65536x1024 : Shape := ⟨3, ![1, 65536, 1024]⟩
abbrev S4x1x1024 : Shape := ⟨3, ![4, 1, 1024]⟩
abbrev S4x65536x1024 : Shape := ⟨3, ![4, 65536, 1024]⟩
abbrev S1x65536x1 : Shape := ⟨3, ![1, 65536, 1]⟩
abbrev S4x1x1 : Shape := ⟨3, ![4, 1, 1]⟩
abbrev S4x65536x1 : Shape := ⟨3, ![4, 65536, 1]⟩
abbrev S_ : Shape := ⟨0, ![]⟩
abbrev S65536x5 : Shape := ⟨2, ![65536, 5]⟩
abbrev S1x1 : Shape := ⟨2, ![1, 1]⟩

abbrev nBuf : Space → Nat
  | .hbm => 164
  | .vmem => 0
  | .smem => 0
  | _ => 0

abbrev hbmTy0_0 (i : Nat) : BufTy := match i % 128 with
  | 0 => ⟨S65536x1024, .f32⟩
  | 1 => ⟨S1x65536x8, .f32⟩
  | 2 => ⟨S1x65536x8, .f32⟩
  | 3 => ⟨S65536x1, .f32⟩
  | 4 => ⟨S1024x8, .f32⟩
  | 5 => ⟨S1024x8, .f32⟩
  | 6 => ⟨S1024x8, .f32⟩
  | 7 => ⟨S1024x8, .f32⟩
  | 8 => ⟨S8x8, .f32⟩
  | 9 => ⟨S8x8, .f32⟩
  | 10 => ⟨S8x8, .f32⟩
  | 11 => ⟨S8x8, .f32⟩
  | 12 => ⟨S1x8, .f32⟩
  | 13 => ⟨S1x8, .f32⟩
  | 14 => ⟨S1x8, .f32⟩
  | 15 => ⟨S1x8, .f32⟩
  | 16 => ⟨S8, .f32⟩
  | 17 => ⟨S8, .f32⟩
  | 18 => ⟨S8, .f32⟩
  | 19 => ⟨S8, .f32⟩
  | 20 => ⟨S8x5, .f32⟩
  | 21 => ⟨S5, .f32⟩
  | 22 => ⟨S5x5, .f32⟩
  | 23 => ⟨S5, .f32⟩
  | 24 => ⟨S5x1, .f32⟩
  | 25 => ⟨S1, .f32⟩
  | 26 => ⟨S4x1024, .f32⟩
  | 27 => ⟨S4x1, .f32⟩
  | 28 => ⟨S1x5, .f32⟩
  | 29 => ⟨S1x5, .f32⟩
  | 30 => ⟨S65536x8, .f32⟩
  | 31 => ⟨S65536x8, .f32⟩
  | 32 => ⟨S1x65536x1024, .f32⟩
  | 33 => ⟨S4x1x1024, .f32⟩
  | 34 => ⟨S4x65536x1024, .f32⟩
  | 35 => ⟨S4x65536x1024, .f32⟩
  | 36 => ⟨S4x65536x1024, .f32⟩
  | 37 => ⟨S1x65536x1, .f32⟩
  | 38 => ⟨S4x1x1, .f32⟩
  | 39 => ⟨S4x65536x1, .f32⟩
  | 40 => ⟨S4x65536x1, .f32⟩
  | 41 => ⟨S4x65536x1, .f32⟩
  | 42 => ⟨S1x65536x1024, .f32⟩
  | 43 => ⟨S65536x1024, .f32⟩
  | 44 => ⟨S65536x8, .f32⟩
  | 45 => ⟨S65536x8, .f32⟩
  | 46 => ⟨S65536x8, .f32⟩
  | 47 => ⟨S1x65536x1, .f32⟩
  | 48 => ⟨S65536x1, .f32⟩
  | 49 => ⟨S65536x8, .f32⟩
  | 50 => ⟨S65536x8, .f32⟩
  | 51 => ⟨S1x8, .f32⟩
  | 52 => ⟨S65536x8, .f32⟩
  | 53 => ⟨S65536x8, .f32⟩
  | 54 => ⟨S1x65536x1024, .f32⟩
  | 55 => ⟨S65536x1024, .f32⟩
  | 56 => ⟨S65536x8, .f32⟩
  | 57 => ⟨S65536x8, .f32⟩
  | 58 => ⟨S65536x8, .f32⟩
  | 59 => ⟨S1x65536x1, .f32⟩
  | 60 => ⟨S65536x1, .f32⟩
  | 61 => ⟨S65536x8, .f32⟩
  | 62 => ⟨S65536x8, .f32⟩
  | 63 => ⟨S1x8, .f32⟩
  | 64 => ⟨S65536x8, .f32⟩
  | 65 => ⟨S65536x8, .f32⟩
  | 66 => ⟨S1x65536x1024, .f32⟩
  | 67 => ⟨S65536x1024, .f32⟩
  | 68 => ⟨S65536x8, .f32⟩
  | 69 => ⟨S65536x8, .f32⟩
  | 70 => ⟨S65536x8, .f32⟩
  | 71 => ⟨S1x65536x1, .f32⟩
  | 72 => ⟨S65536x1, .f32⟩
  | 73 => ⟨S65536x8, .f32⟩
  | 74 => ⟨S65536x8, .f32⟩
  | 75 => ⟨S1x8, .f32⟩
  | 76 => ⟨S65536x8, .f32⟩
  | 77 => ⟨S65536x8, .f32⟩
  | 78 => ⟨S1x65536x1024, .f32⟩
  | 79 => ⟨S65536x1024, .f32⟩
  | 80 => ⟨S65536x8, .f32⟩
  | 81 => ⟨S65536x8, .f32⟩
  | 82 => ⟨S65536x8, .f32⟩
  | 83 => ⟨S1x65536x1, .f32⟩
  | 84 => ⟨S65536x1, .f32⟩
  | 85 => ⟨S65536x8, .f32⟩
  | 86 => ⟨S65536x8, .f32⟩
  | 87 => ⟨S1x8, .f32⟩
  | 88 => ⟨S65536x8, .f32⟩
  | 89 => ⟨S65536x8, .f32⟩
  | 90 => ⟨S_, .f32⟩
  | 91 => ⟨S65536x8, .f32⟩
  | 92 => ⟨S65536x8, .f32⟩
  | 93 => ⟨S_, .f32⟩
  | 94 => ⟨S65536x8, .f32⟩
  | 95 => ⟨S65536x8, .f32⟩
  | 96 => ⟨S_, .f32⟩
  | 97 => ⟨S_, .f32⟩
  | 98 => ⟨S_, .f32⟩
  | 99 => ⟨S65536x8, .f32⟩
  | 100 => ⟨S65536x8, .f32⟩
  | 101 => ⟨S_, .f32⟩
  | 102 => ⟨S65536x8, .f32⟩
  | 103 => ⟨S65536x8, .f32⟩
  | 104 => ⟨S_, .f32⟩
  | 105 => ⟨S65536x8, .f32⟩
  | 106 => ⟨S65536x8, .f32⟩
  | 107 => ⟨S_, .f32⟩
  | 108 => ⟨S65536x8, .f32⟩
  | 109 => ⟨S65536x8, .f32⟩
  | 110 => ⟨S_, .f32⟩
  | 111 => ⟨S_, .f32⟩
  | 112 => ⟨S_, .f32⟩
  | 113 => ⟨S65536x8, .f32⟩
  | 114 => ⟨S65536x8, .f32⟩
  | 115 => ⟨S_, .f32⟩
  | 116 => ⟨S65536x8, .f32⟩
  | 117 => ⟨S65536x8, .f32⟩
  | 118 => ⟨S65536x8, .f32⟩
  | 119 => ⟨S65536x8, .f32⟩
  | 120 => ⟨S65536x8, .f32⟩
  | 121 => ⟨S65536x8, .f32⟩
  | 122 => ⟨S_, .f32⟩
  | 123 => ⟨S65536x8, .f32⟩
  | 124 => ⟨S65536x8, .f32⟩
  | 125 => ⟨S_, .f32⟩
  | 126 => ⟨S65536x8, .f32⟩
  | 127 => ⟨S65536x8, .f32⟩
  | _ => ⟨S65536x1024, .f32⟩

abbrev hbmTy0_1 (i : Nat) : BufTy := match i % 128 with
  | 0 => ⟨S_, .f32⟩
  | 1 => ⟨S_, .f32⟩
  | 2 => ⟨S_, .f32⟩
  | 3 => ⟨S65536x8, .f32⟩
  | 4 => ⟨S65536x8, .f32⟩
  | 5 => ⟨S_, .f32⟩
  | 6 => ⟨S65536x8, .f32⟩
  | 7 => ⟨S65536x8, .f32⟩
  | 8 => ⟨S65536x8, .f32⟩
  | 9 => ⟨S65536x8, .f32⟩
  | 10 => ⟨S65536x5, .f32⟩
  | 11 => ⟨S1x5, .f32⟩
  | 12 => ⟨S65536x5, .f32⟩
  | 13 => ⟨S65536x5, .f32⟩
  | 14 => ⟨S_, .f32⟩
  | 15 => ⟨S65536x5, .f32⟩
  | 16 => ⟨S65536x5, .f32⟩
  | 17 => ⟨S65536x5, .f32⟩
  | 18 => ⟨S65536x5, .f32⟩
  | 19 => ⟨S65536x5, .f32⟩
  | 20 => ⟨S1x5, .f32⟩
  | 21 => ⟨S65536x5, .f32⟩
  | 22 => ⟨S65536x5, .f32⟩
  | 23 => ⟨S_, .f32⟩
  | 24 => ⟨S65536x5, .f32⟩
  | 25 => ⟨S65536x5, .f32⟩
  | 26 => ⟨S65536x5, .f32⟩
  | 27 => ⟨S65536x5, .f32⟩
  | 28 => ⟨S65536x1, .f32⟩
  | 29 => ⟨S1x1, .f32⟩
  | 30 => ⟨S65536x1, .f32⟩
  | 31 => ⟨S65536x1, .f32⟩
  | 32 => ⟨S_, .f32⟩
  | 33 => ⟨S65536x1, .f32⟩
  | 34 => ⟨S65536x1, .f32⟩
  | 35 => ⟨S65536x1, .f32⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst : Ref sig .tc := ⟨.hbm, 90, rfl⟩
abbrev main_v60 : Ref sig .tc := ⟨.hbm, 91, rfl⟩
abbrev main_v61 : Ref sig .tc := ⟨.hbm, 92, rfl⟩
abbrev main_cst_0 : Ref sig .tc := ⟨.hbm, 93, rfl⟩
abbrev main_v62 : Ref sig .tc := ⟨.hbm, 94, rfl⟩
abbrev main_v63 : Ref sig .tc := ⟨.hbm, 95, rfl⟩
abbrev main_cst_1 : Ref sig .tc := ⟨.hbm, 96, rfl⟩
abbrev main_cst_2 : Ref sig .tc := ⟨.hbm, 97, rfl⟩
abbrev main_call0_v0 : Ref sig .tc := ⟨.hbm, 98, rfl⟩
abbrev main_call0_v1 : Ref sig .tc := ⟨.hbm, 99, rfl⟩
abbrev main_call0_v2 : Ref sig .tc := ⟨.hbm, 100, rfl⟩
abbrev main_call0_v3 : Ref sig .tc := ⟨.hbm, 101, rfl⟩
abbrev main_call0_v4 : Ref sig .tc := ⟨.hbm, 102, rfl⟩
abbrev main_v64 : Ref sig .tc := ⟨.hbm, 103, rfl⟩
abbrev main_cst_3 : Ref sig .tc := ⟨.hbm, 104, rfl⟩
abbrev main_v65 : Ref sig .tc := ⟨.hbm, 105, rfl⟩
abbrev main_v66 : Ref sig .tc := ⟨.hbm, 106, rfl⟩
abbrev main_cst_4 : Ref sig .tc := ⟨.hbm, 107, rfl⟩
abbrev main_v67 : Ref sig .tc := ⟨.hbm, 108, rfl⟩
abbrev main_v68 : Ref sig .tc := ⟨.hbm, 109, rfl⟩
abbrev main_cst_5 : Ref sig .tc := ⟨.hbm, 110, rfl⟩
abbrev main_cst_6 : Ref sig .tc := ⟨.hbm, 111, rfl⟩
abbrev main_call1_v0 : Ref sig .tc := ⟨.hbm, 112, rfl⟩
abbrev main_call1_v1 : Ref sig .tc := ⟨.hbm, 113, rfl⟩
abbrev main_call1_v2 : Ref sig .tc := ⟨.hbm, 114, rfl⟩
abbrev main_call1_v3 : Ref sig .tc := ⟨.hbm, 115, rfl⟩
abbrev main_call1_v4 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_cst_7 : Ref sig .tc := ⟨.hbm, 122, rfl⟩
abbrev main_v74 : Ref sig .tc := ⟨.hbm, 123, rfl⟩
abbrev main_v75 : Ref sig .tc := ⟨.hbm, 124, rfl⟩
abbrev main_cst_8 : Ref sig .tc := ⟨.hbm, 125, rfl⟩
abbrev main_v76 : Ref sig .tc := ⟨.hbm, 126, rfl⟩
abbrev main_v77 : Ref sig .tc := ⟨.hbm, 127, rfl⟩
abbrev main_cst_9 : Ref sig .tc := ⟨.hbm, 128, rfl⟩
abbrev main_cst_10 : Ref sig .tc := ⟨.hbm, 129, rfl⟩
abbrev main_call2_v0 : Ref sig .tc := ⟨.hbm, 130, rfl⟩
abbrev main_call2_v1 : Ref sig .tc := ⟨.hbm, 131, rfl⟩
abbrev main_call2_v2 : Ref sig .tc := ⟨.hbm, 132, rfl⟩
abbrev main_call2_v3 : Ref sig .tc := ⟨.hbm, 133, rfl⟩
abbrev main_call2_v4 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_call3_cst : Ref sig .tc := ⟨.hbm, 142, rfl⟩
abbrev main_call3_v0 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_call4_cst : Ref sig .tc := ⟨.hbm, 151, rfl⟩
abbrev main_call4_v0 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_call5_cst : Ref sig .tc := ⟨.hbm, 160, rfl⟩
abbrev main_call5_v0 : Ref sig .tc := ⟨.hbm, 161, rfl⟩
abbrev main_v99 : Ref sig .tc := ⟨.hbm, 162, rfl⟩
abbrev main_v100 : Ref sig .tc := ⟨.hbm, 163, rfl⟩

abbrev nD : Nat := 1
abbrev τ : Topo := Topo.v7x

variable {F : FTy → Type} [FloatOps F]

class Facts₀ : Prop where
  shapeCasts_S1x65536x8_S65536x8 : S1x65536x8.ShapeCasts S65536x8
  bcast_S65536x1024_S1x65536x1024_1_2 : S65536x1024.BroadcastsInDim S1x65536x1024 (![1, 2] : Fin 2 → Fin S1x65536x1024.rank)
  bcast_S4x1024_S4x1x1024_0_2 : S4x1024.BroadcastsInDim S4x1x1024 (![0, 2] : Fin 2 → Fin S4x1x1024.rank)
  bcast_S1x65536x1024_S4x65536x1024_0_1_2 : S1x65536x1024.BroadcastsInDim S4x65536x1024 (![0, 1, 2] : Fin 3 → Fin S4x65536x1024.rank)
  bcast_S4x1x1024_S4x65536x1024_0_1_2 : S4x1x1024.BroadcastsInDim S4x65536x1024 (![0, 1, 2] : Fin 3 → Fin S4x65536x1024.rank)
  bcast_S65536x1_S1x65536x1_1_2 : S65536x1.BroadcastsInDim S1x65536x1 (![1, 2] : Fin 2 → Fin S1x65536x1.rank)
  bcast_S4x1_S4x1x1_0_2 : S4x1.BroadcastsInDim S4x1x1 (![0, 2] : Fin 2 → Fin S4x1x1.rank)
  bcast_S1x65536x1_S4x65536x1_0_1_2 : S1x65536x1.BroadcastsInDim S4x65536x1 (![0, 1, 2] : Fin 3 → Fin S4x65536x1.rank)
  bcast_S4x1x1_S4x65536x1_0_1_2 : S4x1x1.BroadcastsInDim S4x65536x1 (![0, 1, 2] : Fin 3 → Fin S4x65536x1.rank)
  slices_S4x65536x1024_S1x65536x1024_0_0_0 : S4x65536x1024.Slices ![0, 0, 0] S1x65536x1024
  shapeCasts_S1x65536x1024_S65536x1024 : S1x65536x1024.ShapeCasts S65536x1024
  slices_S4x65536x1_S1x65536x1_0_0_0 : S4x65536x1.Slices ![0, 0, 0] S1x65536x1
  shapeCasts_S1x65536x1_S65536x1 : S1x65536x1.ShapeCasts S65536x1
  bcast_S8_S1x8_1 : S8.BroadcastsInDim S1x8 (![1] : Fin 1 → Fin S1x8.rank)
  bcast_S1x8_S65536x8_0_1 : S1x8.BroadcastsInDim S65536x8 (![0, 1] : Fin 2 → Fin S65536x8.rank)
  slices_S4x65536x1024_S1x65536x1024_1_0_0 : S4x65536x1024.Slices ![1, 0, 0] S1x65536x1024
  slices_S4x65536x1_S1x65536x1_1_0_0 : S4x65536x1.Slices ![1, 0, 0] S1x65536x1
  slices_S4x65536x1024_S1x65536x1024_2_0_0 : S4x65536x1024.Slices ![2, 0, 0] S1x65536x1024
  slices_S4x65536x1_S1x65536x1_2_0_0 : S4x65536x1.Slices ![2, 0, 0] S1x65536x1
  slices_S4x65536x1024_S1x65536x1024_3_0_0 : S4x65536x1024.Slices ![3, 0, 0] S1x65536x1024
  slices_S4x65536x1_S1x65536x1_3_0_0 : S4x65536x1.Slices ![3, 0, 0] S1x65536x1
  bcast_S_S65536x8 : S_.BroadcastsInDim S65536x8 (![] : Fin 0 → Fin S65536x8.rank)
  bcast_S5_S1x5_1 : S5.BroadcastsInDim S1x5 (![1] : Fin 1 → Fin S1x5.rank)
  bcast_S1x5_S65536x5_0_1 : S1x5.BroadcastsInDim S65536x5 (![0, 1] : Fin 2 → Fin S65536x5.rank)
  bcast_S_S65536x5 : S_.BroadcastsInDim S65536x5 (![] : Fin 0 → Fin S65536x5.rank)
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  bcast_S_S65536x1 : S_.BroadcastsInDim S65536x1 (![] : Fin 0 → Fin S65536x1.rank)
  dot_S65536x1024_S1024x8_S65536x8_1_0_0_1_n_n_wf : DotDims.WF S65536x1024 S1024x8 S65536x8 [1] [0] [0] [1] [] []
  dot_S65536x8_S8x8_S65536x8_1_0_0_1_n_n_wf : DotDims.WF S65536x8 S8x8 S65536x8 [1] [0] [0] [1] [] []
  dot_S65536x1_S1x8_S65536x8_1_0_0_1_n_n_wf : DotDims.WF S65536x1 S1x8 S65536x8 [1] [0] [0] [1] [] []
  dot_S65536x8_S8x5_S65536x5_1_0_0_1_n_n_wf : DotDims.WF S65536x8 S8x5 S65536x5 [1] [0] [0] [1] [] []
  dot_S65536x5_S5x5_S65536x5_1_0_0_1_n_n_wf : DotDims.WF S65536x5 S5x5 S65536x5 [1] [0] [0] [1] [] []
  dot_S65536x5_S5x1_S65536x1_1_0_0_1_n_n_wf : DotDims.WF S65536x5 S5x1 S65536x1 [1] [0] [0] [1] [] []

variable [Facts₀]

def dot_S65536x1024_S1024x8_S65536x8_1_0_0_1_n_n : DotDims S65536x1024 S1024x8 S65536x8 where
  lhsContracting := [1]
  rhsContracting := [0]
  lhsNonContracting := [0]
  rhsNonContracting := [1]
  lhsBatch := []
  rhsBatch := []
  wf := dot_S65536x1024_S1024x8_S65536x8_1_0_0_1_n_n_wf
def dot_S65536x8_S8x8_S65536x8_1_0_0_1_n_n : DotDims S65536x8 S8x8 S65536x8 where
  lhsContracting := [1]
  rhsContracting := [0]
  lhsNonContracting := [0]
  rhsNonContracting := [1]
  lhsBatch := []
  rhsBatch := []
  wf := dot_S65536x8_S8x8_S65536x8_1_0_0_1_n_n_wf
def dot_S65536x1_S1x8_S65536x8_1_0_0_1_n_n : DotDims S65536x1 S1x8 S65536x8 where
  lhsContracting := [1]
  rhsContracting := [0]
  lhsNonContracting := [0]
  rhsNonContracting := [1]
  lhsBatch := []
  rhsBatch := []
  wf := dot_S65536x1_S1x8_S65536x8_1_0_0_1_n_n_wf
def dot_S65536x8_S8x5_S65536x5_1_0_0_1_n_n : DotDims S65536x8 S8x5 S65536x5 where
  lhsContracting := [1]
  rhsContracting := [0]
  lhsNonContracting := [0]
  rhsNonContracting := [1]
  lhsBatch := []
  rhsBatch := []
  wf := dot_S65536x8_S8x5_S65536x5_1_0_0_1_n_n_wf
def dot_S65536x5_S5x5_S65536x5_1_0_0_1_n_n : DotDims S65536x5 S5x5 S65536x5 where
  lhsContracting := [1]
  rhsContracting := [0]
  lhsNonContracting := [0]
  rhsNonContracting := [1]
  lhsBatch := []
  rhsBatch := []
  wf := dot_S65536x5_S5x5_S65536x5_1_0_0_1_n_n_wf
def dot_S65536x5_S5x1_S65536x1_1_0_0_1_n_n : DotDims S65536x5 S5x1 S65536x1 where
  lhsContracting := [1]
  rhsContracting := [0]
  lhsNonContracting := [0]
  rhsNonContracting := [1]
  lhsBatch := []
  rhsBatch := []
  wf := dot_S65536x5_S5x1_S65536x1_1_0_0_1_n_n_wf

class Facts : Prop extends Facts₀ where

variable [Facts]
-- ==== Proof.FrameBitsHost.lean ====
/-
  The program around its one grid: fifty-six array operations run before the grid (they fold the four feature masks into
  the four gate weight matrices, concatenate the gates' columns, and transpose the batch-major states to unit-major
  ones), the grid itself, and three transposes after it. This module fixes the contents every array has when the grid
  starts (`V`: the memory after the operations before it), shows that none of those operations — and none of the three
  after the grid — writes an argument array, and that the operations after the grid touch only arrays the grid may
  leave to them, allocate nothing and write none of the grid's own arrays.
-/
import proofs.«160326_j16810501997190_2_alg».proof.Proof.LaunchBitsP
import Idealize.ShloMosaic.Lib.Pipeline.FrameBody
import Idealize.ShloMosaic.Lib.Pipeline.FrameSuffix

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s array contents when the grid starts: the memory after the operations before it. -/
abbrev V0 (c : Dev nD) : Valuation τ sig (Elt F) := StableHlo.after (List.flatten [hostOps0]) (fun b => m (c, b))
/-- The same, read at one array. -/
abbrev V (c : Dev nD) (b : Ref sig .tc) : Buf (Elt F) ((c : Thread nD τ).loc b) := V0 m c (Proc.devRef .tc b)

/-- No operation before the grid allocates. -/
theorem before_fresh : (hostOps0 : List (HloOp τ sig (Elt F))).Forall fun op => op.fresh = ∅ := by
  simp only [List.Forall]; repeat' constructor
/-- Nor does one after it. -/
theorem after_fresh : (hostOps1 : List (HloOp τ sig (Elt F))).Forall fun op => op.fresh = ∅ := by
  simp only [List.Forall]; repeat' constructor

/-- The program is: the operations before the grid, the grid, then the three transposes. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_fresh) main_chain

/-- The transposes after the grid read and write unscoped arrays only. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp after_fresh) op hop
/-- And each writes only its own result, which is none of the grid's nineteen arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays are written by no operation -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg24 (c : Dev nD) : V m c main_arg24 = m ((c : Thread nD τ).loc main_arg24) :=
  StableHlo.after_of_forall_not_mem (b := Proc.devRef .tc main_arg24) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg25 (c : Dev nD) : V m c main_arg25 = m ((c : Thread nD τ).loc main_arg25) :=
  StableHlo.after_of_forall_not_mem (b := Proc.devRef .tc main_arg25) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg26 (c : Dev nD) : V m c main_arg26 = m ((c : Thread nD τ).loc main_arg26) :=
  StableHlo.after_of_forall_not_mem (b := Proc.devRef .tc main_arg26) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg27 (c : Dev nD) : V m c main_arg27 = m ((c : Thread nD τ).loc main_arg27) :=
  StableHlo.after_of_forall_not_mem (b := Proc.devRef .tc main_arg27) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg28 (c : Dev nD) : V m c main_arg28 = m ((c : Thread nD τ).loc main_arg28) :=
  StableHlo.after_of_forall_not_mem (b := Proc.devRef .tc main_arg28) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg29 (c : Dev nD) : V m c main_arg29 = m ((c : Thread nD τ).loc main_arg29) :=
  StableHlo.after_of_forall_not_mem (b := Proc.devRef .tc main_arg29) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## Nor by a transpose after the grid (the arguments the grid does not stage itself) -/

theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c

theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c

theorem W_main_arg14 (dats : (p : Fin _) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact V_main_arg14 m c

theorem W_main_arg15 (dats : (p : Fin _) → (c : Dev nD) → Dat τ (Elt F) Unit ℕ (UR sig nD τ) ℕ (cfgs p) c) (c : Dev nD) :
    Pipeline.afterTail₀ cfgs dats 0 (V0 m) [hostOps1] c main_arg15 = m ((c : Thread nD τ).loc main_arg15) := by
  unfold Pipeline.afterTail₀
  rw [StableHlo.after_of_forall_not_mem (b := Proc.devRef .tc main_arg15) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg15 (by exact (by decide : ∀ w, Pipeline.arrRef spec0 w ≠ main_arg15))]
  exact V_main_arg15 m c

theorem W_main_arg16 (dats : (p : Fin _) → (c : Dev nD) → Dat τ (Elt F) Unit ℕ (UR sig nD τ) ℕ (cfgs p) c) (c : Dev nD) :
    Pipeline.afterTail₀ cfgs dats 0 (V0 m) [hostOps1] c main_arg16 = m ((c : Thread nD τ).loc main_arg16) := by
  unfold Pipeline.afterTail₀
  rw [StableHlo.after_of_forall_not_mem (b := Proc.devRef .tc main_arg16) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg16 (by exact (by decide : ∀ w, Pipeline.arrRef spec0 w ≠ main_arg16))]
  exact V_main_arg16 m c

theorem W_main_arg17 (dats : (p : Fin _) → (c : Dev nD) → Dat τ (Elt F) Unit ℕ (UR sig nD τ) ℕ (cfgs p) c) (c : Dev nD) :
    Pipeline.afterTail₀ cfgs dats 0 (V0 m) [hostOps1] c main_arg17 = m ((c : Thread nD τ).loc main_arg17) := by
  unfold Pipeline.afterTail₀
  rw [StableHlo.after_of_forall_not_mem (b := Proc.devRef .tc main_arg17) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg17 (by exact (by decide : ∀ w, Pipeline.arrRef spec0 w ≠ main_arg17))]
  exact V_main_arg17 m c

theorem W_main_arg18 (dats : (p : Fin _) → (c : Dev nD) → Dat τ (Elt F) Unit ℕ (UR sig nD τ) ℕ (cfgs p) c) (c : Dev nD) :
    Pipeline.afterTail₀ cfgs dats 0 (V0 m) [hostOps1] c main_arg18 = m ((c : Thread nD τ).loc main_arg18) := by
  unfold Pipeline.afterTail₀
  rw [StableHlo.after_of_forall_not_mem (b := Proc.devRef .tc main_arg18) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg18 (by exact (by decide : ∀ w, Pipeline.arrRef spec0 w ≠ main_arg18))]
  exact V_main_arg18 m c

theorem W_main_arg19 (dats : (p : Fin _) → (c : Dev nD) → Dat τ (Elt F) Unit ℕ (UR sig nD τ) ℕ (cfgs p) c) (c : Dev nD) :
    Pipeline.afterTail₀ cfgs dats 0 (V0 m) [hostOps1] c main_arg19 = m ((c : Thread nD τ).loc main_arg19) := by
  unfold Pipeline.afterTail₀
  rw [StableHlo.after_of_forall_not_mem (b := Proc.devRef .tc main_arg19) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg19 (by exact (by decide : ∀ w, Pipeline.arrRef spec0 w ≠ main_arg19))]
  exact V_main_arg19 m c

theorem W_main_arg21 (dats : (p : Fin _) → (c : Dev nD) → Dat τ (Elt F) Unit ℕ (UR sig nD τ) ℕ (cfgs p) c) (c : Dev nD) :
    Pipeline.afterTail₀ cfgs dats 0 (V0 m) [hostOps1] c main_arg21 = m ((c : Thread nD τ).loc main_arg21) := by
  unfold Pipeline.afterTail₀
  rw [StableHlo.after_of_forall_not_mem (b := Proc.devRef .tc main_arg21) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg21 (by exact (by decide : ∀ w, Pipeline.arrRef spec0 w ≠ main_arg21))]
  exact V_main_arg21 m c

theorem W_main_arg23 (dats : (p : Fin _) → (c : Dev nD) → Dat τ (Elt F) Unit ℕ (UR sig nD τ) ℕ (cfgs p) c) (c : Dev nD) :
    Pipeline.afterTail₀ cfgs dats 0 (V0 m) [hostOps1] c main_arg23 = m ((c : Thread nD τ).loc main_arg23) := by
  unfold Pipeline.afterTail₀
  rw [StableHlo.after_of_forall_not_mem (b := Proc.devRef .tc main_arg23) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg23 (by exact (by decide : ∀ w, Pipeline.arrRef spec0 w ≠ main_arg23))]
  exact V_main_arg23 m c

theorem W_main_arg25 (dats : (p : Fin _) → (c : Dev nD) → Dat τ (Elt F) Unit ℕ (UR sig nD τ) ℕ (cfgs p) c) (c : Dev nD) :
    Pipeline.afterTail₀ cfgs dats 0 (V0 m) [hostOps1] c main_arg25 = m ((c : Thread nD τ).loc main_arg25) := by
  unfold Pipeline.afterTail₀
  rw [StableHlo.after_of_forall_not_mem (b := Proc.devRef .tc main_arg25) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg25 (by exact (by decide : ∀ w, Pipeline.arrRef spec0 w ≠ main_arg25))]
  exact V_main_arg25 m c

theorem W_main_arg26 (dats : (p : Fin _) → (c : Dev nD) → Dat τ (Elt F) Unit ℕ (UR sig nD τ) ℕ (cfgs p) c) (c : Dev nD) :
    Pipeline.afterTail₀ cfgs dats 0 (V0 m) [hostOps1] c main_arg26 = m ((c : Thread nD τ).loc main_arg26) := by
  unfold Pipeline.afterTail₀
  rw [StableHlo.after_of_forall_not_mem (b := Proc.devRef .tc main_arg26) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg26 (by exact (by decide : ∀ w, Pipeline.arrRef spec0 w ≠ main_arg26))]
  exact V_main_arg26 m c

theorem W_main_arg27 (dats : (p : Fin _) → (c : Dev nD) → Dat τ (Elt F) Unit ℕ (UR sig nD τ) ℕ (cfgs p) c) (c : Dev nD) :
    Pipeline.afterTail₀ cfgs dats 0 (V0 m) [hostOps1] c main_arg27 = m ((c : Thread nD τ).loc main_arg27) := by
  unfold Pipeline.afterTail₀
  rw [StableHlo.after_of_forall_not_mem (b := Proc.devRef .tc main_arg27) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg27 (by exact (by decide : ∀ w, Pipeline.arrRef spec0 w ≠ main_arg27))]
  exact V_main_arg27 m c

theorem W_main_arg28 (dats : (p : Fin _) → (c : Dev nD) → Dat τ (Elt F) Unit ℕ (UR sig nD τ) ℕ (cfgs p) c) (c : Dev nD) :
    Pipeline.afterTail₀ cfgs dats 0 (V0 m) [hostOps1] c main_arg28 = m ((c : Thread nD τ).loc main_arg28) := by
  unfold Pipeline.afterTail₀
  rw [StableHlo.after_of_forall_not_mem (b := Proc.devRef .tc main_arg28) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg28 (by exact (by decide : ∀ w, Pipeline.arrRef spec0 w ≠ main_arg28))]
  exact V_main_arg28 m c

theorem W_main_arg29 (dats : (p : Fin _) → (c : Dev nD) → Dat τ (Elt F) Unit ℕ (UR sig nD τ) ℕ (cfgs p) c) (c : Dev nD) :
    Pipeline.afterTail₀ cfgs dats 0 (V0 m) [hostOps1] c main_arg29 = m ((c : Thread nD τ).loc main_arg29) := by
  unfold Pipeline.afterTail₀
  rw [StableHlo.after_of_forall_not_mem (b := Proc.devRef .tc main_arg29) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg29 (by exact (by decide : ∀ w, Pipeline.arrRef spec0 w ≠ main_arg29))]
  exact V_main_arg29 m c

end Cert.Kernel.Hand

end
-- ==== Proof.FrameBitsBody.lean ====
/-
  One grid point's work. The body reads its sixteen input blocks whole (a block of 2048 batch rows of the inputs, unit-major
  blocks of the previous hidden and cell states and of the previous scalar, and the twelve small parameter arrays),
  computes the four gates' pre-activations as one 32 x 2048 matrix, the new cell and hidden states and the perceptron's
  output, and stores three whole output blocks. This module names what each output block holds afterwards as a function of
  the input blocks, and proves the body's triple: started on whole buffers holding any input blocks, it ends without a
  fault, the inputs as they were and each output buffer at that function of them.
-/
import proofs.«160326_j16810501997190_2_alg».proof.Proof.LaunchBitsP
import proofs.«160326_j16810501997190_2_alg».proof.Proof.Gen.Kernel.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offset of every access of the body: the origin. -/
theorem origin2 : (![0, 0] : Fin 2 → Nat) = fun _ => 0 := by
  funext a; fin_cases a <;> rfl

/-! ## The body's accesses: each is a whole buffer -/
abbrev rS2048x1024 : Rect S2048x1024 := Rect.unit (s := S2048x1024) ![0, 0] S2048x1024.size inb_S2048x1024_S2048x1024_0_0
abbrev rS8x2048 : Rect S8x2048 := Rect.unit (s := S8x2048) ![0, 0] S8x2048.size inb_S8x2048_S8x2048_0_0
abbrev rS1x2048 : Rect S1x2048 := Rect.unit (s := S1x2048) ![0, 0] S1x2048.size inb_S1x2048_S1x2048_0_0
abbrev rS1024x32 : Rect S1024x32 := Rect.unit (s := S1024x32) ![0, 0] S1024x32.size inb_S1024x32_S1024x32_0_0
abbrev rS8x32 : Rect S8x32 := Rect.unit (s := S8x32) ![0, 0] S8x32.size inb_S8x32_S8x32_0_0
abbrev rS32x1 : Rect S32x1 := Rect.unit (s := S32x1) ![0, 0] S32x1.size inb_S32x1_S32x1_0_0
abbrev rS8x5 : Rect S8x5 := Rect.unit (s := S8x5) ![0, 0] S8x5.size inb_S8x5_S8x5_0_0
abbrev rS5x1 : Rect S5x1 := Rect.unit (s := S5x1) ![0, 0] S5x1.size inb_S5x1_S5x1_0_0
abbrev rS5x5 : Rect S5x5 := Rect.unit (s := S5x5) ![0, 0] S5x5.size inb_S5x5_S5x5_0_0
abbrev rS1x1 : Rect S1x1 := Rect.unit (s := S1x1) ![0, 0] S1x1.size inb_S1x1_S1x1_0_0

/-! ## What the body leaves in each output buffer -/

/-- The block of the advanced scalar: its one store, as a function of the input blocks. -/
def outZ (x0 : Vec F S2048x1024 .f32) (x1 : Vec F S8x2048 .f32) (x2 : Vec F S8x2048 .f32) (x3 : Vec F S1x2048 .f32) (x4 : Vec F S1024x32 .f32) (x5 : Vec F S8x32 .f32) (x6 : Vec F S32x1 .f32) (x7 : Vec F S32x1 .f32) (x8 : Vec F S8x5 .f32) (x9 : Vec F S5x1 .f32) (x10 : Vec F S5x5 .f32) (x11 : Vec F S5x1 .f32) (x12 : Vec F S5x1 .f32) (x13 : Vec F S1x1 .f32) (x14 : Vec F S5x1 .f32) (x15 : Vec F S5x1 .f32) : Vec F S1x2048 .f32 :=
  View.canon [⟨rS1x2048, k0_pay1 (k0_pay3 (View.ld x3 rS1x2048)) (k0_pay8 (k0_pay2 (View.ld x2 rS8x2048)) (k0_pay4 (View.ld x0 rS2048x1024) (View.ld x1 rS8x2048) (View.ld x3 rS1x2048) (View.ld x4 rS1024x32) (View.ld x5 rS8x32) (View.ld x6 rS32x1) (View.ld x7 rS32x1)) (k0_pay5 (View.ld x0 rS2048x1024) (View.ld x1 rS8x2048) (View.ld x3 rS1x2048) (View.ld x4 rS1024x32) (View.ld x5 rS8x32) (View.ld x6 rS32x1) (View.ld x7 rS32x1)) (View.ld x8 rS8x5) (View.ld x9 rS5x1) (View.ld x14 rS5x1)) (k0_pay9 (View.ld x10 rS5x5)) (View.ld x11 rS5x1) (View.ld x15 rS5x1) (View.ld x12 rS5x1) (View.ld x13 rS1x1)⟩]

/-- The block of the new hidden state. -/
def outH (x0 : Vec F S2048x1024 .f32) (x1 : Vec F S8x2048 .f32) (x2 : Vec F S8x2048 .f32) (x3 : Vec F S1x2048 .f32) (x4 : Vec F S1024x32 .f32) (x5 : Vec F S8x32 .f32) (x6 : Vec F S32x1 .f32) (x7 : Vec F S32x1 .f32) : Vec F S8x2048 .f32 :=
  View.canon [⟨rS8x2048, k0_pay7 (k0_pay2 (View.ld x2 rS8x2048)) (k0_pay4 (View.ld x0 rS2048x1024) (View.ld x1 rS8x2048) (View.ld x3 rS1x2048) (View.ld x4 rS1024x32) (View.ld x5 rS8x32) (View.ld x6 rS32x1) (View.ld x7 rS32x1)) (k0_pay5 (View.ld x0 rS2048x1024) (View.ld x1 rS8x2048) (View.ld x3 rS1x2048) (View.ld x4 rS1024x32) (View.ld x5 rS8x32) (View.ld x6 rS32x1) (View.ld x7 rS32x1))⟩]

/-- The block of the new cell state. -/
def outC (x0 : Vec F S2048x1024 .f32) (x1 : Vec F S8x2048 .f32) (x2 : Vec F S8x2048 .f32) (x3 : Vec F S1x2048 .f32) (x4 : Vec F S1024x32 .f32) (x5 : Vec F S8x32 .f32) (x6 : Vec F S32x1 .f32) (x7 : Vec F S32x1 .f32) : Vec F S8x2048 .f32 :=
  View.canon [⟨rS8x2048, k0_pay6 (k0_pay2 (View.ld x2 rS8x2048)) (k0_pay4 (View.ld x0 rS2048x1024) (View.ld x1 rS8x2048) (View.ld x3 rS1x2048) (View.ld x4 rS1024x32) (View.ld x5 rS8x32) (View.ld x6 rS32x1) (View.ld x7 rS32x1)) (k0_pay5 (View.ld x0 rS2048x1024) (View.ld x1 rS8x2048) (View.ld x3 rS1x2048) (View.ld x4 rS1024x32) (View.ld x5 rS8x32) (View.ld x6 rS32x1) (View.ld x7 rS32x1))⟩]

/-- A store of a whole buffer covers it. -/
theorem coverZ (p : Vec F S1x2048 .f32) (y : S1x2048.Idx) :
    ∃ pc ∈ ([⟨rS1x2048, p⟩] : List (View.Piece (Elt F) S1x2048 .f32)), y ∈ pc.1.set :=
  ⟨_, List.mem_singleton.mpr rfl, View.mem_set_unit_zero origin2 inb_S1x2048_S1x2048_0_0 y⟩
theorem coverH (p : Vec F S8x2048 .f32) (y : S8x2048.Idx) :
    ∃ pc ∈ ([⟨rS8x2048, p⟩] : List (View.Piece (Elt F) S8x2048 .f32)), y ∈ pc.1.set :=
  ⟨_, List.mem_singleton.mpr rfl, View.mem_set_unit_zero origin2 inb_S8x2048_S8x2048_0_0 y⟩

/-! ## The body's triple -/

set_option maxHeartbeats 4000000 in
/-- The body on whole buffers, the sixteen inputs' holding `x0 … x15` and the three outputs' holding anything, runs to
    its continuation with the inputs' buffers as they were and the outputs' at `outZ`, `outH`, `outC` of the inputs. -/
theorem sound_kernel (c : Dev nD) (E : Set ℕ) (i : grid0.Coords)
    (arg1 : Memref sig .tc .vmem S2048x1024 .f32) (harg1 : arg1.IsWhole)
    (arg2 : Memref sig .tc .vmem S8x2048 .f32) (harg2 : arg2.IsWhole)
    (arg3 : Memref sig .tc .vmem S8x2048 .f32) (harg3 : arg3.IsWhole)
    (arg4 : Memref sig .tc .vmem S1x2048 .f32) (harg4 : arg4.IsWhole)
    (arg5 : Memref sig .tc .vmem S1024x32 .f32) (harg5 : arg5.IsWhole)
    (arg6 : Memref sig .tc .vmem S8x32 .f32) (harg6 : arg6.IsWhole)
    (arg7 : Memref sig .tc .vmem S32x1 .f32) (harg7 : arg7.IsWhole)
    (arg8 : Memref sig .tc .vmem S32x1 .f32) (harg8 : arg8.IsWhole)
    (arg9 : Memref sig .tc .vmem S8x5 .f32) (harg9 : arg9.IsWhole)
    (arg10 : Memref sig .tc .vmem S5x1 .f32) (harg10 : arg10.IsWhole)
    (arg11 : Memref sig .tc .vmem S5x5 .f32) (harg11 : arg11.IsWhole)
    (arg12 : Memref sig .tc .vmem S5x1 .f32) (harg12 : arg12.IsWhole)
    (arg13 : Memref sig .tc .vmem S5x1 .f32) (harg13 : arg13.IsWhole)
    (arg14 : Memref sig .tc .vmem S1x1 .f32) (harg14 : arg14.IsWhole)
    (arg15 : Memref sig .tc .vmem S5x1 .f32) (harg15 : arg15.IsWhole)
    (arg16 : Memref sig .tc .vmem S5x1 .f32) (harg16 : arg16.IsWhole)
    (arg17 : Memref sig .tc .vmem S1x2048 .f32) (harg17 : arg17.IsWhole)
    (arg18 : Memref sig .tc .vmem S8x2048 .f32) (harg18 : arg18.IsWhole)
    (arg19 : Memref sig .tc .vmem S8x2048 .f32) (harg19 : arg19.IsWhole)
    (x0 : Vec F S2048x1024 .f32) (x1 : Vec F S8x2048 .f32) (x2 : Vec F S8x2048 .f32) (x3 : Vec F S1x2048 .f32) (x4 : Vec F S1024x32 .f32) (x5 : Vec F S8x32 .f32) (x6 : Vec F S32x1 .f32) (x7 : Vec F S32x1 .f32) (x8 : Vec F S8x5 .f32) (x9 : Vec F S5x1 .f32) (x10 : Vec F S5x5 .f32) (x11 : Vec F S5x1 .f32) (x12 : Vec F S5x1 .f32) (x13 : Vec F S1x1 .f32) (x14 : Vec F S5x1 .f32) (x15 : Vec F S5x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15
        ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15
            ∗ owns (c : Thread nD τ) arg17 fullShare (outZ x0 x1 x2 x3 x4 x5 x6 x7 x8 x9 x10 x11 x12 x13 x14 x15)
            ∗ owns (c : Thread nD τ) arg18 fullShare (outH x0 x1 x2 x3 x4 x5 x6 x7)
            ∗ owns (c : Thread nD τ) arg19 fullShare (outC x0 x1 x2 x3 x4 x5 x6 x7)) -∗ K ⟨⟩))
      ⊢ wp frame (wpE (defs₀ (F := F)) Variants.none c none) E (cc0__cell_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__cell_kernel_eq_skeleton]; unfold cc0__cell_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    try dsimp only
    exact View.read_writes_eq_canon _ _ _ (coverZ _)
  isplitl [H17]
  · iexists _; isplitr
    swap; · iexact H17
    ipureintro
    try dsimp only
    exact View.read_writes_eq_canon _ _ _ (coverH _)
  iexists _; isplitr
  swap; · iexact H18
  ipureintro
  try dsimp only
  exact View.read_writes_eq_canon _ _ _ (coverH _)

end Cert.Kernel.Hand

end
-- ==== Proof.FrameBitsRun.lean ====
/-
  The grid as a whole. At point `t` of its 32 points each input buffer holds block `t` of its array (the twelve parameter
  arrays are one block, fetched once and found unchanged at every later point); after the body the three output buffers
  hold the functions of those blocks named with the body, and each is written back to block `t` of its array. From this
  the program's run follows: every fair execution ends, faults nowhere, leaves every output array at the blocks written
  back and every other array as the three closing transposes leave it — in particular each of the thirty argument arrays
  as it was.
-/
import proofs.«160326_j16810501997190_2_alg».proof.Proof.FrameBitsHost
import proofs.«160326_j16810501997190_2_alg».proof.Proof.FrameBitsBody
import proofs.«160326_j16810501997190_2_alg».proof.Proof.Gen.Kernel.Points

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Block `t` of array `w`, read off the array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## An input buffer holds its block at every point, fetched there or not -/

theorem held0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem held1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem held2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem held3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem held4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem held5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem held6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem held7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

theorem held8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

theorem held9 {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

theorem held10 {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

theorem held11 {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

theorem held12 {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

theorem held13 {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

theorem held14 {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

theorem held15 {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- On core `c`: the arrays as the grid finds them; after the body at point `t` each input buffer at its block and the
    three output buffers at the body's functions of the input blocks; nothing else is used. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => outZ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨17, _⟩ => outH (iblk m c 0 t) (iblk m c 1 t) (iblk m c 2 t) (iblk m c 3 t) (iblk m c 4 t) (iblk m c 5 t) (iblk m c 6 t) (iblk m c 7 t)
    | ⟨18, _⟩ => outC (iblk m c 0 t) (iblk m c 1 t) (iblk m c 2 t) (iblk m c 3 t) (iblk m c 4 t) (iblk m c 5 t) (iblk m c 6 t) (iblk m c 7 t)
    | ⟨_ + 19, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = outZ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after17 (c : Dev nD) (t : Fin cfg0.N) : (dats m 0 c).after 17 t = outH (iblk m c 0 t) (iblk m c 1 t) (iblk m c 2 t) (iblk m c 3 t) (iblk m c 4 t) (iblk m c 5 t) (iblk m c 6 t) (iblk m c 7 t) := by dsimp only [dats]
theorem after18 (c : Dev nD) (t : Fin cfg0.N) : (dats m 0 c).after 18 t = outC (iblk m c 0 t) (iblk m c 1 t) (iblk m c 2 t) (iblk m c 3 t) (iblk m c 4 t) (iblk m c 5 t) (iblk m c 6 t) (iblk m c 7 t) := by dsimp only [dats]

theorem before0 (c : Dev nD) (t : Fin cfg0.N) (d) : (dats m 0 c).before 0 t d = iblk m c 0 t :=
  held0 m (dats m 0 c) (A_eq m c 0) (after0 m c) t d
theorem before1 (c : Dev nD) (t : Fin cfg0.N) (d) : (dats m 0 c).before 1 t d = iblk m c 1 t :=
  held1 m (dats m 0 c) (A_eq m c 1) (after1 m c) t d
theorem before2 (c : Dev nD) (t : Fin cfg0.N) (d) : (dats m 0 c).before 2 t d = iblk m c 2 t :=
  held2 m (dats m 0 c) (A_eq m c 2) (after2 m c) t d
theorem before3 (c : Dev nD) (t : Fin cfg0.N) (d) : (dats m 0 c).before 3 t d = iblk m c 3 t :=
  held3 m (dats m 0 c) (A_eq m c 3) (after3 m c) t d
theorem before4 (c : Dev nD) (t : Fin cfg0.N) (d) : (dats m 0 c).before 4 t d = iblk m c 4 t :=
  held4 m (dats m 0 c) (A_eq m c 4) (after4 m c) t d
theorem before5 (c : Dev nD) (t : Fin cfg0.N) (d) : (dats m 0 c).before 5 t d = iblk m c 5 t :=
  held5 m (dats m 0 c) (A_eq m c 5) (after5 m c) t d
theorem before6 (c : Dev nD) (t : Fin cfg0.N) (d) : (dats m 0 c).before 6 t d = iblk m c 6 t :=
  held6 m (dats m 0 c) (A_eq m c 6) (after6 m c) t d
theorem before7 (c : Dev nD) (t : Fin cfg0.N) (d) : (dats m 0 c).before 7 t d = iblk m c 7 t :=
  held7 m (dats m 0 c) (A_eq m c 7) (after7 m c) t d
theorem before8 (c : Dev nD) (t : Fin cfg0.N) (d) : (dats m 0 c).before 8 t d = iblk m c 8 t :=
  held8 m (dats m 0 c) (A_eq m c 8) (after8 m c) t d
theorem before9 (c : Dev nD) (t : Fin cfg0.N) (d) : (dats m 0 c).before 9 t d = iblk m c 9 t :=
  held9 m (dats m 0 c) (A_eq m c 9) (after9 m c) t d
theorem before10 (c : Dev nD) (t : Fin cfg0.N) (d) : (dats m 0 c).before 10 t d = iblk m c 10 t :=
  held10 m (dats m 0 c) (A_eq m c 10) (after10 m c) t d
theorem before11 (c : Dev nD) (t : Fin cfg0.N) (d) : (dats m 0 c).before 11 t d = iblk m c 11 t :=
  held11 m (dats m 0 c) (A_eq m c 11) (after11 m c) t d
theorem before12 (c : Dev nD) (t : Fin cfg0.N) (d) : (dats m 0 c).before 12 t d = iblk m c 12 t :=
  held12 m (dats m 0 c) (A_eq m c 12) (after12 m c) t d
theorem before13 (c : Dev nD) (t : Fin cfg0.N) (d) : (dats m 0 c).before 13 t d = iblk m c 13 t :=
  held13 m (dats m 0 c) (A_eq m c 13) (after13 m c) t d
theorem before14 (c : Dev nD) (t : Fin cfg0.N) (d) : (dats m 0 c).before 14 t d = iblk m c 14 t :=
  held14 m (dats m 0 c) (A_eq m c 14) (after14 m c) t d
theorem before15 (c : Dev nD) (t : Fin cfg0.N) (d) : (dats m 0 c).before 15 t d = iblk m c 15 t :=
  held15 m (dats m 0 c) (A_eq m c 15) (after15 m c) t d

/-! ## The body obligation, at a generic point -/

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16, after17, after18]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (sound_kernel c Set.univ (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  iintro ⟨H0, H1, H2, H3, H4, H5, H6, H7, H8, H9, H10, H11, H12, H13, H14, H15, H16, H17, H18⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates without a fault; at its end each of the grid's arrays holds what
    the blocks written back make of it, and every other unscoped array what the three closing transposes leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The thirty argument arrays end as they began: the four the grid stages itself are input arrays of the grid, which it
    never writes; the other twenty-six are written by no operation and no block. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  (θ_run defs _ _).mono (fun _ h c => ⟨((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c),
    ((h c).2 main_arg10 (Pipeline.mem_restRefs_of main_arg10 (by decide) (by decide))).trans (W_main_arg10 m (dats m) c),
    ((h c).2 main_arg11 (Pipeline.mem_restRefs_of main_arg11 (by decide) (by decide))).trans (W_main_arg11 m (dats m) c),
    ((h c).2 main_arg12 (Pipeline.mem_restRefs_of main_arg12 (by decide) (by decide))).trans (W_main_arg12 m (dats m) c),
    ((h c).2 main_arg13 (Pipeline.mem_restRefs_of main_arg13 (by decide) (by decide))).trans (W_main_arg13 m (dats m) c),
    ((h c).2 main_arg14 (Pipeline.mem_restRefs_of main_arg14 (by decide) (by decide))).trans (W_main_arg14 m (dats m) c),
    ((h c).2 main_arg15 (Pipeline.mem_restRefs_of main_arg15 (by decide) (by decide))).trans (W_main_arg15 m (dats m) c),
    ((h c).2 main_arg16 (Pipeline.mem_restRefs_of main_arg16 (by decide) (by decide))).trans (W_main_arg16 m (dats m) c),
    ((h c).2 main_arg17 (Pipeline.mem_restRefs_of main_arg17 (by decide) (by decide))).trans (W_main_arg17 m (dats m) c),
    ((h c).2 main_arg18 (Pipeline.mem_restRefs_of main_arg18 (by decide) (by decide))).trans (W_main_arg18 m (dats m) c),
    ((h c).2 main_arg19 (Pipeline.mem_restRefs_of main_arg19 (by decide) (by decide))).trans (W_main_arg19 m (dats m) c),
    ((h c).1 8).trans (((dats m 0 c).arrAt_in 8 rfl _).trans ((A_eq m c 8).trans (V_main_arg20 m c))),
    ((h c).2 main_arg21 (Pipeline.mem_restRefs_of main_arg21 (by decide) (by decide))).trans (W_main_arg21 m (dats m) c),
    ((h c).1 10).trans (((dats m 0 c).arrAt_in 10 rfl _).trans ((A_eq m c 10).trans (V_main_arg22 m c))),
    ((h c).2 main_arg23 (Pipeline.mem_restRefs_of main_arg23 (by decide) (by decide))).trans (W_main_arg23 m (dats m) c),
    ((h c).1 12).trans (((dats m 0 c).arrAt_in 12 rfl _).trans ((A_eq m c 12).trans (V_main_arg24 m c))),
    ((h c).2 main_arg25 (Pipeline.mem_restRefs_of main_arg25 (by decide) (by decide))).trans (W_main_arg25 m (dats m) c),
    ((h c).2 main_arg26 (Pipeline.mem_restRefs_of main_arg26 (by decide) (by decide))).trans (W_main_arg26 m (dats m) c),
    ((h c).2 main_arg27 (Pipeline.mem_restRefs_of main_arg27 (by decide) (by decide))).trans (W_main_arg27 m (dats m) c),
    ((h c).2 main_arg28 (Pipeline.mem_restRefs_of main_arg28 (by decide) (by decide))).trans (W_main_arg28 m (dats m) c),
    ((h c).2 main_arg29 (Pipeline.mem_restRefs_of main_arg29 (by decide) (by decide))).trans (W_main_arg29 m (dats m) c)⟩) (run_main m ρ)

end Cert.Kernel.Hand

end
-- ==== Proof.FrameIdealHost.lean ====
/-
  The program around its one grid: fifty-six array operations run before the grid (they fold the four feature masks into
  the four gate weight matrices, concatenate the gates' columns, and transpose the batch-major states to unit-major
  ones), the grid itself, and three transposes after it. This module fixes the contents every array has when the grid
  starts (`V`: the memory after the operations before it), shows that none of those operations — and none of the three
  after the grid — writes an argument array, and that the operations after the grid touch only arrays the grid may
  leave to them, allocate nothing and write none of the grid's own arrays.
-/
import proofs.«160326_j16810501997190_2_alg».proof.Proof.LaunchIdealP
import Idealize.ShloMosaic.Lib.Pipeline.FrameBody
import Idealize.ShloMosaic.Lib.Pipeline.FrameSuffix

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s array contents when the grid starts: the memory after the operations before it. -/
abbrev V0 (c : Dev nD) : Valuation τ sig (Elt F) := StableHlo.after (List.flatten [hostOps0]) (fun b => m (c, b))
/-- The same, read at one array. -/
abbrev V (c : Dev nD) (b : Ref sig .tc) : Buf (Elt F) ((c : Thread nD τ).loc b) := V0 m c (Proc.devRef .tc b)

/-- No operation before the grid allocates. -/
theorem before_fresh : (hostOps0 : List (HloOp τ sig (Elt F))).Forall fun op => op.fresh = ∅ := by
  simp only [List.Forall]; repeat' constructor
/-- Nor does one after it. -/
theorem after_fresh : (hostOps1 : List (HloOp τ sig (Elt F))).Forall fun op => op.fresh = ∅ := by
  simp only [List.Forall]; repeat' constructor

/-- The program is: the operations before the grid, the grid, then the three transposes. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_fresh) main_chain

/-- The transposes after the grid read and write unscoped arrays only. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp after_fresh) op hop
/-- And each writes only its own result, which is none of the grid's nineteen arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays are written by no operation -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg24 (c : Dev nD) : V m c main_arg24 = m ((c : Thread nD τ).loc main_arg24) :=
  StableHlo.after_of_forall_not_mem (b := Proc.devRef .tc main_arg24) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg25 (c : Dev nD) : V m c main_arg25 = m ((c : Thread nD τ).loc main_arg25) :=
  StableHlo.after_of_forall_not_mem (b := Proc.devRef .tc main_arg25) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg26 (c : Dev nD) : V m c main_arg26 = m ((c : Thread nD τ).loc main_arg26) :=
  StableHlo.after_of_forall_not_mem (b := Proc.devRef .tc main_arg26) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg27 (c : Dev nD) : V m c main_arg27 = m ((c : Thread nD τ).loc main_arg27) :=
  StableHlo.after_of_forall_not_mem (b := Proc.devRef .tc main_arg27) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg28 (c : Dev nD) : V m c main_arg28 = m ((c : Thread nD τ).loc main_arg28) :=
  StableHlo.after_of_forall_not_mem (b := Proc.devRef .tc main_arg28) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg29 (c : Dev nD) : V m c main_arg29 = m ((c : Thread nD τ).loc main_arg29) :=
  StableHlo.after_of_forall_not_mem (b := Proc.devRef .tc main_arg29) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## Nor by a transpose after the grid (the arguments the grid does not stage itself) -/

theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c

theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c

theorem W_main_arg14 (dats : (p : Fin _) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact V_main_arg14 m c

theorem W_main_arg15 (dats : (p : Fin _) → (c : Dev nD) → Dat τ (Elt F) Unit ℕ (UR sig nD τ) ℕ (cfgs p) c) (c : Dev nD) :
    Pipeline.afterTail₀ cfgs dats 0 (V0 m) [hostOps1] c main_arg15 = m ((c : Thread nD τ).loc main_arg15) := by
  unfold Pipeline.afterTail₀
  rw [StableHlo.after_of_forall_not_mem (b := Proc.devRef .tc main_arg15) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg15 (by exact (by decide : ∀ w, Pipeline.arrRef spec0 w ≠ main_arg15))]
  exact V_main_arg15 m c

theorem W_main_arg16 (dats : (p : Fin _) → (c : Dev nD) → Dat τ (Elt F) Unit ℕ (UR sig nD τ) ℕ (cfgs p) c) (c : Dev nD) :
    Pipeline.afterTail₀ cfgs dats 0 (V0 m) [hostOps1] c main_arg16 = m ((c : Thread nD τ).loc main_arg16) := by
  unfold Pipeline.afterTail₀
  rw [StableHlo.after_of_forall_not_mem (b := Proc.devRef .tc main_arg16) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg16 (by exact (by decide : ∀ w, Pipeline.arrRef spec0 w ≠ main_arg16))]
  exact V_main_arg16 m c

theorem W_main_arg17 (dats : (p : Fin _) → (c : Dev nD) → Dat τ (Elt F) Unit ℕ (UR sig nD τ) ℕ (cfgs p) c) (c : Dev nD) :
    Pipeline.afterTail₀ cfgs dats 0 (V0 m) [hostOps1] c main_arg17 = m ((c : Thread nD τ).loc main_arg17) := by
  unfold Pipeline.afterTail₀
  rw [StableHlo.after_of_forall_not_mem (b := Proc.devRef .tc main_arg17) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg17 (by exact (by decide : ∀ w, Pipeline.arrRef spec0 w ≠ main_arg17))]
  exact V_main_arg17 m c

theorem W_main_arg18 (dats : (p : Fin _) → (c : Dev nD) → Dat τ (Elt F) Unit ℕ (UR sig nD τ) ℕ (cfgs p) c) (c : Dev nD) :
    Pipeline.afterTail₀ cfgs dats 0 (V0 m) [hostOps1] c main_arg18 = m ((c : Thread nD τ).loc main_arg18) := by
  unfold Pipeline.afterTail₀
  rw [StableHlo.after_of_forall_not_mem (b := Proc.devRef .tc main_arg18) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg18 (by exact (by decide : ∀ w, Pipeline.arrRef spec0 w ≠ main_arg18))]
  exact V_main_arg18 m c

theorem W_main_arg19 (dats : (p : Fin _) → (c : Dev nD) → Dat τ (Elt F) Unit ℕ (UR sig nD τ) ℕ (cfgs p) c) (c : Dev nD) :
    Pipeline.afterTail₀ cfgs dats 0 (V0 m) [hostOps1] c main_arg19 = m ((c : Thread nD τ).loc main_arg19) := by
  unfold Pipeline.afterTail₀
  rw [StableHlo.after_of_forall_not_mem (b := Proc.devRef .tc main_arg19) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg19 (by exact (by decide : ∀ w, Pipeline.arrRef spec0 w ≠ main_arg19))]
  exact V_main_arg19 m c

theorem W_main_arg21 (dats : (p : Fin _) → (c : Dev nD) → Dat τ (Elt F) Unit ℕ (UR sig nD τ) ℕ (cfgs p) c) (c : Dev nD) :
    Pipeline.afterTail₀ cfgs dats 0 (V0 m) [hostOps1] c main_arg21 = m ((c : Thread nD τ).loc main_arg21) := by
  unfold Pipeline.afterTail₀
  rw [StableHlo.after_of_forall_not_mem (b := Proc.devRef .tc main_arg21) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg21 (by exact (by decide : ∀ w, Pipeline.arrRef spec0 w ≠ main_arg21))]
  exact V_main_arg21 m c

theorem W_main_arg23 (dats : (p : Fin _) → (c : Dev nD) → Dat τ (Elt F) Unit ℕ (UR sig nD τ) ℕ (cfgs p) c) (c : Dev nD) :
    Pipeline.afterTail₀ cfgs dats 0 (V0 m) [hostOps1] c main_arg23 = m ((c : Thread nD τ).loc main_arg23) := by
  unfold Pipeline.afterTail₀
  rw [StableHlo.after_of_forall_not_mem (b := Proc.devRef .tc main_arg23) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg23 (by exact (by decide : ∀ w, Pipeline.arrRef spec0 w ≠ main_arg23))]
  exact V_main_arg23 m c

theorem W_main_arg25 (dats : (p : Fin _) → (c : Dev nD) → Dat τ (Elt F) Unit ℕ (UR sig nD τ) ℕ (cfgs p) c) (c : Dev nD) :
    Pipeline.afterTail₀ cfgs dats 0 (V0 m) [hostOps1] c main_arg25 = m ((c : Thread nD τ).loc main_arg25) := by
  unfold Pipeline.afterTail₀
  rw [StableHlo.after_of_forall_not_mem (b := Proc.devRef .tc main_arg25) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg25 (by exact (by decide : ∀ w, Pipeline.arrRef spec0 w ≠ main_arg25))]
  exact V_main_arg25 m c

theorem W_main_arg26 (dats : (p : Fin _) → (c : Dev nD) → Dat τ (Elt F) Unit ℕ (UR sig nD τ) ℕ (cfgs p) c) (c : Dev nD) :
    Pipeline.afterTail₀ cfgs dats 0 (V0 m) [hostOps1] c main_arg26 = m ((c : Thread nD τ).loc main_arg26) := by
  unfold Pipeline.afterTail₀
  rw [StableHlo.after_of_forall_not_mem (b := Proc.devRef .tc main_arg26) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg26 (by exact (by decide : ∀ w, Pipeline.arrRef spec0 w ≠ main_arg26))]
  exact V_main_arg26 m c

theorem W_main_arg27 (dats : (p : Fin _) → (c : Dev nD) → Dat τ (Elt F) Unit ℕ (UR sig nD τ) ℕ (cfgs p) c) (c : Dev nD) :
    Pipeline.afterTail₀ cfgs dats 0 (V0 m) [hostOps1] c main_arg27 = m ((c : Thread nD τ).loc main_arg27) := by
  unfold Pipeline.afterTail₀
  rw [StableHlo.after_of_forall_not_mem (b := Proc.devRef .tc main_arg27) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg27 (by exact (by decide : ∀ w, Pipeline.arrRef spec0 w ≠ main_arg27))]
  exact V_main_arg27 m c

theorem W_main_arg28 (dats : (p : Fin _) → (c : Dev nD) → Dat τ (Elt F) Unit ℕ (UR sig nD τ) ℕ (cfgs p) c) (c : Dev nD) :
    Pipeline.afterTail₀ cfgs dats 0 (V0 m) [hostOps1] c main_arg28 = m ((c : Thread nD τ).loc main_arg28) := by
  unfold Pipeline.afterTail₀
  rw [StableHlo.after_of_forall_not_mem (b := Proc.devRef .tc main_arg28) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg28 (by exact (by decide : ∀ w, Pipeline.arrRef spec0 w ≠ main_arg28))]
  exact V_main_arg28 m c

theorem W_main_arg29 (dats : (p : Fin _) → (c : Dev nD) → Dat τ (Elt F) Unit ℕ (UR sig nD τ) ℕ (cfgs p) c) (c : Dev nD) :
    Pipeline.afterTail₀ cfgs dats 0 (V0 m) [hostOps1] c main_arg29 = m ((c : Thread nD τ).loc main_arg29) := by
  unfold Pipeline.afterTail₀
  rw [StableHlo.after_of_forall_not_mem (b := Proc.devRef .tc main_arg29) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg29 (by exact (by decide : ∀ w, Pipeline.arrRef spec0 w ≠ main_arg29))]
  exact V_main_arg29 m c

end Cert.KernelIdeal.Hand

end
-- ==== Proof.FrameIdealBody.lean ====
/-
  One grid point's work. The body reads its sixteen input blocks whole (a block of 2048 batch rows of the inputs, unit-major
  blocks of the previous hidden and cell states and of the previous scalar, and the twelve small parameter arrays),
  computes the four gates' pre-activations as one 32 x 2048 matrix, the new cell and hidden states and the perceptron's
  output, and stores three whole output blocks. This module names what each output block holds afterwards as a function of
  the input blocks, and proves the body's triple: started on whole buffers holding any input blocks, it ends without a
  fault, the inputs as they were and each output buffer at that function of them.
-/
import proofs.«160326_j16810501997190_2_alg».proof.Proof.LaunchIdealP
import proofs.«160326_j16810501997190_2_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offset of every access of the body: the origin. -/
theorem origin2 : (![0, 0] : Fin 2 → Nat) = fun _ => 0 := by
  funext a; fin_cases a <;> rfl

/-! ## The body's accesses: each is a whole buffer -/
abbrev rS2048x1024 : Rect S2048x1024 := Rect.unit (s := S2048x1024) ![0, 0] S2048x1024.size inb_S2048x1024_S2048x1024_0_0
abbrev rS8x2048 : Rect S8x2048 := Rect.unit (s := S8x2048) ![0, 0] S8x2048.size inb_S8x2048_S8x2048_0_0
abbrev rS1x2048 : Rect S1x2048 := Rect.unit (s := S1x2048) ![0, 0] S1x2048.size inb_S1x2048_S1x2048_0_0
abbrev rS1024x32 : Rect S1024x32 := Rect.unit (s := S1024x32) ![0, 0] S1024x32.size inb_S1024x32_S1024x32_0_0
abbrev rS8x32 : Rect S8x32 := Rect.unit (s := S8x32) ![0, 0] S8x32.size inb_S8x32_S8x32_0_0
abbrev rS32x1 : Rect S32x1 := Rect.unit (s := S32x1) ![0, 0] S32x1.size inb_S32x1_S32x1_0_0
abbrev rS8x5 : Rect S8x5 := Rect.unit (s := S8x5) ![0, 0] S8x5.size inb_S8x5_S8x5_0_0
abbrev rS5x1 : Rect S5x1 := Rect.unit (s := S5x1) ![0, 0] S5x1.size inb_S5x1_S5x1_0_0
abbrev rS5x5 : Rect S5x5 := Rect.unit (s := S5x5) ![0, 0] S5x5.size inb_S5x5_S5x5_0_0
abbrev rS1x1 : Rect S1x1 := Rect.unit (s := S1x1) ![0, 0] S1x1.size inb_S1x1_S1x1_0_0

/-! ## What the body leaves in each output buffer -/

/-- The block of the advanced scalar: its one store, as a function of the input blocks. -/
def outZ (x0 : Vec F S2048x1024 .f32) (x1 : Vec F S8x2048 .f32) (x2 : Vec F S8x2048 .f32) (x3 : Vec F S1x2048 .f32) (x4 : Vec F S1024x32 .f32) (x5 : Vec F S8x32 .f32) (x6 : Vec F S32x1 .f32) (x7 : Vec F S32x1 .f32) (x8 : Vec F S8x5 .f32) (x9 : Vec F S5x1 .f32) (x10 : Vec F S5x5 .f32) (x11 : Vec F S5x1 .f32) (x12 : Vec F S5x1 .f32) (x13 : Vec F S1x1 .f32) (x14 : Vec F S5x1 .f32) (x15 : Vec F S5x1 .f32) : Vec F S1x2048 .f32 :=
  View.canon [⟨rS1x2048, k0_pay1 (k0_pay3 (View.ld x3 rS1x2048)) (k0_pay8 (k0_pay2 (View.ld x2 rS8x2048)) (k0_pay4 (View.ld x0 rS2048x1024) (View.ld x1 rS8x2048) (View.ld x3 rS1x2048) (View.ld x4 rS1024x32) (View.ld x5 rS8x32) (View.ld x6 rS32x1) (View.ld x7 rS32x1)) (k0_pay5 (View.ld x0 rS2048x1024) (View.ld x1 rS8x2048) (View.ld x3 rS1x2048) (View.ld x4 rS1024x32) (View.ld x5 rS8x32) (View.ld x6 rS32x1) (View.ld x7 rS32x1)) (View.ld x8 rS8x5) (View.ld x9 rS5x1) (View.ld x14 rS5x1)) (k0_pay9 (View.ld x10 rS5x5)) (View.ld x11 rS5x1) (View.ld x15 rS5x1) (View.ld x12 rS5x1) (View.ld x13 rS1x1)⟩]

/-- The block of the new hidden state. -/
def outH (x0 : Vec F S2048x1024 .f32) (x1 : Vec F S8x2048 .f32) (x2 : Vec F S8x2048 .f32) (x3 : Vec F S1x2048 .f32) (x4 : Vec F S1024x32 .f32) (x5 : Vec F S8x32 .f32) (x6 : Vec F S32x1 .f32) (x7 : Vec F S32x1 .f32) : Vec F S8x2048 .f32 :=
  View.canon [⟨rS8x2048, k0_pay7 (k0_pay2 (View.ld x2 rS8x2048)) (k0_pay4 (View.ld x0 rS2048x1024) (View.ld x1 rS8x2048) (View.ld x3 rS1x2048) (View.ld x4 rS1024x32) (View.ld x5 rS8x32) (View.ld x6 rS32x1) (View.ld x7 rS32x1)) (k0_pay5 (View.ld x0 rS2048x1024) (View.ld x1 rS8x2048) (View.ld x3 rS1x2048) (View.ld x4 rS1024x32) (View.ld x5 rS8x32) (View.ld x6 rS32x1) (View.ld x7 rS32x1))⟩]

/-- The block of the new cell state. -/
def outC (x0 : Vec F S2048x1024 .f32) (x1 : Vec F S8x2048 .f32) (x2 : Vec F S8x2048 .f32) (x3 : Vec F S1x2048 .f32) (x4 : Vec F S1024x32 .f32) (x5 : Vec F S8x32 .f32) (x6 : Vec F S32x1 .f32) (x7 : Vec F S32x1 .f32) : Vec F S8x2048 .f32 :=
  View.canon [⟨rS8x2048, k0_pay6 (k0_pay2 (View.ld x2 rS8x2048)) (k0_pay4 (View.ld x0 rS2048x1024) (View.ld x1 rS8x2048) (View.ld x3 rS1x2048) (View.ld x4 rS1024x32) (View.ld x5 rS8x32) (View.ld x6 rS32x1) (View.ld x7 rS32x1)) (k0_pay5 (View.ld x0 rS2048x1024) (View.ld x1 rS8x2048) (View.ld x3 rS1x2048) (View.ld x4 rS1024x32) (View.ld x5 rS8x32) (View.ld x6 rS32x1) (View.ld x7 rS32x1))⟩]

/-- A store of a whole buffer covers it. -/
theorem coverZ (p : Vec F S1x2048 .f32) (y : S1x2048.Idx) :
    ∃ pc ∈ ([⟨rS1x2048, p⟩] : List (View.Piece (Elt F) S1x2048 .f32)), y ∈ pc.1.set :=
  ⟨_, List.mem_singleton.mpr rfl, View.mem_set_unit_zero origin2 inb_S1x2048_S1x2048_0_0 y⟩
theorem coverH (p : Vec F S8x2048 .f32) (y : S8x2048.Idx) :
    ∃ pc ∈ ([⟨rS8x2048, p⟩] : List (View.Piece (Elt F) S8x2048 .f32)), y ∈ pc.1.set :=
  ⟨_, List.mem_singleton.mpr rfl, View.mem_set_unit_zero origin2 inb_S8x2048_S8x2048_0_0 y⟩

/-! ## The body's triple -/

set_option maxHeartbeats 4000000 in
/-- The body on whole buffers, the sixteen inputs' holding `x0 … x15` and the three outputs' holding anything, runs to
    its continuation with the inputs' buffers as they were and the outputs' at `outZ`, `outH`, `outC` of the inputs. -/
theorem sound_kernel (c : Dev nD) (E : Set ℕ) (i : grid0.Coords)
    (arg1 : Memref sig .tc .vmem S2048x1024 .f32) (harg1 : arg1.IsWhole)
    (arg2 : Memref sig .tc .vmem S8x2048 .f32) (harg2 : arg2.IsWhole)
    (arg3 : Memref sig .tc .vmem S8x2048 .f32) (harg3 : arg3.IsWhole)
    (arg4 : Memref sig .tc .vmem S1x2048 .f32) (harg4 : arg4.IsWhole)
    (arg5 : Memref sig .tc .vmem S1024x32 .f32) (harg5 : arg5.IsWhole)
    (arg6 : Memref sig .tc .vmem S8x32 .f32) (harg6 : arg6.IsWhole)
    (arg7 : Memref sig .tc .vmem S32x1 .f32) (harg7 : arg7.IsWhole)
    (arg8 : Memref sig .tc .vmem S32x1 .f32) (harg8 : arg8.IsWhole)
    (arg9 : Memref sig .tc .vmem S8x5 .f32) (harg9 : arg9.IsWhole)
    (arg10 : Memref sig .tc .vmem S5x1 .f32) (harg10 : arg10.IsWhole)
    (arg11 : Memref sig .tc .vmem S5x5 .f32) (harg11 : arg11.IsWhole)
    (arg12 : Memref sig .tc .vmem S5x1 .f32) (harg12 : arg12.IsWhole)
    (arg13 : Memref sig .tc .vmem S5x1 .f32) (harg13 : arg13.IsWhole)
    (arg14 : Memref sig .tc .vmem S1x1 .f32) (harg14 : arg14.IsWhole)
    (arg15 : Memref sig .tc .vmem S5x1 .f32) (harg15 : arg15.IsWhole)
    (arg16 : Memref sig .tc .vmem S5x1 .f32) (harg16 : arg16.IsWhole)
    (arg17 : Memref sig .tc .vmem S1x2048 .f32) (harg17 : arg17.IsWhole)
    (arg18 : Memref sig .tc .vmem S8x2048 .f32) (harg18 : arg18.IsWhole)
    (arg19 : Memref sig .tc .vmem S8x2048 .f32) (harg19 : arg19.IsWhole)
    (x0 : Vec F S2048x1024 .f32) (x1 : Vec F S8x2048 .f32) (x2 : Vec F S8x2048 .f32) (x3 : Vec F S1x2048 .f32) (x4 : Vec F S1024x32 .f32) (x5 : Vec F S8x32 .f32) (x6 : Vec F S32x1 .f32) (x7 : Vec F S32x1 .f32) (x8 : Vec F S8x5 .f32) (x9 : Vec F S5x1 .f32) (x10 : Vec F S5x5 .f32) (x11 : Vec F S5x1 .f32) (x12 : Vec F S5x1 .f32) (x13 : Vec F S1x1 .f32) (x14 : Vec F S5x1 .f32) (x15 : Vec F S5x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15
        ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15
            ∗ owns (c : Thread nD τ) arg17 fullShare (outZ x0 x1 x2 x3 x4 x5 x6 x7 x8 x9 x10 x11 x12 x13 x14 x15)
            ∗ owns (c : Thread nD τ) arg18 fullShare (outH x0 x1 x2 x3 x4 x5 x6 x7)
            ∗ owns (c : Thread nD τ) arg19 fullShare (outC x0 x1 x2 x3 x4 x5 x6 x7)) -∗ K ⟨⟩))
      ⊢ wp frame (wpE (defs₀ (F := F)) Variants.none c none) E (cc0__cell_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__cell_kernel_eq_skeleton]; unfold cc0__cell_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    try dsimp only
    exact View.read_writes_eq_canon _ _ _ (coverZ _)
  isplitl [H17]
  · iexists _; isplitr
    swap; · iexact H17
    ipureintro
    try dsimp only
    exact View.read_writes_eq_canon _ _ _ (coverH _)
  iexists _; isplitr
  swap; · iexact H18
  ipureintro
  try dsimp only
  exact View.read_writes_eq_canon _ _ _ (coverH _)

end Cert.KernelIdeal.Hand

end
-- ==== Proof.FrameIdealRun.lean ====
/-
  The grid as a whole. At point `t` of its 32 points each input buffer holds block `t` of its array (the twelve parameter
  arrays are one block, fetched once and found unchanged at every later point); after the body the three output buffers
  hold the functions of those blocks named with the body, and each is written back to block `t` of its array. From this
  the program's run follows: every fair execution ends, faults nowhere, leaves every output array at the blocks written
  back and every other array as the three closing transposes leave it — in particular each of the thirty argument arrays
  as it was.
-/
import proofs.«160326_j16810501997190_2_alg».proof.Proof.FrameIdealHost
import proofs.«160326_j16810501997190_2_alg».proof.Proof.FrameIdealBody
import proofs.«160326_j16810501997190_2_alg».proof.Proof.Gen.KernelIdeal.Points

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Block `t` of array `w`, read off the array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## An input buffer holds its block at every point, fetched there or not -/

theorem held0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem held1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem held2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem held3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem held4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem held5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem held6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem held7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

theorem held8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

theorem held9 {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

theorem held10 {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

theorem held11 {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

theorem held12 {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

theorem held13 {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

theorem held14 {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

theorem held15 {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- On core `c`: the arrays as the grid finds them; after the body at point `t` each input buffer at its block and the
    three output buffers at the body's functions of the input blocks; nothing else is used. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => outZ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨17, _⟩ => outH (iblk m c 0 t) (iblk m c 1 t) (iblk m c 2 t) (iblk m c 3 t) (iblk m c 4 t) (iblk m c 5 t) (iblk m c 6 t) (iblk m c 7 t)
    | ⟨18, _⟩ => outC (iblk m c 0 t) (iblk m c 1 t) (iblk m c 2 t) (iblk m c 3 t) (iblk m c 4 t) (iblk m c 5 t) (iblk m c 6 t) (iblk m c 7 t)
    | ⟨_ + 19, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = outZ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after17 (c : Dev nD) (t : Fin cfg0.N) : (dats m 0 c).after 17 t = outH (iblk m c 0 t) (iblk m c 1 t) (iblk m c 2 t) (iblk m c 3 t) (iblk m c 4 t) (iblk m c 5 t) (iblk m c 6 t) (iblk m c 7 t) := by dsimp only [dats]
theorem after18 (c : Dev nD) (t : Fin cfg0.N) : (dats m 0 c).after 18 t = outC (iblk m c 0 t) (iblk m c 1 t) (iblk m c 2 t) (iblk m c 3 t) (iblk m c 4 t) (iblk m c 5 t) (iblk m c 6 t) (iblk m c 7 t) := by dsimp only [dats]

theorem before0 (c : Dev nD) (t : Fin cfg0.N) (d) : (dats m 0 c).before 0 t d = iblk m c 0 t :=
  held0 m (dats m 0 c) (A_eq m c 0) (after0 m c) t d
theorem before1 (c : Dev nD) (t : Fin cfg0.N) (d) : (dats m 0 c).before 1 t d = iblk m c 1 t :=
  held1 m (dats m 0 c) (A_eq m c 1) (after1 m c) t d
theorem before2 (c : Dev nD) (t : Fin cfg0.N) (d) : (dats m 0 c).before 2 t d = iblk m c 2 t :=
  held2 m (dats m 0 c) (A_eq m c 2) (after2 m c) t d
theorem before3 (c : Dev nD) (t : Fin cfg0.N) (d) : (dats m 0 c).before 3 t d = iblk m c 3 t :=
  held3 m (dats m 0 c) (A_eq m c 3) (after3 m c) t d
theorem before4 (c : Dev nD) (t : Fin cfg0.N) (d) : (dats m 0 c).before 4 t d = iblk m c 4 t :=
  held4 m (dats m 0 c) (A_eq m c 4) (after4 m c) t d
theorem before5 (c : Dev nD) (t : Fin cfg0.N) (d) : (dats m 0 c).before 5 t d = iblk m c 5 t :=
  held5 m (dats m 0 c) (A_eq m c 5) (after5 m c) t d
theorem before6 (c : Dev nD) (t : Fin cfg0.N) (d) : (dats m 0 c).before 6 t d = iblk m c 6 t :=
  held6 m (dats m 0 c) (A_eq m c 6) (after6 m c) t d
theorem before7 (c : Dev nD) (t : Fin cfg0.N) (d) : (dats m 0 c).before 7 t d = iblk m c 7 t :=
  held7 m (dats m 0 c) (A_eq m c 7) (after7 m c) t d
theorem before8 (c : Dev nD) (t : Fin cfg0.N) (d) : (dats m 0 c).before 8 t d = iblk m c 8 t :=
  held8 m (dats m 0 c) (A_eq m c 8) (after8 m c) t d
theorem before9 (c : Dev nD) (t : Fin cfg0.N) (d) : (dats m 0 c).before 9 t d = iblk m c 9 t :=
  held9 m (dats m 0 c) (A_eq m c 9) (after9 m c) t d
theorem before10 (c : Dev nD) (t : Fin cfg0.N) (d) : (dats m 0 c).before 10 t d = iblk m c 10 t :=
  held10 m (dats m 0 c) (A_eq m c 10) (after10 m c) t d
theorem before11 (c : Dev nD) (t : Fin cfg0.N) (d) : (dats m 0 c).before 11 t d = iblk m c 11 t :=
  held11 m (dats m 0 c) (A_eq m c 11) (after11 m c) t d
theorem before12 (c : Dev nD) (t : Fin cfg0.N) (d) : (dats m 0 c).before 12 t d = iblk m c 12 t :=
  held12 m (dats m 0 c) (A_eq m c 12) (after12 m c) t d
theorem before13 (c : Dev nD) (t : Fin cfg0.N) (d) : (dats m 0 c).before 13 t d = iblk m c 13 t :=
  held13 m (dats m 0 c) (A_eq m c 13) (after13 m c) t d
theorem before14 (c : Dev nD) (t : Fin cfg0.N) (d) : (dats m 0 c).before 14 t d = iblk m c 14 t :=
  held14 m (dats m 0 c) (A_eq m c 14) (after14 m c) t d
theorem before15 (c : Dev nD) (t : Fin cfg0.N) (d) : (dats m 0 c).before 15 t d = iblk m c 15 t :=
  held15 m (dats m 0 c) (A_eq m c 15) (after15 m c) t d

/-! ## The body obligation, at a generic point -/

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16, after17, after18]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (sound_kernel c Set.univ (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  iintro ⟨H0, H1, H2, H3, H4, H5, H6, H7, H8, H9, H10, H11, H12, H13, H14, H15, H16, H17, H18⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates without a fault; at its end each of the grid's arrays holds what
    the blocks written back make of it, and every other unscoped array what the three closing transposes leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The thirty argument arrays end as they began: the four the grid stages itself are input arrays of the grid, which it
    never writes; the other twenty-six are written by no operation and no block. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  (θ_run defs _ _).mono (fun _ h c => ⟨((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c),
    ((h c).2 main_arg10 (Pipeline.mem_restRefs_of main_arg10 (by decide) (by decide))).trans (W_main_arg10 m (dats m) c),
    ((h c).2 main_arg11 (Pipeline.mem_restRefs_of main_arg11 (by decide) (by decide))).trans (W_main_arg11 m (dats m) c),
    ((h c).2 main_arg12 (Pipeline.mem_restRefs_of main_arg12 (by decide) (by decide))).trans (W_main_arg12 m (dats m) c),
    ((h c).2 main_arg13 (Pipeline.mem_restRefs_of main_arg13 (by decide) (by decide))).trans (W_main_arg13 m (dats m) c),
    ((h c).2 main_arg14 (Pipeline.mem_restRefs_of main_arg14 (by decide) (by decide))).trans (W_main_arg14 m (dats m) c),
    ((h c).2 main_arg15 (Pipeline.mem_restRefs_of main_arg15 (by decide) (by decide))).trans (W_main_arg15 m (dats m) c),
    ((h c).2 main_arg16 (Pipeline.mem_restRefs_of main_arg16 (by decide) (by decide))).trans (W_main_arg16 m (dats m) c),
    ((h c).2 main_arg17 (Pipeline.mem_restRefs_of main_arg17 (by decide) (by decide))).trans (W_main_arg17 m (dats m) c),
    ((h c).2 main_arg18 (Pipeline.mem_restRefs_of main_arg18 (by decide) (by decide))).trans (W_main_arg18 m (dats m) c),
    ((h c).2 main_arg19 (Pipeline.mem_restRefs_of main_arg19 (by decide) (by decide))).trans (W_main_arg19 m (dats m) c),
    ((h c).1 8).trans (((dats m 0 c).arrAt_in 8 rfl _).trans ((A_eq m c 8).trans (V_main_arg20 m c))),
    ((h c).2 main_arg21 (Pipeline.mem_restRefs_of main_arg21 (by decide) (by decide))).trans (W_main_arg21 m (dats m) c),
    ((h c).1 10).trans (((dats m 0 c).arrAt_in 10 rfl _).trans ((A_eq m c 10).trans (V_main_arg22 m c))),
    ((h c).2 main_arg23 (Pipeline.mem_restRefs_of main_arg23 (by decide) (by decide))).trans (W_main_arg23 m (dats m) c),
    ((h c).1 12).trans (((dats m 0 c).arrAt_in 12 rfl _).trans ((A_eq m c 12).trans (V_main_arg24 m c))),
    ((h c).2 main_arg25 (Pipeline.mem_restRefs_of main_arg25 (by decide) (by decide))).trans (W_main_arg25 m (dats m) c),
    ((h c).2 main_arg26 (Pipeline.mem_restRefs_of main_arg26 (by decide) (by decide))).trans (W_main_arg26 m (dats m) c),
    ((h c).2 main_arg27 (Pipeline.mem_restRefs_of main_arg27 (by decide) (by decide))).trans (W_main_arg27 m (dats m) c),
    ((h c).2 main_arg28 (Pipeline.mem_restRefs_of main_arg28 (by decide) (by decide))).trans (W_main_arg28 m (dats m) c),
    ((h c).2 main_arg29 (Pipeline.mem_restRefs_of main_arg29 (by decide) (by decide))).trans (W_main_arg29 m (dats m) c)⟩) (run_main m ρ)

end Cert.KernelIdeal.Hand

end
-- ==== Proof.CellSpec.lean ====
/-
  The cell this certificate is about, as mathematics on the extended reals, one batch row at a time.

  A row carries an input vector `x ∈ EReal^1024`, a previous hidden state `h ∈ EReal^8`, a previous cell state
  `c ∈ EReal^8` and a previous scalar `z`. For each of the four gates `g` (input, forget, candidate, output) and each of
  the eight hidden units `j` the pre-activation is
      gate g j = ((Σ_d (x d · mx g d) · Wx g d j  +  Σ_k h k · Wh g k j)  +  (z · mz g) · Wz g j)  +  b g j,
  the new cell state is `σ(gate 1) · c + σ(gate 0) · tanh (gate 2)`, the new hidden state `σ(gate 3) · tanh (new cell)` with `σ` the
  hard sigmoid `min 1 (max 0 (t / 6 + 1/2))`, and the scalar is advanced by a three-layer perceptron of the new hidden
  state with rectifier activations, the first two layers masked: `z + relu (Σ d2 · Wd3 + bd3)`.
  The four literals (6, 1/2, 0, 1) are kept as the binary32 words both programs print, so nothing is ever evaluated.
-/
import Idealize.ShloMosaic.PureOps.Ideal
import Idealize.ShloMosaic.Lib.ValueIdx

noncomputable section

namespace Cert.CellSpec

open Idealize.ShloMosaic Idealize.ShloMosaic.ValueIdx

/-- Hidden unit `j` of gate `g` in the concatenation of the four gates' columns: position `8 g + j` of 32. -/
def cat (g : Fin 4) (j : Fin 8) : Fin 32 := ⟨8 * g.val + j.val, by have := g.isLt; have := j.isLt; omega⟩

/-- The hard sigmoid `min 1 (max 0 (t / 6 + 1/2))` on the extended reals. -/
def hsig (t : EReal) : EReal :=
  min (Ideal.ofBits .f32 0x3F800000#32)
    (max (Ideal.ofBits .f32 0x00000000#32) (Ideal.div t (Ideal.ofBits .f32 0x40C00000#32) + Ideal.ofBits .f32 0x3F000000#32))

/-- The rectifier `max t 0`. -/
def relu (t : EReal) : EReal := max t (Ideal.ofBits .f32 0x00000000#32)

/-- The cell's parameters: gate weights and their masks, biases, and the perceptron's three layers. -/
structure Weights where
  Wx : Fin 4 → Fin 1024 → Fin 8 → EReal
  mx : Fin 4 → Fin 1024 → EReal
  Wh : Fin 4 → Fin 8 → Fin 8 → EReal
  Wz : Fin 4 → Fin 8 → EReal
  mz : Fin 4 → EReal
  bg : Fin 4 → Fin 8 → EReal
  Wd1 : Fin 8 → Fin 5 → EReal
  bd1 : Fin 5 → EReal
  m1 : Fin 5 → EReal
  Wd2 : Fin 5 → Fin 5 → EReal
  bd2 : Fin 5 → EReal
  m2 : Fin 5 → EReal
  Wd3 : Fin 5 → EReal
  bd3 : EReal

/-- One batch row's inputs. -/
structure Row where
  x : Fin 1024 → EReal
  h : Fin 8 → EReal
  c : Fin 8 → EReal
  z : EReal

/-- Gate `g`'s pre-activation at hidden unit `j`. -/
def gate (P : Weights) (R : Row) (g : Fin 4) (j : Fin 8) : EReal :=
  (((∑ d : Fin 1024, (R.x d * P.mx g d) * P.Wx g d j) + (∑ k : Fin 8, R.h k * P.Wh g k j))
      + (R.z * P.mz g) * P.Wz g j) + P.bg g j

/-- The new cell state. -/
def cnew (P : Weights) (R : Row) (j : Fin 8) : EReal :=
  hsig (gate P R 1 j) * R.c j + hsig (gate P R 0 j) * Ideal.tanh (gate P R 2 j)

/-- The new hidden state. -/
def hnew (P : Weights) (R : Row) (j : Fin 8) : EReal :=
  hsig (gate P R 3 j) * Ideal.tanh (cnew P R j)

/-- The perceptron's first layer, masked. -/
def d1 (P : Weights) (R : Row) (f : Fin 5) : EReal :=
  relu ((∑ k : Fin 8, hnew P R k * P.Wd1 k f) + P.bd1 f) * P.m1 f

/-- Its second layer, masked. -/
def d2 (P : Weights) (R : Row) (f : Fin 5) : EReal :=
  relu ((∑ k : Fin 5, d1 P R k * P.Wd2 k f) + P.bd2 f) * P.m2 f

/-- Its output. -/
def d3 (P : Weights) (R : Row) : EReal :=
  relu ((∑ k : Fin 5, d2 P R k * P.Wd3 k) + P.bd3)

/-- The advanced scalar. -/
def znew (P : Weights) (R : Row) : EReal := R.z + d3 P R

/-! ## The thirty argument arrays -/

/-- The programs' thirty argument arrays, in the order of the entry point's parameters. -/
structure Args where
  x : (⟨2, ![65536, 1024]⟩ : Shape).Idx → EReal
  hp : (⟨3, ![1, 65536, 8]⟩ : Shape).Idx → EReal
  cp : (⟨3, ![1, 65536, 8]⟩ : Shape).Idx → EReal
  zp : (⟨2, ![65536, 1]⟩ : Shape).Idx → EReal
  Wx : Fin 4 → (⟨2, ![1024, 8]⟩ : Shape).Idx → EReal
  Wh : Fin 4 → (⟨2, ![8, 8]⟩ : Shape).Idx → EReal
  Wz : Fin 4 → (⟨2, ![1, 8]⟩ : Shape).Idx → EReal
  b : Fin 4 → (⟨1, ![8]⟩ : Shape).Idx → EReal
  Wd1 : (⟨2, ![8, 5]⟩ : Shape).Idx → EReal
  bd1 : (⟨1, ![5]⟩ : Shape).Idx → EReal
  Wd2 : (⟨2, ![5, 5]⟩ : Shape).Idx → EReal
  bd2 : (⟨1, ![5]⟩ : Shape).Idx → EReal
  Wd3 : (⟨2, ![5, 1]⟩ : Shape).Idx → EReal
  bd3 : (⟨1, ![1]⟩ : Shape).Idx → EReal
  mx : (⟨2, ![4, 1024]⟩ : Shape).Idx → EReal
  mz : (⟨2, ![4, 1]⟩ : Shape).Idx → EReal
  m1 : (⟨2, ![1, 5]⟩ : Shape).Idx → EReal
  m2 : (⟨2, ![1, 5]⟩ : Shape).Idx → EReal

/-- The parameters the arrays hold. -/
def Args.weights (A : Args) : Weights where
  Wx g d j := A.Wx g (ix2 d j)
  mx g d := A.mx (ix2 g d)
  Wh g k j := A.Wh g (ix2 k j)
  Wz g j := A.Wz g (ix2 0 j)
  mz g := A.mz (ix2 g 0)
  bg g j := A.b g (ix1 j)
  Wd1 k f := A.Wd1 (ix2 k f)
  bd1 f := A.bd1 (ix1 f)
  m1 f := A.m1 (ix2 0 f)
  Wd2 k f := A.Wd2 (ix2 k f)
  bd2 f := A.bd2 (ix1 f)
  m2 f := A.m2 (ix2 0 f)
  Wd3 k := A.Wd3 (ix2 k 0)
  bd3 := A.bd3 (ix1 0)

/-- Batch row `r` of the arrays. -/
def Args.row (A : Args) (r : Fin 65536) : Row where
  x d := A.x (ix2 r d)
  h k := A.hp (ix3 0 r k)
  c k := A.cp (ix3 0 r k)
  z := A.zp (ix2 r 0)

/-- The three results, index by index: the advanced scalar, the new hidden state, the new cell state. -/
def Args.zt (A : Args) : (⟨2, ![65536, 1]⟩ : Shape).Idx → EReal := fun i => znew A.weights (A.row (i 0))
def Args.ht (A : Args) : (⟨2, ![65536, 8]⟩ : Shape).Idx → EReal := fun i => hnew A.weights (A.row (i 0)) (i 1)
def Args.ct (A : Args) : (⟨2, ![65536, 8]⟩ : Shape).Idx → EReal := fun i => cnew A.weights (A.row (i 0)) (i 1)

end Cert.CellSpec

end
-- ==== Proof.KerArgs.lean ====
/-
  The thirty argument arrays of one core, read as the specification's structure: the batch of inputs, the previous hidden
  and cell states and scalar, the four gates' three weight matrices and biases, the perceptron's three layers, and the four
  masks.
-/
import proofs.«160326_j16810501997190_2_alg».proof.KernelIdeal
import proofs.«160326_j16810501997190_2_alg».proof.Proof.CellSpec

noncomputable section

namespace Cert.KerCell

open Cert.KernelIdeal Idealize.ShloMosaic Idealize.SL.Sem

/-- Core `c`'s argument arrays in memory `m`. -/
def args (m : (ℓ : Loc nD τ sig) → Buf (Elt Ideal) ℓ) (c : Dev nD) : Cert.CellSpec.Args where
  x := (m ((c.tc : Thread nD τ).loc main_arg0))
  hp := (m ((c.tc : Thread nD τ).loc main_arg1))
  cp := (m ((c.tc : Thread nD τ).loc main_arg2))
  zp := (m ((c.tc : Thread nD τ).loc main_arg3))
  Wx := ![(m ((c.tc : Thread nD τ).loc main_arg4)), (m ((c.tc : Thread nD τ).loc main_arg5)), (m ((c.tc : Thread nD τ).loc main_arg6)), (m ((c.tc : Thread nD τ).loc main_arg7))]
  Wh := ![(m ((c.tc : Thread nD τ).loc main_arg8)), (m ((c.tc : Thread nD τ).loc main_arg9)), (m ((c.tc : Thread nD τ).loc main_arg10)), (m ((c.tc : Thread nD τ).loc main_arg11))]
  Wz := ![(m ((c.tc : Thread nD τ).loc main_arg12)), (m ((c.tc : Thread nD τ).loc main_arg13)), (m ((c.tc : Thread nD τ).loc main_arg14)), (m ((c.tc : Thread nD τ).loc main_arg15))]
  b := ![(m ((c.tc : Thread nD τ).loc main_arg16)), (m ((c.tc : Thread nD τ).loc main_arg17)), (m ((c.tc : Thread nD τ).loc main_arg18)), (m ((c.tc : Thread nD τ).loc main_arg19))]
  Wd1 := (m ((c.tc : Thread nD τ).loc main_arg20))
  bd1 := (m ((c.tc : Thread nD τ).loc main_arg21))
  Wd2 := (m ((c.tc : Thread nD τ).loc main_arg22))
  bd2 := (m ((c.tc : Thread nD τ).loc main_arg23))
  Wd3 := (m ((c.tc : Thread nD τ).loc main_arg24))
  bd3 := (m ((c.tc : Thread nD τ).loc main_arg25))
  mx := (m ((c.tc : Thread nD τ).loc main_arg26))
  mz := (m ((c.tc : Thread nD τ).loc main_arg27))
  m1 := (m ((c.tc : Thread nD τ).loc main_arg28))
  m2 := (m ((c.tc : Thread nD τ).loc main_arg29))

end Cert.KerCell

end
-- ==== Proof.KerCellDots.lean ====
/-
  The five matrix products of the cell's body, each read at one output index.

  Every product accumulates into zero and contracts a single axis, so its entry at (n, b) is a plain finite sum over
  that axis of a left entry times a right entry. The left operand is always a weight matrix stored with the contracted
  axis first (entry (k, n)); the right operand is a block of per-row data, stored batch-major for the input features
  (entry (b, k)) and unit-major for everything else (entry (k, b)). For each product the four coordinate facts say which
  coordinate of the output index or of the contraction index each operand coordinate is.
-/
import proofs.«160326_j16810501997190_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KerCell

open Cert.KernelIdeal Cert.KernelIdeal.Gen Idealize.ShloMosaic Idealize.ShloMosaic.ValueIdx
open scoped BigOperators
/-! ### Input features against the concatenated gate weights: entry `(n, b)` is `Σ_d l (d, n) · r (b, d)` over the 1024 features. -/

theorem lhsX_0 (i : S32x2048.Idx) (q : dot_S1024x32_S2048x1024_S32x2048_0_1_1_0_n_n.contr.Idx) :
    (dot_S1024x32_S2048x1024_S32x2048_0_1_1_0_n_n.lhsIdx i q 0).val = (q ⟨0, by decide⟩).val :=
  dot_S1024x32_S2048x1024_S32x2048_0_1_1_0_n_n.lhsIdx_val_of_single rfl i q
theorem lhsX_1 (i : S32x2048.Idx) (q : dot_S1024x32_S2048x1024_S32x2048_0_1_1_0_n_n.contr.Idx) :
    (dot_S1024x32_S2048x1024_S32x2048_0_1_1_0_n_n.lhsIdx i q 1).val = (i 0).val := by
  unfold DotDims.lhsIdx
  rw [dif_neg (show ¬(1 : Fin S1024x32.rank) ∈ dot_S1024x32_S2048x1024_S32x2048_0_1_1_0_n_n.lhsBatch by decide), dif_pos (show (1 : Fin S1024x32.rank) ∈ dot_S1024x32_S2048x1024_S32x2048_0_1_1_0_n_n.lhsNonContracting by decide)]
  rfl
theorem rhsX_0 (i : S32x2048.Idx) (q : dot_S1024x32_S2048x1024_S32x2048_0_1_1_0_n_n.contr.Idx) :
    (dot_S1024x32_S2048x1024_S32x2048_0_1_1_0_n_n.rhsIdx i q 0).val = (i 1).val := by
  unfold DotDims.rhsIdx
  rw [dif_neg (show ¬(0 : Fin S2048x1024.rank) ∈ dot_S1024x32_S2048x1024_S32x2048_0_1_1_0_n_n.rhsBatch by decide), dif_pos (show (0 : Fin S2048x1024.rank) ∈ dot_S1024x32_S2048x1024_S32x2048_0_1_1_0_n_n.rhsNonContracting by decide)]
  rfl
theorem rhsX_1 (i : S32x2048.Idx) (q : dot_S1024x32_S2048x1024_S32x2048_0_1_1_0_n_n.contr.Idx) :
    (dot_S1024x32_S2048x1024_S32x2048_0_1_1_0_n_n.rhsIdx i q 1).val = (q ⟨0, by decide⟩).val :=
  dot_S1024x32_S2048x1024_S32x2048_0_1_1_0_n_n.rhsIdx_val_of_single rfl i q
/-- Input features against the concatenated gate weights: entry `(n, b)` is `Σ_d l (d, n) · r (b, d)` over the 1024 features. -/
theorem dotX_apply {φ₁ φ₂ : FTy} (l : FVec Ideal S1024x32 φ₁) (r : FVec Ideal S2048x1024 φ₂) (n : Fin 32) (b : Fin 2048) :
    matmul dot_S1024x32_S2048x1024_S32x2048_0_1_1_0_n_n none l r (constant S32x2048 .f32 0x00000000#32) (ix2 n b)
      = ∑ k : Fin 1024, l (ix2 k n) * r (ix2 b k) := by
  simp only [matmul]
  rw [Ideal.matmul_constant_zero_apply, ← Equiv.sum_comp (contrEquiv1 dot_S1024x32_S2048x1024_S32x2048_0_1_1_0_n_n 1024 rfl rfl).symm]
  refine Finset.sum_congr rfl fun k _ => ?_
  have hk := contrEquiv1_symm_val dot_S1024x32_S2048x1024_S32x2048_0_1_1_0_n_n 1024 rfl rfl k
  have el : dot_S1024x32_S2048x1024_S32x2048_0_1_1_0_n_n.lhsIdx (ix2 n b) ((contrEquiv1 dot_S1024x32_S2048x1024_S32x2048_0_1_1_0_n_n 1024 rfl rfl).symm k) = ix2 k n := funext fun a => Fin.ext (by
    match a with
    | ⟨0, _⟩ => exact (lhsX_0 _ _).trans hk
    | ⟨1, _⟩ => exact lhsX_1 _ _)
  have er : dot_S1024x32_S2048x1024_S32x2048_0_1_1_0_n_n.rhsIdx (ix2 n b) ((contrEquiv1 dot_S1024x32_S2048x1024_S32x2048_0_1_1_0_n_n 1024 rfl rfl).symm k) = ix2 b k := funext fun a => Fin.ext (by
    match a with
    | ⟨0, _⟩ => exact rhsX_0 _ _
    | ⟨1, _⟩ => exact (rhsX_1 _ _).trans hk)
  rw [el, er]

/-! ### Previous hidden state against the concatenated recurrent weights: entry `(n, b)` is `Σ_k l (k, n) · r (k, b)` over the 8 units. -/

theorem lhsH_0 (i : S32x2048.Idx) (q : dot_S8x32_S8x2048_S32x2048_0_0_1_1_n_n.contr.Idx) :
    (dot_S8x32_S8x2048_S32x2048_0_0_1_1_n_n.lhsIdx i q 0).val = (q ⟨0, by decide⟩).val :=
  dot_S8x32_S8x2048_S32x2048_0_0_1_1_n_n.lhsIdx_val_of_single rfl i q
theorem lhsH_1 (i : S32x2048.Idx) (q : dot_S8x32_S8x2048_S32x2048_0_0_1_1_n_n.contr.Idx) :
    (dot_S8x32_S8x2048_S32x2048_0_0_1_1_n_n.lhsIdx i q 1).val = (i 0).val := by
  unfold DotDims.lhsIdx
  rw [dif_neg (show ¬(1 : Fin S8x32.rank) ∈ dot_S8x32_S8x2048_S32x2048_0_0_1_1_n_n.lhsBatch by decide), dif_pos (show (1 : Fin S8x32.rank) ∈ dot_S8x32_S8x2048_S32x2048_0_0_1_1_n_n.lhsNonContracting by decide)]
  rfl
theorem rhsH_0 (i : S32x2048.Idx) (q : dot_S8x32_S8x2048_S32x2048_0_0_1_1_n_n.contr.Idx) :
    (dot_S8x32_S8x2048_S32x2048_0_0_1_1_n_n.rhsIdx i q 0).val = (q ⟨0, by decide⟩).val :=
  dot_S8x32_S8x2048_S32x2048_0_0_1_1_n_n.rhsIdx_val_of_single rfl i q
theorem rhsH_1 (i : S32x2048.Idx) (q : dot_S8x32_S8x2048_S32x2048_0_0_1_1_n_n.contr.Idx) :
    (dot_S8x32_S8x2048_S32x2048_0_0_1_1_n_n.rhsIdx i q 1).val = (i 1).val := by
  unfold DotDims.rhsIdx
  rw [dif_neg (show ¬(1 : Fin S8x2048.rank) ∈ dot_S8x32_S8x2048_S32x2048_0_0_1_1_n_n.rhsBatch by decide), dif_pos (show (1 : Fin S8x2048.rank) ∈ dot_S8x32_S8x2048_S32x2048_0_0_1_1_n_n.rhsNonContracting by decide)]
  rfl
/-- Previous hidden state against the concatenated recurrent weights: entry `(n, b)` is `Σ_k l (k, n) · r (k, b)` over the 8 units. -/
theorem dotH_apply {φ₁ φ₂ : FTy} (l : FVec Ideal S8x32 φ₁) (r : FVec Ideal S8x2048 φ₂) (n : Fin 32) (b : Fin 2048) :
    matmul dot_S8x32_S8x2048_S32x2048_0_0_1_1_n_n none l r (constant S32x2048 .f32 0x00000000#32) (ix2 n b)
      = ∑ k : Fin 8, l (ix2 k n) * r (ix2 k b) := by
  simp only [matmul]
  rw [Ideal.matmul_constant_zero_apply, ← Equiv.sum_comp (contrEquiv1 dot_S8x32_S8x2048_S32x2048_0_0_1_1_n_n 8 rfl rfl).symm]
  refine Finset.sum_congr rfl fun k _ => ?_
  have hk := contrEquiv1_symm_val dot_S8x32_S8x2048_S32x2048_0_0_1_1_n_n 8 rfl rfl k
  have el : dot_S8x32_S8x2048_S32x2048_0_0_1_1_n_n.lhsIdx (ix2 n b) ((contrEquiv1 dot_S8x32_S8x2048_S32x2048_0_0_1_1_n_n 8 rfl rfl).symm k) = ix2 k n := funext fun a => Fin.ext (by
    match a with
    | ⟨0, _⟩ => exact (lhsH_0 _ _).trans hk
    | ⟨1, _⟩ => exact lhsH_1 _ _)
  have er : dot_S8x32_S8x2048_S32x2048_0_0_1_1_n_n.rhsIdx (ix2 n b) ((contrEquiv1 dot_S8x32_S8x2048_S32x2048_0_0_1_1_n_n 8 rfl rfl).symm k) = ix2 k b := funext fun a => Fin.ext (by
    match a with
    | ⟨0, _⟩ => exact (rhsH_0 _ _).trans hk
    | ⟨1, _⟩ => exact rhsH_1 _ _)
  rw [el, er]

/-! ### New hidden state against the perceptron's first layer: entry `(f, b)` is `Σ_k l (k, f) · r (k, b)` over the 8 units. -/

theorem lhsD1_0 (i : S5x2048.Idx) (q : dot_S8x5_S8x2048_S5x2048_0_0_1_1_n_n.contr.Idx) :
    (dot_S8x5_S8x2048_S5x2048_0_0_1_1_n_n.lhsIdx i q 0).val = (q ⟨0, by decide⟩).val :=
  dot_S8x5_S8x2048_S5x2048_0_0_1_1_n_n.lhsIdx_val_of_single rfl i q
theorem lhsD1_1 (i : S5x2048.Idx) (q : dot_S8x5_S8x2048_S5x2048_0_0_1_1_n_n.contr.Idx) :
    (dot_S8x5_S8x2048_S5x2048_0_0_1_1_n_n.lhsIdx i q 1).val = (i 0).val := by
  unfold DotDims.lhsIdx
  rw [dif_neg (show ¬(1 : Fin S8x5.rank) ∈ dot_S8x5_S8x2048_S5x2048_0_0_1_1_n_n.lhsBatch by decide), dif_pos (show (1 : Fin S8x5.rank) ∈ dot_S8x5_S8x2048_S5x2048_0_0_1_1_n_n.lhsNonContracting by decide)]
  rfl
theorem rhsD1_0 (i : S5x2048.Idx) (q : dot_S8x5_S8x2048_S5x2048_0_0_1_1_n_n.contr.Idx) :
    (dot_S8x5_S8x2048_S5x2048_0_0_1_1_n_n.rhsIdx i q 0).val = (q ⟨0, by decide⟩).val :=
  dot_S8x5_S8x2048_S5x2048_0_0_1_1_n_n.rhsIdx_val_of_single rfl i q
theorem rhsD1_1 (i : S5x2048.Idx) (q : dot_S8x5_S8x2048_S5x2048_0_0_1_1_n_n.contr.Idx) :
    (dot_S8x5_S8x2048_S5x2048_0_0_1_1_n_n.rhsIdx i q 1).val = (i 1).val := by
  unfold DotDims.rhsIdx
  rw [dif_neg (show ¬(1 : Fin S8x2048.rank) ∈ dot_S8x5_S8x2048_S5x2048_0_0_1_1_n_n.rhsBatch by decide), dif_pos (show (1 : Fin S8x2048.rank) ∈ dot_S8x5_S8x2048_S5x2048_0_0_1_1_n_n.rhsNonContracting by decide)]
  rfl
/-- New hidden state against the perceptron's first layer: entry `(f, b)` is `Σ_k l (k, f) · r (k, b)` over the 8 units. -/
theorem dotD1_apply {φ₁ φ₂ : FTy} (l : FVec Ideal S8x5 φ₁) (r : FVec Ideal S8x2048 φ₂) (n : Fin 5) (b : Fin 2048) :
    matmul dot_S8x5_S8x2048_S5x2048_0_0_1_1_n_n none l r (constant S5x2048 .f32 0x00000000#32) (ix2 n b)
      = ∑ k : Fin 8, l (ix2 k n) * r (ix2 k b) := by
  simp only [matmul]
  rw [Ideal.matmul_constant_zero_apply, ← Equiv.sum_comp (contrEquiv1 dot_S8x5_S8x2048_S5x2048_0_0_1_1_n_n 8 rfl rfl).symm]
  refine Finset.sum_congr rfl fun k _ => ?_
  have hk := contrEquiv1_symm_val dot_S8x5_S8x2048_S5x2048_0_0_1_1_n_n 8 rfl rfl k
  have el : dot_S8x5_S8x2048_S5x2048_0_0_1_1_n_n.lhsIdx (ix2 n b) ((contrEquiv1 dot_S8x5_S8x2048_S5x2048_0_0_1_1_n_n 8 rfl rfl).symm k) = ix2 k n := funext fun a => Fin.ext (by
    match a with
    | ⟨0, _⟩ => exact (lhsD1_0 _ _).trans hk
    | ⟨1, _⟩ => exact lhsD1_1 _ _)
  have er : dot_S8x5_S8x2048_S5x2048_0_0_1_1_n_n.rhsIdx (ix2 n b) ((contrEquiv1 dot_S8x5_S8x2048_S5x2048_0_0_1_1_n_n 8 rfl rfl).symm k) = ix2 k b := funext fun a => Fin.ext (by
    match a with
    | ⟨0, _⟩ => exact (rhsD1_0 _ _).trans hk
    | ⟨1, _⟩ => exact rhsD1_1 _ _)
  rw [el, er]

/-! ### First layer's output against the second layer: entry `(f, b)` is `Σ_k l (k, f) · r (k, b)` over the 5 features. -/

theorem lhsD2_0 (i : S5x2048.Idx) (q : dot_S5x5_S5x2048_S5x2048_0_0_1_1_n_n.contr.Idx) :
    (dot_S5x5_S5x2048_S5x2048_0_0_1_1_n_n.lhsIdx i q 0).val = (q ⟨0, by decide⟩).val :=
  dot_S5x5_S5x2048_S5x2048_0_0_1_1_n_n.lhsIdx_val_of_single rfl i q
theorem lhsD2_1 (i : S5x2048.Idx) (q : dot_S5x5_S5x2048_S5x2048_0_0_1_1_n_n.contr.Idx) :
    (dot_S5x5_S5x2048_S5x2048_0_0_1_1_n_n.lhsIdx i q 1).val = (i 0).val := by
  unfold DotDims.lhsIdx
  rw [dif_neg (show ¬(1 : Fin S5x5.rank) ∈ dot_S5x5_S5x2048_S5x2048_0_0_1_1_n_n.lhsBatch by decide), dif_pos (show (1 : Fin S5x5.rank) ∈ dot_S5x5_S5x2048_S5x2048_0_0_1_1_n_n.lhsNonContracting by decide)]
  rfl
theorem rhsD2_0 (i : S5x2048.Idx) (q : dot_S5x5_S5x2048_S5x2048_0_0_1_1_n_n.contr.Idx) :
    (dot_S5x5_S5x2048_S5x2048_0_0_1_1_n_n.rhsIdx i q 0).val = (q ⟨0, by decide⟩).val :=
  dot_S5x5_S5x2048_S5x2048_0_0_1_1_n_n.rhsIdx_val_of_single rfl i q
theorem rhsD2_1 (i : S5x2048.Idx) (q : dot_S5x5_S5x2048_S5x2048_0_0_1_1_n_n.contr.Idx) :
    (dot_S5x5_S5x2048_S5x2048_0_0_1_1_n_n.rhsIdx i q 1).val = (i 1).val := by
  unfold DotDims.rhsIdx
  rw [dif_neg (show ¬(1 : Fin S5x2048.rank) ∈ dot_S5x5_S5x2048_S5x2048_0_0_1_1_n_n.rhsBatch by decide), dif_pos (show (1 : Fin S5x2048.rank) ∈ dot_S5x5_S5x2048_S5x2048_0_0_1_1_n_n.rhsNonContracting by decide)]
  rfl
/-- First layer's output against the second layer: entry `(f, b)` is `Σ_k l (k, f) · r (k, b)` over the 5 features. -/
theorem dotD2_apply {φ₁ φ₂ : FTy} (l : FVec Ideal S5x5 φ₁) (r : FVec Ideal S5x2048 φ₂) (n : Fin 5) (b : Fin 2048) :
    matmul dot_S5x5_S5x2048_S5x2048_0_0_1_1_n_n none l r (constant S5x2048 .f32 0x00000000#32) (ix2 n b)
      = ∑ k : Fin 5, l (ix2 k n) * r (ix2 k b) := by
  simp only [matmul]
  rw [Ideal.matmul_constant_zero_apply, ← Equiv.sum_comp (contrEquiv1 dot_S5x5_S5x2048_S5x2048_0_0_1_1_n_n 5 rfl rfl).symm]
  refine Finset.sum_congr rfl fun k _ => ?_
  have hk := contrEquiv1_symm_val dot_S5x5_S5x2048_S5x2048_0_0_1_1_n_n 5 rfl rfl k
  have el : dot_S5x5_S5x2048_S5x2048_0_0_1_1_n_n.lhsIdx (ix2 n b) ((contrEquiv1 dot_S5x5_S5x2048_S5x2048_0_0_1_1_n_n 5 rfl rfl).symm k) = ix2 k n := funext fun a => Fin.ext (by
    match a with
    | ⟨0, _⟩ => exact (lhsD2_0 _ _).trans hk
    | ⟨1, _⟩ => exact lhsD2_1 _ _)
  have er : dot_S5x5_S5x2048_S5x2048_0_0_1_1_n_n.rhsIdx (ix2 n b) ((contrEquiv1 dot_S5x5_S5x2048_S5x2048_0_0_1_1_n_n 5 rfl rfl).symm k) = ix2 k b := funext fun a => Fin.ext (by
    match a with
    | ⟨0, _⟩ => exact (rhsD2_0 _ _).trans hk
    | ⟨1, _⟩ => exact rhsD2_1 _ _)
  rw [el, er]

/-! ### Second layer's output against the output layer's single column: entry `(0, b)` is `Σ_k l (k, 0) · r (k, b)` over the 5 features. -/

theorem lhsD3_0 (i : S1x2048.Idx) (q : dot_S5x1_S5x2048_S1x2048_0_0_1_1_n_n.contr.Idx) :
    (dot_S5x1_S5x2048_S1x2048_0_0_1_1_n_n.lhsIdx i q 0).val = (q ⟨0, by decide⟩).val :=
  dot_S5x1_S5x2048_S1x2048_0_0_1_1_n_n.lhsIdx_val_of_single rfl i q
theorem lhsD3_1 (i : S1x2048.Idx) (q : dot_S5x1_S5x2048_S1x2048_0_0_1_1_n_n.contr.Idx) :
    (dot_S5x1_S5x2048_S1x2048_0_0_1_1_n_n.lhsIdx i q 1).val = (i 0).val := by
  unfold DotDims.lhsIdx
  rw [dif_neg (show ¬(1 : Fin S5x1.rank) ∈ dot_S5x1_S5x2048_S1x2048_0_0_1_1_n_n.lhsBatch by decide), dif_pos (show (1 : Fin S5x1.rank) ∈ dot_S5x1_S5x2048_S1x2048_0_0_1_1_n_n.lhsNonContracting by decide)]
  rfl
theorem rhsD3_0 (i : S1x2048.Idx) (q : dot_S5x1_S5x2048_S1x2048_0_0_1_1_n_n.contr.Idx) :
    (dot_S5x1_S5x2048_S1x2048_0_0_1_1_n_n.rhsIdx i q 0).val = (q ⟨0, by decide⟩).val :=
  dot_S5x1_S5x2048_S1x2048_0_0_1_1_n_n.rhsIdx_val_of_single rfl i q
theorem rhsD3_1 (i : S1x2048.Idx) (q : dot_S5x1_S5x2048_S1x2048_0_0_1_1_n_n.contr.Idx) :
    (dot_S5x1_S5x2048_S1x2048_0_0_1_1_n_n.rhsIdx i q 1).val = (i 1).val := by
  unfold DotDims.rhsIdx
  rw [dif_neg (show ¬(1 : Fin S5x2048.rank) ∈ dot_S5x1_S5x2048_S1x2048_0_0_1_1_n_n.rhsBatch by decide), dif_pos (show (1 : Fin S5x2048.rank) ∈ dot_S5x1_S5x2048_S1x2048_0_0_1_1_n_n.rhsNonContracting by decide)]
  rfl
/-- Second layer's output against the output layer's single column: entry `(0, b)` is `Σ_k l (k, 0) · r (k, b)` over the 5 features. -/
theorem dotD3_apply {φ₁ φ₂ : FTy} (l : FVec Ideal S5x1 φ₁) (r : FVec Ideal S5x2048 φ₂) (n : Fin 1) (b : Fin 2048) :
    matmul dot_S5x1_S5x2048_S1x2048_0_0_1_1_n_n none l r (constant S1x2048 .f32 0x00000000#32) (ix2 n b)
      = ∑ k : Fin 5, l (ix2 k n) * r (ix2 k b) := by
  simp only [matmul]
  rw [Ideal.matmul_constant_zero_apply, ← Equiv.sum_comp (contrEquiv1 dot_S5x1_S5x2048_S1x2048_0_0_1_1_n_n 5 rfl rfl).symm]
  refine Finset.sum_congr rfl fun k _ => ?_
  have hk := contrEquiv1_symm_val dot_S5x1_S5x2048_S1x2048_0_0_1_1_n_n 5 rfl rfl k
  have el : dot_S5x1_S5x2048_S1x2048_0_0_1_1_n_n.lhsIdx (ix2 n b) ((contrEquiv1 dot_S5x1_S5x2048_S1x2048_0_0_1_1_n_n 5 rfl rfl).symm k) = ix2 k n := funext fun a => Fin.ext (by
    match a with
    | ⟨0, _⟩ => exact (lhsD3_0 _ _).trans hk
    | ⟨1, _⟩ => exact lhsD3_1 _ _)
  have er : dot_S5x1_S5x2048_S1x2048_0_0_1_1_n_n.rhsIdx (ix2 n b) ((contrEquiv1 dot_S5x1_S5x2048_S1x2048_0_0_1_1_n_n 5 rfl rfl).symm k) = ix2 k b := funext fun a => Fin.ext (by
    match a with
    | ⟨0, _⟩ => exact (rhsD3_0 _ _).trans hk
    | ⟨1, _⟩ => exact rhsD3_1 _ _)
  rw [el, er]

end Cert.KerCell

end
-- ==== Proof.KerCellLayout.lean ====
/-
  The layout operations of the cell's body, each read at one index.

  A column of per-gate-row (or per-feature) constants is repeated along the 2048 batch positions, a row of per-batch
  values is repeated down the 32 gate rows, and the four gates are the four consecutive groups of eight rows of the
  32-row stack.
-/
import proofs.«160326_j16810501997190_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KerCell

open Cert.KernelIdeal Cert.KernelIdeal.Gen Idealize.ShloMosaic Idealize.ShloMosaic.ValueIdx
open scoped BigOperators
/-- A column of 32 values repeated along the batch: entry `(n, b)` is the column's entry `n`. -/
theorem bcCol32_apply {α : Type} (x : S32x1.Idx → α) (h : S32x1.Broadcasts S32x2048) (n : Fin 32) (b : Fin 2048) :
    broadcastTo S32x2048 x h (ix2 n b) = x (ix2 n 0) :=
  broadcastTo_apply x h (ix2 n b) (ix2 n 0) fun a => by
    match a with
    | ⟨0, _⟩ => rfl
    | ⟨1, _⟩ => rfl

/-- A row of 2048 per-batch values repeated down the 32 gate rows: entry `(n, b)` is the row's entry `b`. -/
theorem bcRow32_apply {α : Type} (x : S1x2048.Idx → α) (h : S1x2048.Broadcasts S32x2048) (n : Fin 32) (b : Fin 2048) :
    broadcastTo S32x2048 x h (ix2 n b) = x (ix2 0 b) :=
  broadcastTo_apply x h (ix2 n b) (ix2 0 b) fun a => by
    match a with
    | ⟨0, _⟩ => rfl
    | ⟨1, _⟩ => rfl

/-- A column of 5 values repeated along the batch: entry `(f, b)` is the column's entry `f`. -/
theorem bcCol5_apply {α : Type} (x : S5x1.Idx → α) (h : S5x1.Broadcasts S5x2048) (f : Fin 5) (b : Fin 2048) :
    broadcastTo S5x2048 x h (ix2 f b) = x (ix2 f 0) :=
  broadcastTo_apply x h (ix2 f b) (ix2 f 0) fun a => by
    match a with
    | ⟨0, _⟩ => rfl
    | ⟨1, _⟩ => rfl

/-- A single value repeated along the batch. -/
theorem bcOne_apply {α : Type} (x : S1x1.Idx → α) (h : S1x1.Broadcasts S1x2048) (b : Fin 2048) :
    broadcastTo S1x2048 x h (ix2 0 b) = x (ix2 0 0) :=
  broadcastTo_apply x h (ix2 0 b) (ix2 0 0) fun a => by
    match a with
    | ⟨0, _⟩ => rfl
    | ⟨1, _⟩ => rfl

/-- Rows `0 … 7` of the 32 stacked gate rows: row `j` of the slice is row `0 + j` of the stack. -/
theorem slice0_apply {α : Type} (x : S32x2048.Idx → α) (h : S32x2048.Slices ![0, 0] S8x2048) (j : Fin 8) (b : Fin 2048)
    (n : Fin 32) (hn : n.val = 0 + j.val) :
    extractStridedSlice S8x2048 ![0, 0] x h (ix2 j b) = x (ix2 n b) :=
  extractStridedSlice_apply ![0, 0] x h (ix2 j b) (ix2 n b) fun a => by
    match a with
    | ⟨0, _⟩ => exact hn
    | ⟨1, _⟩ => exact (Nat.zero_add _).symm

/-- Rows `8 … 15` of the 32 stacked gate rows: row `j` of the slice is row `8 + j` of the stack. -/
theorem slice1_apply {α : Type} (x : S32x2048.Idx → α) (h : S32x2048.Slices ![8, 0] S8x2048) (j : Fin 8) (b : Fin 2048)
    (n : Fin 32) (hn : n.val = 8 + j.val) :
    extractStridedSlice S8x2048 ![8, 0] x h (ix2 j b) = x (ix2 n b) :=
  extractStridedSlice_apply ![8, 0] x h (ix2 j b) (ix2 n b) fun a => by
    match a with
    | ⟨0, _⟩ => exact hn
    | ⟨1, _⟩ => exact (Nat.zero_add _).symm

/-- Rows `16 … 23` of the 32 stacked gate rows: row `j` of the slice is row `16 + j` of the stack. -/
theorem slice2_apply {α : Type} (x : S32x2048.Idx → α) (h : S32x2048.Slices ![16, 0] S8x2048) (j : Fin 8) (b : Fin 2048)
    (n : Fin 32) (hn : n.val = 16 + j.val) :
    extractStridedSlice S8x2048 ![16, 0] x h (ix2 j b) = x (ix2 n b) :=
  extractStridedSlice_apply ![16, 0] x h (ix2 j b) (ix2 n b) fun a => by
    match a with
    | ⟨0, _⟩ => exact hn
    | ⟨1, _⟩ => exact (Nat.zero_add _).symm

/-- Rows `24 … 31` of the 32 stacked gate rows: row `j` of the slice is row `24 + j` of the stack. -/
theorem slice3_apply {α : Type} (x : S32x2048.Idx → α) (h : S32x2048.Slices ![24, 0] S8x2048) (j : Fin 8) (b : Fin 2048)
    (n : Fin 32) (hn : n.val = 24 + j.val) :
    extractStridedSlice S8x2048 ![24, 0] x h (ix2 j b) = x (ix2 n b) :=
  extractStridedSlice_apply ![24, 0] x h (ix2 j b) (ix2 n b) fun a => by
    match a with
    | ⟨0, _⟩ => exact hn
    | ⟨1, _⟩ => exact (Nat.zero_add _).symm

end Cert.KerCell

end
-- ==== Proof.KerCellRaw.lean ====
/-
  The cell's body read at one index, before any meaning is given to the loaded blocks.

  Each statement takes one entry of a value the body computes and writes it as ordinary arithmetic on the extended reals
  over entries of the blocks it was computed from: the 32 stacked gate rows as two finite sums, a product and a bias; the
  three hard sigmoids and the two new states over rows of that stack; the perceptron's layers as rectified affine maps.
  A change of float format and a re-declaration of a block at its own shape are the identity here, so they disappear.
-/
import proofs.«160326_j16810501997190_2_alg».proof.Proof.Gen.KernelIdeal.Skeleton
import proofs.«160326_j16810501997190_2_alg».proof.Proof.CellSpec
import Idealize.ShloMosaic.Lib.Pipeline.Value
import Idealize.ShloMosaic.Lib.ValueIdx
import Idealize.ShloMosaic.PureOps.Ideal.Laws
import proofs.«160326_j16810501997190_2_alg».proof.Proof.KerCellDots
import proofs.«160326_j16810501997190_2_alg».proof.Proof.KerCellLayout

noncomputable section

namespace Cert.KerCell

open Cert.CellSpec Cert.KernelIdeal Cert.KernelIdeal.Gen Idealize.ShloMosaic Idealize.ShloMosaic.ValueIdx
open scoped BigOperators

/-! ## The stacked gate rows -/

/-- Row `n` of the 32 stacked gate rows at batch position `b`: the input product, the recurrent product, the scalar's
    contribution and the bias, added left to right. -/
theorem pay4_raw (v0 : Vec Ideal S2048x1024 .f32) (v1 : Vec Ideal S8x2048 .f32) (v5 : Vec Ideal S1x2048 .f32)
    (v9 : Vec Ideal S1024x32 .f32) (v12 : Vec Ideal S8x32 .f32) (v17 v24 : Vec Ideal S32x1 .f32) (n : Fin 32) (b : Fin 2048) :
    k0_pay4 v0 v1 v5 v9 v12 v17 v24 (ix2 n b)
      = (((∑ d : Fin 1024, v9 (ix2 d n) * v0 (ix2 b d)) + (∑ k : Fin 8, v12 (ix2 k n) * v1 (ix2 k b)))
          + v17 (ix2 n 0) * v5 (ix2 0 b)) + v24 (ix2 n 0) := by
  unfold k0_pay4 k0_pay3
  simp only [shapeCast_self]
  rw [addf_apply, addf_apply, addf_apply, mulf_apply, dotX_apply, dotH_apply, bcCol32_apply, bcRow32_apply, bcCol32_apply]
  rfl

/-- Re-declaring the previous cell state's block at its own shape changes nothing. -/
theorem pay2_eq (v3 : Vec Ideal S8x2048 .f32) : k0_pay2 v3 = v3 := by
  unfold k0_pay2
  exact shapeCast_self _ _

/-- Nor does it change the previous scalar's row. -/
theorem pay3_eq (v5 : Vec Ideal S1x2048 .f32) : k0_pay3 v5 = v5 := by
  unfold k0_pay3
  exact shapeCast_self _ _

/-! ## The hard sigmoids and the two states -/

/-- The input gate's activation: the hard sigmoid of rows `0 … 7` of the stack. -/
theorem pay5_raw (v0 : Vec Ideal S2048x1024 .f32) (v1 : Vec Ideal S8x2048 .f32) (v5 : Vec Ideal S1x2048 .f32)
    (v9 : Vec Ideal S1024x32 .f32) (v12 : Vec Ideal S8x32 .f32) (v17 v24 : Vec Ideal S32x1 .f32) (j : Fin 8) (b : Fin 2048) :
    k0_pay5 v0 v1 v5 v9 v12 v17 v24 (ix2 j b) = hsig (k0_pay4 v0 v1 v5 v9 v12 v17 v24 (ix2 (cat 0 j) b)) := by
  unfold k0_pay5
  simp only [minimumf_apply, maximumf_apply, addf_apply, divf_apply, broadcast_apply]
  rw [slice0_apply _ _ j b (cat 0 j) rfl]
  rfl

/-- The new cell state from the stack `v27`, the previous cell state `v4` and the input gate's activation `v36`:
    forget activation (rows `8 … 15`) times the previous state, plus input activation times the hyperbolic tangent of
    the candidate rows `16 … 23`. -/
theorem pay6_raw (v4 : FVec Ideal S8x2048 .f32) (v27 : FVec Ideal S32x2048 .f32) (v36 : FVec Ideal S8x2048 .f32) (j : Fin 8) (b : Fin 2048) :
    k0_pay6 v4 v27 v36 (ix2 j b)
      = hsig (v27 (ix2 (cat 1 j) b)) * v4 (ix2 j b) + v36 (ix2 j b) * Ideal.tanh (v27 (ix2 (cat 2 j) b)) := by
  unfold k0_pay6
  simp only [minimumf_apply, maximumf_apply, addf_apply, mulf_apply, divf_apply, broadcast_apply]
  rw [slice1_apply _ _ j b (cat 1 j) rfl]
  show _ + v36 (ix2 j b) * Ideal.tanh (extractStridedSlice S8x2048 ![16, 0] v27 _ (ix2 j b)) = _
  rw [slice2_apply _ _ j b (cat 2 j) rfl]
  rfl

/-- The new hidden state: output activation (rows `24 … 31`) times the hyperbolic tangent of the new cell state. -/
theorem pay7_raw (v4 : FVec Ideal S8x2048 .f32) (v27 : FVec Ideal S32x2048 .f32) (v36 : FVec Ideal S8x2048 .f32) (j : Fin 8) (b : Fin 2048) :
    k0_pay7 v4 v27 v36 (ix2 j b) = hsig (v27 (ix2 (cat 3 j) b)) * Ideal.tanh (k0_pay6 v4 v27 v36 (ix2 j b)) := by
  unfold k0_pay7
  simp only [minimumf_apply, maximumf_apply, addf_apply, mulf_apply, divf_apply, broadcast_apply]
  rw [slice3_apply _ _ j b (cat 3 j) rfl]
  rfl

/-! ## The perceptron -/

/-- The first layer at feature `f`: the rectified affine image of the new hidden state, masked. -/
theorem pay8_raw (v4 : FVec Ideal S8x2048 .f32) (v27 : FVec Ideal S32x2048 .f32) (v36 : FVec Ideal S8x2048 .f32)
    (v63 : Vec Ideal S8x5 .f32) (v66 v72 : Vec Ideal S5x1 .f32) (f : Fin 5) (b : Fin 2048) :
    k0_pay8 v4 v27 v36 v63 v66 v72 (ix2 f b)
      = relu ((∑ k : Fin 8, v63 (ix2 k f) * k0_pay7 v4 v27 v36 (ix2 k b)) + v66 (ix2 f 0)) * v72 (ix2 f 0) := by
  unfold k0_pay8
  simp only [shapeCast_self]
  rw [truncf_apply, mulf_apply, maximumf_apply, addf_apply, dotD1_apply, bcCol5_apply, bcCol5_apply]
  rfl

/-- The second and third layers and the advance of the scalar, from the first layer's output `v76`. -/
theorem pay1_raw (v6 : FVec Ideal S1x2048 .f32) (v76 : FVec Ideal S5x2048 .bf16) (v78 : FVec Ideal S5x5 .bf16)
    (v80 v86 v91 : Vec Ideal S5x1 .f32) (v94 : Vec Ideal S1x1 .f32) (b : Fin 2048) :
    k0_pay1 v6 v76 v78 v80 v86 v91 v94 (ix2 0 b)
      = v6 (ix2 0 b) + relu ((∑ k : Fin 5, v91 (ix2 k 0) *
          (relu ((∑ k' : Fin 5, v78 (ix2 k' k) * v76 (ix2 k' b)) + v80 (ix2 k 0)) * v86 (ix2 k 0))) + v94 (ix2 0 0)) := by
  unfold k0_pay1
  simp only [shapeCast_self]
  rw [addf_apply, maximumf_apply, addf_apply, dotD3_apply, bcOne_apply]
  refine congrArg (fun s => v6 (ix2 0 b) + relu (s + v94 (ix2 0 0))) (Finset.sum_congr rfl fun k _ => ?_)
  rw [truncf_apply, truncf_apply, mulf_apply, maximumf_apply, addf_apply, dotD2_apply, bcCol5_apply, bcCol5_apply]
  rfl

end Cert.KerCell

end
-- ==== Proof.KerCellPay.lean ====
/-
  The cell's body against the cell's specification, one index at a time.

  When the loaded blocks hold one batch row's inputs per column (hidden and gate index first, batch index second) and the
  weight blocks hold the parameters, with the four feature masks already multiplied into the input and scalar weights,
  then row `8 g + j` of the stacked pre-activations is the specification's gate `g` at unit `j`, and from there the new cell
  state, the new hidden state, the perceptron's layers and the advanced scalar are the specification's, entry by entry.
  The only algebra used is that multiplication on the extended reals is commutative and associative: the body writes
  each product weight first, the specification input first. No distributivity, and so no finiteness, is needed.
-/
import proofs.«160326_j16810501997190_2_alg».proof.Proof.KerCellRaw

noncomputable section

namespace Cert.KerCell

open Cert.CellSpec Cert.KernelIdeal Cert.KernelIdeal.Gen Idealize.ShloMosaic Idealize.ShloMosaic.ValueIdx
open scoped BigOperators

/-- In a commutative monoid a product of three may be read from either end. -/
theorem mul3_rev (a b c : EReal) : (a * b) * c = (c * b) * a := by
  rw [mul_comm (a * b) c, mul_comm a b, mul_assoc]

/-- Row `8 g + j` of the stack at batch position `b` is gate `g`'s pre-activation at unit `j` for row `b`. The body
    multiplies weight first and the specification input first; the factors only change places, term by term. -/
theorem pay_gate (P : Weights) (R : Fin 2048 → Row)
    (v0 : Vec Ideal S2048x1024 .f32) (v1 : Vec Ideal S8x2048 .f32) (v5 : Vec Ideal S1x2048 .f32)
    (v9 : Vec Ideal S1024x32 .f32) (v12 : Vec Ideal S8x32 .f32) (v17 v24 : Vec Ideal S32x1 .f32)
    (h0 : ∀ b d, v0 (ix2 b d) = (R b).x d) (h1 : ∀ k b, v1 (ix2 k b) = (R b).h k)
    (h5 : ∀ b, v5 (ix2 0 b) = (R b).z)
    (h9 : ∀ g d j, v9 (ix2 d (cat g j)) = P.Wx g d j * P.mx g d) (h12 : ∀ g k j, v12 (ix2 k (cat g j)) = P.Wh g k j)
    (h17 : ∀ g j, v17 (ix2 (cat g j) 0) = P.Wz g j * P.mz g) (h24 : ∀ g j, v24 (ix2 (cat g j) 0) = P.bg g j)
    (g : Fin 4) (j : Fin 8) (b : Fin 2048) :
    k0_pay4 v0 v1 v5 v9 v12 v17 v24 (ix2 (cat g j) b) = gate P (R b) g j := by
  have hx : (∑ d : Fin 1024, v9 (ix2 d (cat g j)) * v0 (ix2 b d)) = ∑ d : Fin 1024, ((R b).x d * P.mx g d) * P.Wx g d j :=
    Finset.sum_congr rfl fun d _ => by rw [h9 g d j, h0 b d]; exact mul3_rev _ _ _
  have hh : (∑ k : Fin 8, v12 (ix2 k (cat g j)) * v1 (ix2 k b)) = ∑ k : Fin 8, (R b).h k * P.Wh g k j :=
    Finset.sum_congr rfl fun k _ => by rw [h12 g k j, h1 k b]; exact mul_comm _ _
  rw [pay4_raw, hx, hh, h17 g j, h5 b, h24 g j, mul3_rev]
  rfl

/-- The new cell state at unit `j`, batch position `b`. -/
theorem pay_c (P : Weights) (R : Fin 2048 → Row)
    (v0 : Vec Ideal S2048x1024 .f32) (v1 v3 : Vec Ideal S8x2048 .f32) (v5 : Vec Ideal S1x2048 .f32)
    (v9 : Vec Ideal S1024x32 .f32) (v12 : Vec Ideal S8x32 .f32) (v17 v24 : Vec Ideal S32x1 .f32)
    (h0 : ∀ b d, v0 (ix2 b d) = (R b).x d) (h1 : ∀ k b, v1 (ix2 k b) = (R b).h k) (h3 : ∀ k b, v3 (ix2 k b) = (R b).c k)
    (h5 : ∀ b, v5 (ix2 0 b) = (R b).z)
    (h9 : ∀ g d j, v9 (ix2 d (cat g j)) = P.Wx g d j * P.mx g d) (h12 : ∀ g k j, v12 (ix2 k (cat g j)) = P.Wh g k j)
    (h17 : ∀ g j, v17 (ix2 (cat g j) 0) = P.Wz g j * P.mz g) (h24 : ∀ g j, v24 (ix2 (cat g j) 0) = P.bg g j)
    (j : Fin 8) (b : Fin 2048) :
    k0_pay6 (k0_pay2 v3) (k0_pay4 v0 v1 v5 v9 v12 v17 v24) (k0_pay5 v0 v1 v5 v9 v12 v17 v24) (ix2 j b) = cnew P (R b) j := by
  rw [pay6_raw, pay5_raw, pay2_eq, h3 j b, pay_gate P R v0 v1 v5 v9 v12 v17 v24 h0 h1 h5 h9 h12 h17 h24 0 j b,
    pay_gate P R v0 v1 v5 v9 v12 v17 v24 h0 h1 h5 h9 h12 h17 h24 1 j b,
    pay_gate P R v0 v1 v5 v9 v12 v17 v24 h0 h1 h5 h9 h12 h17 h24 2 j b]
  rfl

/-- The new hidden state at unit `j`, batch position `b`. -/
theorem pay_h (P : Weights) (R : Fin 2048 → Row)
    (v0 : Vec Ideal S2048x1024 .f32) (v1 v3 : Vec Ideal S8x2048 .f32) (v5 : Vec Ideal S1x2048 .f32)
    (v9 : Vec Ideal S1024x32 .f32) (v12 : Vec Ideal S8x32 .f32) (v17 v24 : Vec Ideal S32x1 .f32)
    (h0 : ∀ b d, v0 (ix2 b d) = (R b).x d) (h1 : ∀ k b, v1 (ix2 k b) = (R b).h k) (h3 : ∀ k b, v3 (ix2 k b) = (R b).c k)
    (h5 : ∀ b, v5 (ix2 0 b) = (R b).z)
    (h9 : ∀ g d j, v9 (ix2 d (cat g j)) = P.Wx g d j * P.mx g d) (h12 : ∀ g k j, v12 (ix2 k (cat g j)) = P.Wh g k j)
    (h17 : ∀ g j, v17 (ix2 (cat g j) 0) = P.Wz g j * P.mz g) (h24 : ∀ g j, v24 (ix2 (cat g j) 0) = P.bg g j)
    (j : Fin 8) (b : Fin 2048) :
    k0_pay7 (k0_pay2 v3) (k0_pay4 v0 v1 v5 v9 v12 v17 v24) (k0_pay5 v0 v1 v5 v9 v12 v17 v24) (ix2 j b) = hnew P (R b) j := by
  rw [pay7_raw, pay_c P R v0 v1 v3 v5 v9 v12 v17 v24 h0 h1 h3 h5 h9 h12 h17 h24 j b, pay_gate P R v0 v1 v5 v9 v12 v17 v24 h0 h1 h5 h9 h12 h17 h24 3 j b]
  rfl

/-- The perceptron's first layer at feature `f`, batch position `b`. -/
theorem pay_d1 (P : Weights) (R : Fin 2048 → Row)
    (v0 : Vec Ideal S2048x1024 .f32) (v1 v3 : Vec Ideal S8x2048 .f32) (v5 : Vec Ideal S1x2048 .f32)
    (v9 : Vec Ideal S1024x32 .f32) (v12 : Vec Ideal S8x32 .f32) (v17 v24 : Vec Ideal S32x1 .f32)
    (v63 : Vec Ideal S8x5 .f32) (v66 v72 : Vec Ideal S5x1 .f32)
    (h0 : ∀ b d, v0 (ix2 b d) = (R b).x d) (h1 : ∀ k b, v1 (ix2 k b) = (R b).h k) (h3 : ∀ k b, v3 (ix2 k b) = (R b).c k)
    (h5 : ∀ b, v5 (ix2 0 b) = (R b).z)
    (h9 : ∀ g d j, v9 (ix2 d (cat g j)) = P.Wx g d j * P.mx g d) (h12 : ∀ g k j, v12 (ix2 k (cat g j)) = P.Wh g k j)
    (h17 : ∀ g j, v17 (ix2 (cat g j) 0) = P.Wz g j * P.mz g) (h24 : ∀ g j, v24 (ix2 (cat g j) 0) = P.bg g j)
    (h63 : ∀ k f, v63 (ix2 k f) = P.Wd1 k f) (h66 : ∀ f, v66 (ix2 f 0) = P.bd1 f) (h72 : ∀ f, v72 (ix2 f 0) = P.m1 f)
    (f : Fin 5) (b : Fin 2048) :
    k0_pay8 (k0_pay2 v3) (k0_pay4 v0 v1 v5 v9 v12 v17 v24) (k0_pay5 v0 v1 v5 v9 v12 v17 v24) v63 v66 v72 (ix2 f b) = d1 P (R b) f := by
  have hs : (∑ k : Fin 8, v63 (ix2 k f) * k0_pay7 (k0_pay2 v3) (k0_pay4 v0 v1 v5 v9 v12 v17 v24) (k0_pay5 v0 v1 v5 v9 v12 v17 v24) (ix2 k b))
      = ∑ k : Fin 8, hnew P (R b) k * P.Wd1 k f :=
    Finset.sum_congr rfl fun k _ => by
      rw [h63 k f, pay_h P R v0 v1 v3 v5 v9 v12 v17 v24 h0 h1 h3 h5 h9 h12 h17 h24 k b]; exact mul_comm _ _
  rw [pay8_raw, hs, h66 f, h72 f]
  rfl

/-- The advanced scalar at batch position `b`: the second layer is read feature by feature from the first, the output
    layer from the second, and the rectified output is added to the previous scalar. -/
theorem pay_z (P : Weights) (R : Fin 2048 → Row)
    (v0 : Vec Ideal S2048x1024 .f32) (v1 v3 : Vec Ideal S8x2048 .f32) (v5 : Vec Ideal S1x2048 .f32)
    (v9 : Vec Ideal S1024x32 .f32) (v12 : Vec Ideal S8x32 .f32) (v17 v24 : Vec Ideal S32x1 .f32)
    (v63 : Vec Ideal S8x5 .f32) (v66 v72 v80 v86 v91 : Vec Ideal S5x1 .f32) (v77 : Vec Ideal S5x5 .f32) (v94 : Vec Ideal S1x1 .f32)
    (h0 : ∀ b d, v0 (ix2 b d) = (R b).x d) (h1 : ∀ k b, v1 (ix2 k b) = (R b).h k) (h3 : ∀ k b, v3 (ix2 k b) = (R b).c k)
    (h5 : ∀ b, v5 (ix2 0 b) = (R b).z)
    (h9 : ∀ g d j, v9 (ix2 d (cat g j)) = P.Wx g d j * P.mx g d) (h12 : ∀ g k j, v12 (ix2 k (cat g j)) = P.Wh g k j)
    (h17 : ∀ g j, v17 (ix2 (cat g j) 0) = P.Wz g j * P.mz g) (h24 : ∀ g j, v24 (ix2 (cat g j) 0) = P.bg g j)
    (h63 : ∀ k f, v63 (ix2 k f) = P.Wd1 k f) (h66 : ∀ f, v66 (ix2 f 0) = P.bd1 f) (h72 : ∀ f, v72 (ix2 f 0) = P.m1 f)
    (h77 : ∀ k f, v77 (ix2 k f) = P.Wd2 k f) (h80 : ∀ f, v80 (ix2 f 0) = P.bd2 f) (h86 : ∀ f, v86 (ix2 f 0) = P.m2 f)
    (h91 : ∀ k, v91 (ix2 k 0) = P.Wd3 k) (h94 : v94 (ix2 0 0) = P.bd3) (b : Fin 2048) :
    k0_pay1 (k0_pay3 v5) (k0_pay8 (k0_pay2 v3) (k0_pay4 v0 v1 v5 v9 v12 v17 v24) (k0_pay5 v0 v1 v5 v9 v12 v17 v24) v63 v66 v72)
        (k0_pay9 v77) v80 v86 v91 v94 (ix2 0 b) = znew P (R b) := by
  have h2 : ∀ k : Fin 5, relu ((∑ k' : Fin 5, k0_pay9 v77 (ix2 k' k) *
        k0_pay8 (k0_pay2 v3) (k0_pay4 v0 v1 v5 v9 v12 v17 v24) (k0_pay5 v0 v1 v5 v9 v12 v17 v24) v63 v66 v72 (ix2 k' b)) + v80 (ix2 k 0))
        * v86 (ix2 k 0) = d2 P (R b) k := fun k => by
    have hs : (∑ k' : Fin 5, k0_pay9 v77 (ix2 k' k) *
          k0_pay8 (k0_pay2 v3) (k0_pay4 v0 v1 v5 v9 v12 v17 v24) (k0_pay5 v0 v1 v5 v9 v12 v17 v24) v63 v66 v72 (ix2 k' b))
        = ∑ k' : Fin 5, d1 P (R b) k' * P.Wd2 k' k :=
      Finset.sum_congr rfl fun k' _ => by
        rw [pay_d1 P R v0 v1 v3 v5 v9 v12 v17 v24 v63 v66 v72 h0 h1 h3 h5 h9 h12 h17 h24 h63 h66 h72 k' b]
        show v77 (ix2 k' k) * _ = _
        rw [h77 k' k]; exact mul_comm _ _
    rw [hs, h80 k, h86 k]
    rfl
  have hz : (∑ k : Fin 5, v91 (ix2 k 0) * (relu ((∑ k' : Fin 5, k0_pay9 v77 (ix2 k' k) *
        k0_pay8 (k0_pay2 v3) (k0_pay4 v0 v1 v5 v9 v12 v17 v24) (k0_pay5 v0 v1 v5 v9 v12 v17 v24) v63 v66 v72 (ix2 k' b)) + v80 (ix2 k 0))
        * v86 (ix2 k 0))) = ∑ k : Fin 5, d2 P (R b) k * P.Wd3 k :=
    Finset.sum_congr rfl fun k _ => by rw [h2 k, h91 k]; exact mul_comm _ _
  rw [pay1_raw, hz, h94, pay3_eq, h5 b]
  rfl

end Cert.KerCell

end
-- ==== Proof.KerPrefixRead.lean ====
/-
  The layout operations the entry point applies to its arguments before the grid, each read at an index given by its
  coordinates. A vector laid as a column, a row relaid as a column, a vector or a column repeated along a new or a unit
  axis, and four equal pieces laid end to end: each reads one entry of its operand, and the lemmas below say which.
-/
import Idealize.ShloMosaic.Lib.ValueLayout

namespace Cert.KerPrefix

open Idealize.ShloMosaic Idealize.ShloMosaic.ValueIdx

variable {α : Type}

/-! ## Columns -/

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A row `[1, a]` cast to a column `[a, 1]` reads, at `(i, u)`, the row at `(0, i)`. -/
theorem shapeCast_1a_a1_apply {a : ℕ} (x : (⟨2, ![1, a]⟩ : Shape).Idx → α) (h : (⟨2, ![1, a]⟩ : Shape).ShapeCasts ⟨2, ![a, 1]⟩)
    (i : Fin a) (u : Fin 1) : shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-! ## Repeats -/

/-- A vector `[a]` laid along axis 0 of `[a, 1]` reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A column `[a, 1]` repeated over `b` columns reads, at `(i, j)`, the column at `(i, 0)`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) := by
  refine broadcastInDim_apply _ h x (ix2 i j) (ix2 i (0 : Fin 1)) fun ax => ?_
  match ax with
  | ⟨0, _⟩ =>
    show i.val = if a = 1 then 0 else i.val
    split
    · have := i.isLt; omega
    · rfl
  | ⟨1, _⟩ => rfl

/-! ## Four pieces of eight laid end to end -/

/-- Four `[n, 8]` pieces laid side by side: column `8 g + j` of the result is column `j` of piece `g`. -/
theorem concat4_cols_apply {n : ℕ} (x0 x1 x2 x3 : (⟨2, ![n, 8]⟩ : Shape).Idx → α)
    (h : Shape.Concatenates (([⟨⟨2, ![n, 8]⟩, x0⟩, ⟨⟨2, ![n, 8]⟩, x1⟩, ⟨⟨2, ![n, 8]⟩, x2⟩, ⟨⟨2, ![n, 8]⟩, x3⟩] :
      List ((s : Shape) × (s.Idx → α))).map (·.1)) ⟨2, ![n, 32]⟩ 1)
    (i : Fin n) (g : Fin 4) (j : Fin 8) (q : Fin 32) (hq : q.val = 8 * g.val + j.val) :
    concatenate ⟨2, ![n, 32]⟩ 1 [⟨⟨2, ![n, 8]⟩, x0⟩, ⟨⟨2, ![n, 8]⟩, x1⟩, ⟨⟨2, ![n, 8]⟩, x2⟩, ⟨⟨2, ![n, 8]⟩, x3⟩] h (ix2 i q)
      = (![x0, x1, x2, x3] g) (ix2 i j) := by
  have hoff : ∀ b : Fin 2, b.cast rfl ≠ (1 : Fin 2) → ((ix2 i j) b).val = ((ix2 i q) (b.cast rfl)).val :=
    fun b hb => match b, hb with
      | ⟨0, _⟩, _ => rfl
      | ⟨1, _⟩, hb => absurd rfl hb
  match g, hq with
  | ⟨0, _⟩, hq =>
    exact concatenate_apply_piece 1 _ h (ix2 i q) 0 (show (0 : ℕ) < 4 by omega) ⟨2, ![n, 8]⟩ x0 rfl rfl 0 rfl (ix2 i j) hoff
      (by have hq' : q.val = 8 * 0 + j.val := hq; show 0 + j.val = q.val; omega)
  | ⟨1, _⟩, hq =>
    exact concatenate_apply_piece 1 _ h (ix2 i q) 1 (show (1 : ℕ) < 4 by omega) ⟨2, ![n, 8]⟩ x1 rfl rfl 8 rfl (ix2 i j) hoff
      (by have hq' : q.val = 8 * 1 + j.val := hq; show 8 + j.val = q.val; omega)
  | ⟨2, _⟩, hq =>
    exact concatenate_apply_piece 1 _ h (ix2 i q) 2 (show (2 : ℕ) < 4 by omega) ⟨2, ![n, 8]⟩ x2 rfl rfl 16 rfl (ix2 i j) hoff
      (by have hq' : q.val = 8 * 2 + j.val := hq; show 16 + j.val = q.val; omega)
  | ⟨3, _⟩, hq =>
    exact concatenate_apply_piece 1 _ h (ix2 i q) 3 (show (3 : ℕ) < 4 by omega) ⟨2, ![n, 8]⟩ x3 rfl rfl 24 rfl (ix2 i j) hoff
      (by have hq' : q.val = 8 * 3 + j.val := hq; show 24 + j.val = q.val; omega)

/-- Four vectors of eight laid end to end: entry `8 g + j` of the result is entry `j` of piece `g`. -/
theorem concat4_vec_apply (x0 x1 x2 x3 : (⟨1, ![8]⟩ : Shape).Idx → α)
    (h : Shape.Concatenates (([⟨⟨1, ![8]⟩, x0⟩, ⟨⟨1, ![8]⟩, x1⟩, ⟨⟨1, ![8]⟩, x2⟩, ⟨⟨1, ![8]⟩, x3⟩] :
      List ((s : Shape) × (s.Idx → α))).map (·.1)) ⟨1, ![32]⟩ 0)
    (g : Fin 4) (j : Fin 8) (q : Fin 32) (hq : q.val = 8 * g.val + j.val) :
    concatenate ⟨1, ![32]⟩ 0 [⟨⟨1, ![8]⟩, x0⟩, ⟨⟨1, ![8]⟩, x1⟩, ⟨⟨1, ![8]⟩, x2⟩, ⟨⟨1, ![8]⟩, x3⟩] h (ix1 q)
      = (![x0, x1, x2, x3] g) (ix1 j) := by
  have hoff : ∀ b : Fin 1, b.cast rfl ≠ (0 : Fin 1) → ((ix1 j) b).val = ((ix1 q) (b.cast rfl)).val :=
    fun b hb => match b, hb with
      | ⟨0, _⟩, hb => absurd rfl hb
  match g, hq with
  | ⟨0, _⟩, hq =>
    exact concatenate_apply_piece 0 _ h (ix1 q) 0 (show (0 : ℕ) < 4 by omega) ⟨1, ![8]⟩ x0 rfl rfl 0 rfl (ix1 j) hoff
      (by have hq' : q.val = 8 * 0 + j.val := hq; show 0 + j.val = q.val; omega)
  | ⟨1, _⟩, hq =>
    exact concatenate_apply_piece 0 _ h (ix1 q) 1 (show (1 : ℕ) < 4 by omega) ⟨1, ![8]⟩ x1 rfl rfl 8 rfl (ix1 j) hoff
      (by have hq' : q.val = 8 * 1 + j.val := hq; show 8 + j.val = q.val; omega)
  | ⟨2, _⟩, hq =>
    exact concatenate_apply_piece 0 _ h (ix1 q) 2 (show (2 : ℕ) < 4 by omega) ⟨1, ![8]⟩ x2 rfl rfl 16 rfl (ix1 j) hoff
      (by have hq' : q.val = 8 * 2 + j.val := hq; show 16 + j.val = q.val; omega)
  | ⟨3, _⟩, hq =>
    exact concatenate_apply_piece 0 _ h (ix1 q) 3 (show (3 : ℕ) < 4 by omega) ⟨1, ![8]⟩ x3 rfl rfl 24 rfl (ix1 j) hoff
      (by have hq' : q.val = 8 * 3 + j.val := hq; show 24 + j.val = q.val; omega)

end Cert.KerPrefix
-- ==== Proof.KerPrefixPre.lean ====
/-
  What the entry point computes from its arguments before the grid starts, as named terms.

  `pre m c b` is array `b` of core `c` after the operations that precede the grid, run from memory `m`. Two of those
  operations' compositions recur four times each, once per gate: the gate's input weights scaled, row by row, by that gate's
  row of the input mask (`foldX`), and the gate's weights for the scalar scaled by that gate's entry of the scalar's mask
  (`foldZ`). Each is read here at an index: the product of the weight and the one mask entry it meets.
-/
import proofs.«160326_j16810501997190_2_alg».proof.Proof.LaunchIdealP
import proofs.«160326_j16810501997190_2_alg».proof.Proof.KerPrefixRead
import Idealize.ShloMosaic.Lib.StableHlo.Run
import Idealize.ShloMosaic.Lib.ValueIdx
import Idealize.ShloMosaic.Lib.ValueLayout

noncomputable section

namespace Cert.KerPrefix

open Cert.KernelIdeal Cert.KernelIdeal.Gen Cert.KernelIdeal.GenP
open Idealize.ShloMosaic Idealize.ShloMosaic.ValueIdx Idealize.SL.Sem

/-- Array `b` of core `c` once the operations before the grid have run from memory `m`. -/
abbrev pre (m : (ℓ : Loc nD τ sig) → Buf (Elt Ideal) ℓ) (c : Dev nD) (b : Ref sig .tc) :
    Buf (Elt Ideal) ((c.tc : Thread nD τ).loc b) :=
  StableHlo.after (Cert.KernelIdeal.GenP.hostOps0 (F := Ideal)) (fun b => m (c, b)) (Proc.devRef .tc b)

/-- Input weights `W` (1024 × 8) with row `o` of the 4 × 1024 mask folded in: entry `(d, j)` is scaled by the mask's
    entry `(o, d)`. -/
def foldX (o : ℕ) (h : S4x1024.Slices ![o, 0] S1x1024) (W : FVec Ideal S1024x8 .f32) (M : FVec Ideal S4x1024 .f32) :
    FVec Ideal S1024x8 .f32 :=
  mulf W (broadcastInDim S1024x8 ![0, 1] bcast_S1024x1_S1024x8_0_1 (broadcastInDim S1024x1 ![0] bcast_S1024_S1024x1_0
    (shapeCast S1024 (extractStridedSlice S1x1024 ![o, 0] M h) shapeCasts_S1x1024_S1024)))

/-- The scalar's weights `W` (1 × 8) with entry `o` of the 4 × 1 mask folded in. -/
def foldZ (o : ℕ) (h : S4x1.Slices ![o, 0] S1x1) (W : FVec Ideal S1x8 .f32) (M : FVec Ideal S4x1 .f32) :
    FVec Ideal S1x8 .f32 :=
  mulf W (broadcastInDim S1x8 ![0, 1] bcast_S1x1_S1x8_0_1 (broadcastInDim S1x1 ![0] bcast_S1_S1x1_0
    (shapeCast S1 (extractStridedSlice S1x1 ![o, 0] M h) shapeCasts_S1x1_S1)))

/-- Entry `(d, j)` of the folded input weights: the weight times the mask's entry for gate `g` and input `d`. -/
theorem foldX_apply (o : ℕ) (h : S4x1024.Slices ![o, 0] S1x1024) (W : FVec Ideal S1024x8 .f32)
    (M : FVec Ideal S4x1024 .f32) (g : Fin 4) (hg : g.val = o) (d : Fin 1024) (j : Fin 8) :
    foldX o h W M (ix2 d j) = W (ix2 d j) * M (ix2 g d) := by
  unfold foldX
  rw [mulf_apply, broadcastInDim_a1_ab_apply, broadcastInDim_a_a1_apply, shapeCast_1a_a_apply,
    slice2_axis0_apply o M h (0 : Fin 1) d g (by rw [hg]; rfl)]

/-- Entry `(0, j)` of the folded scalar weights: the weight times the mask's entry for gate `g`. -/
theorem foldZ_apply (o : ℕ) (h : S4x1.Slices ![o, 0] S1x1) (W : FVec Ideal S1x8 .f32) (M : FVec Ideal S4x1 .f32)
    (g : Fin 4) (hg : g.val = o) (j : Fin 8) :
    foldZ o h W M (ix2 (0 : Fin 1) j) = W (ix2 (0 : Fin 1) j) * M (ix2 g (0 : Fin 1)) := by
  unfold foldZ
  rw [mulf_apply, broadcastInDim_a1_ab_apply, broadcastInDim_a_a1_apply, shapeCast_1a_a_apply,
    slice2_axis0_apply o M h (0 : Fin 1) (0 : Fin 1) g (by rw [hg]; rfl)]

end Cert.KerPrefix

end
-- ==== Proof.KerPrefixGates.lean ====
/-
  The four gates' concatenated arrays after the operations before the grid, read at an index.

  The fifty-six operations run in three stretches: twenty that scale each gate's input weights by its row of the input
  mask, twenty that scale each gate's weights for the scalar by its entry of the scalar's mask, and sixteen that lay the
  gates' pieces end to end and relay the small arrays. An array a stretch does not write is unchanged by it, so each array
  the grid reads is one stretch's result over what the earlier stretches left. Column 8 g + j of the concatenated
  input weights is then column j of gate g's scaled weights: the weight times the one mask entry it meets; the same for
  the hidden-state weights (unscaled), the scalar's weights and the biases.
-/
import proofs.«160326_j16810501997190_2_alg».proof.Proof.KerArgs
import proofs.«160326_j16810501997190_2_alg».proof.Proof.KerPrefixPre

set_option maxRecDepth 16384

noncomputable section

namespace Cert.KerPrefix

open Cert.KernelIdeal Cert.KernelIdeal.Gen Cert.KernelIdeal.GenP Cert.CellSpec
open Idealize.ShloMosaic Idealize.ShloMosaic.TcCoe Idealize.ShloMosaic.ValueIdx Idealize.SL.Sem
open Idealize.ShloMosaic.StableHlo (after after_cons after_nil)

/-! ## The three stretches -/

section
variable {F : FTy → Type} [FloatOps F]

/-- The first twenty operations: the four gates' input weights, each scaled row by row by its row of the input mask. -/
abbrev opsX : List (HloOp τ sig (Elt F)) :=
  [ StableHlo.unary main_arg26 main_v0 ((extractStridedSlice S1x1024 ![0, 0] · slices_S4x1024_S1x1024_0_0) : (⟨S4x1024, .f32⟩ : BufTy).Contents (Elt F) → (⟨S1x1024, .f32⟩ : BufTy).Contents (Elt F)),
    StableHlo.reshape main_v0 main_v1 rfl shapeCasts_S1x1024_S1024,
    StableHlo.unary main_v1 main_v2 (broadcastInDim S1024x1 ![0] bcast_S1024_S1024x1_0 : (⟨S1024, .f32⟩ : BufTy).Contents (Elt F) → (⟨S1024x1, .f32⟩ : BufTy).Contents (Elt F)),
    StableHlo.unary main_v2 main_v3 (broadcastInDim S1024x8 ![0, 1] bcast_S1024x1_S1024x8_0_1 : (⟨S1024x1, .f32⟩ : BufTy).Contents (Elt F) → (⟨S1024x8, .f32⟩ : BufTy).Contents (Elt F)),
    StableHlo.binary main_arg4 main_v3 main_v4 (mulf : (⟨S1024x8, .f32⟩ : BufTy).Contents (Elt F) → (⟨S1024x8, .f32⟩ : BufTy).Contents (Elt F) → (⟨S1024x8, .f32⟩ : BufTy).Contents (Elt F)),
    StableHlo.unary main_arg26 main_v5 ((extractStridedSlice S1x1024 ![1, 0] · slices_S4x1024_S1x1024_1_0) : (⟨S4x1024, .f32⟩ : BufTy).Contents (Elt F) → (⟨S1x1024, .f32⟩ : BufTy).Contents (Elt F)),
    StableHlo.reshape main_v5 main_v6 rfl shapeCasts_S1x1024_S1024,
    StableHlo.unary main_v6 main_v7 (broadcastInDim S1024x1 ![0] bcast_S1024_S1024x1_0 : (⟨S1024, .f32⟩ : BufTy).Contents (Elt F) → (⟨S1024x1, .f32⟩ : BufTy).Contents (Elt F)),
    StableHlo.unary main_v7 main_v8 (broadcastInDim S1024x8 ![0, 1] bcast_S1024x1_S1024x8_0_1 : (⟨S1024x1, .f32⟩ : BufTy).Contents (Elt F) → (⟨S1024x8, .f32⟩ : BufTy).Contents (Elt F)),
    StableHlo.binary main_arg5 main_v8 main_v9 (mulf : (⟨S1024x8, .f32⟩ : BufTy).Contents (Elt F) → (⟨S1024x8, .f32⟩ : BufTy).Contents (Elt F) → (⟨S1024x8, .f32⟩ : BufTy).Contents (Elt F)),
    StableHlo.unary main_arg26 main_v10 ((extractStridedSlice S1x1024 ![2, 0] · slices_S4x1024_S1x1024_2_0) : (⟨S4x1024, .f32⟩ : BufTy).Contents (Elt F) → (⟨S1x1024, .f32⟩ : BufTy).Contents (Elt F)),
    StableHlo.reshape main_v10 main_v11 rfl shapeCasts_S1x1024_S1024,
    StableHlo.unary main_v11 main_v12 (broadcastInDim S1024x1 ![0] bcast_S1024_S1024x1_0 : (⟨S1024, .f32⟩ : BufTy).Contents (Elt F) → (⟨S1024x1, .f32⟩ : BufTy).Contents (Elt F)),
    StableHlo.unary main_v12 main_v13 (broadcastInDim S1024x8 ![0, 1] bcast_S1024x1_S1024x8_0_1 : (⟨S1024x1, .f32⟩ : BufTy).Contents (Elt F) → (⟨S1024x8, .f32⟩ : BufTy).Contents (Elt F)),
    StableHlo.binary main_arg6 main_v13 main_v14 (mulf : (⟨S1024x8, .f32⟩ : BufTy).Contents (Elt F) → (⟨S1024x8, .f32⟩ : BufTy).Contents (Elt F) → (⟨S1024x8, .f32⟩ : BufTy).Contents (Elt F)),
    StableHlo.unary main_arg26 main_v15 ((extractStridedSlice S1x1024 ![3, 0] · slices_S4x1024_S1x1024_3_0) : (⟨S4x1024, .f32⟩ : BufTy).Contents (Elt F) → (⟨S1x1024, .f32⟩ : BufTy).Contents (Elt F)),
    StableHlo.reshape main_v15 main_v16 rfl shapeCasts_S1x1024_S1024,
    StableHlo.unary main_v16 main_v17 (broadcastInDim S1024x1 ![0] bcast_S1024_S1024x1_0 : (⟨S1024, .f32⟩ : BufTy).Contents (Elt F) → (⟨S1024x1, .f32⟩ : BufTy).Contents (Elt F)),
    StableHlo.unary main_v17 main_v18 (broadcastInDim S1024x8 ![0, 1] bcast_S1024x1_S1024x8_0_1 : (⟨S1024x1, .f32⟩ : BufTy).Contents (Elt F) → (⟨S1024x8, .f32⟩ : BufTy).Contents (Elt F)),
    StableHlo.binary main_arg7 main_v18 main_v19 (mulf : (⟨S1024x8, .f32⟩ : BufTy).Contents (Elt F) → (⟨S1024x8, .f32⟩ : BufTy).Contents (Elt F) → (⟨S1024x8, .f32⟩ : BufTy).Contents (Elt F)) ]

/-- The next twenty: the four gates' weights for the scalar, each scaled by its entry of the scalar's mask. -/
abbrev opsZ : List (HloOp τ sig (Elt F)) :=
  [ StableHlo.unary main_arg27 main_v20 ((extractStridedSlice S1x1 ![0, 0] · slices_S4x1_S1x1_0_0) : (⟨S4x1, .f32⟩ : BufTy).Contents (Elt F) → (⟨S1x1, .f32⟩ : BufTy).Contents (Elt F)),
    StableHlo.reshape main_v20 main_v21 rfl shapeCasts_S1x1_S1,
    StableHlo.unary main_v21 main_v22 (broadcastInDim S1x1 ![0] bcast_S1_S1x1_0 : (⟨S1, .f32⟩ : BufTy).Contents (Elt F) → (⟨S1x1, .f32⟩ : BufTy).Contents (Elt F)),
    StableHlo.unary main_v22 main_v23 (broadcastInDim S1x8 ![0, 1] bcast_S1x1_S1x8_0_1 : (⟨S1x1, .f32⟩ : BufTy).Contents (Elt F) → (⟨S1x8, .f32⟩ : BufTy).Contents (Elt F)),
    StableHlo.binary main_arg12 main_v23 main_v24 (mulf : (⟨S1x8, .f32⟩ : BufTy).Contents (Elt F) → (⟨S1x8, .f32⟩ : BufTy).Contents (Elt F) → (⟨S1x8, .f32⟩ : BufTy).Contents (Elt F)),
    StableHlo.unary main_arg27 main_v25 ((extractStridedSlice S1x1 ![1, 0] · slices_S4x1_S1x1_1_0) : (⟨S4x1, .f32⟩ : BufTy).Contents (Elt F) → (⟨S1x1, .f32⟩ : BufTy).Contents (Elt F)),
    StableHlo.reshape main_v25 main_v26 rfl shapeCasts_S1x1_S1,
    StableHlo.unary main_v26 main_v27 (broadcastInDim S1x1 ![0] bcast_S1_S1x1_0 : (⟨S1, .f32⟩ : BufTy).Contents (Elt F) → (⟨S1x1, .f32⟩ : BufTy).Contents (Elt F)),
    StableHlo.unary main_v27 main_v28 (broadcastInDim S1x8 ![0, 1] bcast_S1x1_S1x8_0_1 : (⟨S1x1, .f32⟩ : BufTy).Contents (Elt F) → (⟨S1x8, .f32⟩ : BufTy).Contents (Elt F)),
    StableHlo.binary main_arg13 main_v28 main_v29 (mulf : (⟨S1x8, .f32⟩ : BufTy).Contents (Elt F) → (⟨S1x8, .f32⟩ : BufTy).Contents (Elt F) → (⟨S1x8, .f32⟩ : BufTy).Contents (Elt F)),
    StableHlo.unary main_arg27 main_v30 ((extractStridedSlice S1x1 ![2, 0] · slices_S4x1_S1x1_2_0) : (⟨S4x1, .f32⟩ : BufTy).Contents (Elt F) → (⟨S1x1, .f32⟩ : BufTy).Contents (Elt F)),
    StableHlo.reshape main_v30 main_v31 rfl shapeCasts_S1x1_S1,
    StableHlo.unary main_v31 main_v32 (broadcastInDim S1x1 ![0] bcast_S1_S1x1_0 : (⟨S1, .f32⟩ : BufTy).Contents (Elt F) → (⟨S1x1, .f32⟩ : BufTy).Contents (Elt F)),
    StableHlo.unary main_v32 main_v33 (broadcastInDim S1x8 ![0, 1] bcast_S1x1_S1x8_0_1 : (⟨S1x1, .f32⟩ : BufTy).Contents (Elt F) → (⟨S1x8, .f32⟩ : BufTy).Contents (Elt F)),
    StableHlo.binary main_arg14 main_v33 main_v34 (mulf : (⟨S1x8, .f32⟩ : BufTy).Contents (Elt F) → (⟨S1x8, .f32⟩ : BufTy).Contents (Elt F) → (⟨S1x8, .f32⟩ : BufTy).Contents (Elt F)),
    StableHlo.unary main_arg27 main_v35 ((extractStridedSlice S1x1 ![3, 0] · slices_S4x1_S1x1_3_0) : (⟨S4x1, .f32⟩ : BufTy).Contents (Elt F) → (⟨S1x1, .f32⟩ : BufTy).Contents (Elt F)),
    StableHlo.reshape main_v35 main_v36 rfl shapeCasts_S1x1_S1,
    StableHlo.unary main_v36 main_v37 (broadcastInDim S1x1 ![0] bcast_S1_S1x1_0 : (⟨S1, .f32⟩ : BufTy).Contents (Elt F) → (⟨S1x1, .f32⟩ : BufTy).Contents (Elt F)),
    StableHlo.unary main_v37 main_v38 (broadcastInDim S1x8 ![0, 1] bcast_S1x1_S1x8_0_1 : (⟨S1x1, .f32⟩ : BufTy).Contents (Elt F) → (⟨S1x8, .f32⟩ : BufTy).Contents (Elt F)),
    StableHlo.binary main_arg15 main_v38 main_v39 (mulf : (⟨S1x8, .f32⟩ : BufTy).Contents (Elt F) → (⟨S1x8, .f32⟩ : BufTy).Contents (Elt F) → (⟨S1x8, .f32⟩ : BufTy).Contents (Elt F)) ]

/-- The last sixteen: the gates' pieces laid end to end, and the small arrays relaid as columns or transposed. -/
abbrev opsL : List (HloOp τ sig (Elt F)) :=
  [ StableHlo.nary ![main_v4, main_v9, main_v14, main_v19] main_v40 (fun u => concatenate S1024x32 1 [⟨S1024x8, u 0⟩, ⟨S1024x8, u 1⟩, ⟨S1024x8, u 2⟩, ⟨S1024x8, u 3⟩] concatenates_S1024x8_S1024x8_S1024x8_S1024x8_S1024x32_d1),
    StableHlo.nary ![main_arg8, main_arg9, main_arg10, main_arg11] main_v41 (fun u => concatenate S8x32 1 [⟨S8x8, u 0⟩, ⟨S8x8, u 1⟩, ⟨S8x8, u 2⟩, ⟨S8x8, u 3⟩] concatenates_S8x8_S8x8_S8x8_S8x8_S8x32_d1),
    StableHlo.nary ![main_v24, main_v29, main_v34, main_v39] main_v42 (fun u => concatenate S1x32 1 [⟨S1x8, u 0⟩, ⟨S1x8, u 1⟩, ⟨S1x8, u 2⟩, ⟨S1x8, u 3⟩] concatenates_S1x8_S1x8_S1x8_S1x8_S1x32_d1),
    StableHlo.nary ![main_arg16, main_arg17, main_arg18, main_arg19] main_v43 (fun u => concatenate S32 0 [⟨S8, u 0⟩, ⟨S8, u 1⟩, ⟨S8, u 2⟩, ⟨S8, u 3⟩] concatenates_S8_S8_S8_S8_S32_d0),
    StableHlo.unary main_v42 main_v44 ((transpose S32x1 [1, 0] · transposes_S1x32_S32x1_1_0) : (⟨S1x32, .f32⟩ : BufTy).Contents (Elt F) → (⟨S32x1, .f32⟩ : BufTy).Contents (Elt F)),
    StableHlo.reshape main_v43 main_v45 rfl shapeCasts_S32_S32x1,
    StableHlo.reshape main_arg21 main_v46 rfl shapeCasts_S5_S5x1,
    StableHlo.reshape main_arg23 main_v47 rfl shapeCasts_S5_S5x1,
    StableHlo.reshape main_arg25 main_v48 rfl shapeCasts_S1_S1x1,
    StableHlo.reshape main_arg28 main_v49 rfl shapeCasts_S1x5_S5x1,
    StableHlo.reshape main_arg29 main_v50 rfl shapeCasts_S1x5_S5x1,
    StableHlo.reshape main_arg1 main_v51 rfl shapeCasts_S1x65536x8_S65536x8,
    StableHlo.unary main_v51 main_v52 ((transpose S8x65536 [1, 0] · transposes_S65536x8_S8x65536_1_0) : (⟨S65536x8, .f32⟩ : BufTy).Contents (Elt F) → (⟨S8x65536, .f32⟩ : BufTy).Contents (Elt F)),
    StableHlo.reshape main_arg2 main_v53 rfl shapeCasts_S1x65536x8_S65536x8,
    StableHlo.unary main_v53 main_v54 ((transpose S8x65536 [1, 0] · transposes_S65536x8_S8x65536_1_0) : (⟨S65536x8, .f32⟩ : BufTy).Contents (Elt F) → (⟨S8x65536, .f32⟩ : BufTy).Contents (Elt F)),
    StableHlo.unary main_arg3 main_v55 ((transpose S1x65536 [1, 0] · transposes_S65536x1_S1x65536_1_0) : (⟨S65536x1, .f32⟩ : BufTy).Contents (Elt F) → (⟨S1x65536, .f32⟩ : BufTy).Contents (Elt F)) ]

end

/-- The operations before the grid are the three stretches in order. -/
theorem hostOps0_split : (hostOps0 (F := Ideal)) = opsX ++ (opsZ ++ opsL) := rfl

/-- Running two lines one after the other is running their concatenation. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih _

variable (m : (ℓ : Loc nD τ sig) → Buf (Elt Ideal) ℓ) (c : Dev nD)

/-- The core's arrays when its program starts. -/
abbrev V0 : Valuation τ sig (Elt Ideal) := fun b => m (c, b)

/-- An array before the grid is what the third stretch leaves of what the second leaves of what the first leaves. -/
theorem pre_eq (b : Ref sig .tc) :
    pre m c b = after opsL (after opsZ (after opsX (V0 m c))) (Proc.devRef .tc b) := by
  show after hostOps0 (V0 m c) (Proc.devRef .tc b) = _
  rw [hostOps0_split, after_append, after_append]

/-! ## What a stretch does not write it leaves -/

/-- A one-array set of written arrays lies in the set a list of references names, once the array is in the list. -/
theorem single_sub {W : List (Ref sig .tc)} {y : Ref sig .tc} (hy : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem hy))

/-- The arrays the first stretch writes. -/
abbrev WX : List (Ref sig .tc) :=
  [main_v0, main_v1, main_v2, main_v3, main_v4, main_v5, main_v6, main_v7, main_v8, main_v9,
   main_v10, main_v11, main_v12, main_v13, main_v14, main_v15, main_v16, main_v17, main_v18, main_v19]
/-- The arrays the second stretch writes. -/
abbrev WZ : List (Ref sig .tc) :=
  [main_v20, main_v21, main_v22, main_v23, main_v24, main_v25, main_v26, main_v27, main_v28, main_v29,
   main_v30, main_v31, main_v32, main_v33, main_v34, main_v35, main_v36, main_v37, main_v38, main_v39]

theorem opsX_writes : (opsX (F := Ideal)).Forall fun op => op.writes ⊆ (WX.map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩
theorem opsZ_writes : (opsZ (F := Ideal)).Forall fun op => op.writes ⊆ (WZ.map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩

/-- The first stretch leaves every array it does not write. -/
theorem keepX (V : Valuation τ sig (Elt Ideal)) {r : Ref sig .tc} (hr : r ∉ WX) :
    after opsX V (Proc.devRef .tc r) = V (Proc.devRef .tc r) :=
  StableHlo.after_of_writes_sub opsX V opsX_writes hr
/-- The second stretch leaves every array it does not write. -/
theorem keepZ (V : Valuation τ sig (Elt Ideal)) {r : Ref sig .tc} (hr : r ∉ WZ) :
    after opsZ V (Proc.devRef .tc r) = V (Proc.devRef .tc r) :=
  StableHlo.after_of_writes_sub opsZ V opsZ_writes hr

/-! ## The first two stretches: the masks folded into the weights -/

theorem X_v4 (V : Valuation τ sig (Elt Ideal)) : after opsX V (Proc.devRef .tc main_v4)
    = foldX 0 slices_S4x1024_S1x1024_0_0 (V (Proc.devRef .tc main_arg4)) (V (Proc.devRef .tc main_arg26)) := by
  dsimp only [opsX]
  after_results
  rfl
theorem X_v9 (V : Valuation τ sig (Elt Ideal)) : after opsX V (Proc.devRef .tc main_v9)
    = foldX 1 slices_S4x1024_S1x1024_1_0 (V (Proc.devRef .tc main_arg5)) (V (Proc.devRef .tc main_arg26)) := by
  dsimp only [opsX]
  after_results
  rfl
theorem X_v14 (V : Valuation τ sig (Elt Ideal)) : after opsX V (Proc.devRef .tc main_v14)
    = foldX 2 slices_S4x1024_S1x1024_2_0 (V (Proc.devRef .tc main_arg6)) (V (Proc.devRef .tc main_arg26)) := by
  dsimp only [opsX]
  after_results
  rfl
theorem X_v19 (V : Valuation τ sig (Elt Ideal)) : after opsX V (Proc.devRef .tc main_v19)
    = foldX 3 slices_S4x1024_S1x1024_3_0 (V (Proc.devRef .tc main_arg7)) (V (Proc.devRef .tc main_arg26)) := by
  dsimp only [opsX]
  after_results
  rfl

theorem Z_v24 (V : Valuation τ sig (Elt Ideal)) : after opsZ V (Proc.devRef .tc main_v24)
    = foldZ 0 slices_S4x1_S1x1_0_0 (V (Proc.devRef .tc main_arg12)) (V (Proc.devRef .tc main_arg27)) := by
  dsimp only [opsZ]
  after_results
  rfl
theorem Z_v29 (V : Valuation τ sig (Elt Ideal)) : after opsZ V (Proc.devRef .tc main_v29)
    = foldZ 1 slices_S4x1_S1x1_1_0 (V (Proc.devRef .tc main_arg13)) (V (Proc.devRef .tc main_arg27)) := by
  dsimp only [opsZ]
  after_results
  rfl
theorem Z_v34 (V : Valuation τ sig (Elt Ideal)) : after opsZ V (Proc.devRef .tc main_v34)
    = foldZ 2 slices_S4x1_S1x1_2_0 (V (Proc.devRef .tc main_arg14)) (V (Proc.devRef .tc main_arg27)) := by
  dsimp only [opsZ]
  after_results
  rfl
theorem Z_v39 (V : Valuation τ sig (Elt Ideal)) : after opsZ V (Proc.devRef .tc main_v39)
    = foldZ 3 slices_S4x1_S1x1_3_0 (V (Proc.devRef .tc main_arg15)) (V (Proc.devRef .tc main_arg27)) := by
  dsimp only [opsZ]
  after_results
  rfl

/-! ## The third stretch: the gates' pieces laid end to end -/

theorem L_v40 (V : Valuation τ sig (Elt Ideal)) : after opsL V (Proc.devRef .tc main_v40)
    = concatenate S1024x32 1 [⟨S1024x8, V (Proc.devRef .tc main_v4)⟩, ⟨S1024x8, V (Proc.devRef .tc main_v9)⟩,
        ⟨S1024x8, V (Proc.devRef .tc main_v14)⟩, ⟨S1024x8, V (Proc.devRef .tc main_v19)⟩]
        concatenates_S1024x8_S1024x8_S1024x8_S1024x8_S1024x32_d1 := by
  dsimp only [opsL]
  after_results
  rfl

theorem L_v41 (V : Valuation τ sig (Elt Ideal)) : after opsL V (Proc.devRef .tc main_v41)
    = concatenate S8x32 1 [⟨S8x8, V (Proc.devRef .tc main_arg8)⟩, ⟨S8x8, V (Proc.devRef .tc main_arg9)⟩,
        ⟨S8x8, V (Proc.devRef .tc main_arg10)⟩, ⟨S8x8, V (Proc.devRef .tc main_arg11)⟩]
        concatenates_S8x8_S8x8_S8x8_S8x8_S8x32_d1 := by
  dsimp only [opsL]
  after_results
  rfl

theorem L_v44 (V : Valuation τ sig (Elt Ideal)) : after opsL V (Proc.devRef .tc main_v44)
    = transpose S32x1 [1, 0] (concatenate S1x32 1 [⟨S1x8, V (Proc.devRef .tc main_v24)⟩, ⟨S1x8, V (Proc.devRef .tc main_v29)⟩,
        ⟨S1x8, V (Proc.devRef .tc main_v34)⟩, ⟨S1x8, V (Proc.devRef .tc main_v39)⟩]
        concatenates_S1x8_S1x8_S1x8_S1x8_S1x32_d1) transposes_S1x32_S32x1_1_0 := by
  dsimp only [opsL]
  after_results
  rfl

theorem L_v45 (V : Valuation τ sig (Elt Ideal)) : after opsL V (Proc.devRef .tc main_v45)
    = shapeCast S32x1 (concatenate S32 0 [⟨S8, V (Proc.devRef .tc main_arg16)⟩, ⟨S8, V (Proc.devRef .tc main_arg17)⟩,
        ⟨S8, V (Proc.devRef .tc main_arg18)⟩, ⟨S8, V (Proc.devRef .tc main_arg19)⟩]
        concatenates_S8_S8_S8_S8_S32_d0) shapeCasts_S32_S32x1 := by
  dsimp only [opsL]
  after_results
  rfl

/-! ## The four arrays at an index -/

/-- Column `8 g + j` of the concatenated input weights, row `d`: gate `g`'s weight times its mask entry for input `d`. -/
theorem v40 (g : Fin 4) (d : Fin 1024) (j : Fin 8) :
    pre m c main_v40 (ix2 d (cat g j))
      = (Cert.KerCell.args m c).weights.Wx g d j * (Cert.KerCell.args m c).weights.mx g d := by
  rw [pre_eq, L_v40, concat4_cols_apply _ _ _ _ _ d g j (cat g j) rfl]
  match g with
  | ⟨0, h0⟩ =>
    show after opsZ (after opsX (V0 m c)) (Proc.devRef .tc main_v4) (ix2 d j) = _
    rw [keepZ (r := main_v4) _ (by decide), X_v4, foldX_apply 0 _ _ _ ⟨0, h0⟩ rfl d j]
    rfl
  | ⟨1, h1⟩ =>
    show after opsZ (after opsX (V0 m c)) (Proc.devRef .tc main_v9) (ix2 d j) = _
    rw [keepZ (r := main_v9) _ (by decide), X_v9, foldX_apply 1 _ _ _ ⟨1, h1⟩ rfl d j]
    rfl
  | ⟨2, h2⟩ =>
    show after opsZ (after opsX (V0 m c)) (Proc.devRef .tc main_v14) (ix2 d j) = _
    rw [keepZ (r := main_v14) _ (by decide), X_v14, foldX_apply 2 _ _ _ ⟨2, h2⟩ rfl d j]
    rfl
  | ⟨3, h3⟩ =>
    show after opsZ (after opsX (V0 m c)) (Proc.devRef .tc main_v19) (ix2 d j) = _
    rw [keepZ (r := main_v19) _ (by decide), X_v19, foldX_apply 3 _ _ _ ⟨3, h3⟩ rfl d j]
    rfl

/-- Column `8 g + j` of the concatenated hidden-state weights, row `k`: gate `g`'s weight. -/
theorem v41 (g : Fin 4) (k j : Fin 8) :
    pre m c main_v41 (ix2 k (cat g j)) = (Cert.KerCell.args m c).weights.Wh g k j := by
  rw [pre_eq, L_v41, concat4_cols_apply _ _ _ _ _ k g j (cat g j) rfl]
  match g with
  | ⟨0, h0⟩ =>
    show after opsZ (after opsX (V0 m c)) (Proc.devRef .tc main_arg8) (ix2 k j) = _
    rw [keepZ (r := main_arg8) _ (by decide), keepX (r := main_arg8) _ (by decide)]
    rfl
  | ⟨1, h1⟩ =>
    show after opsZ (after opsX (V0 m c)) (Proc.devRef .tc main_arg9) (ix2 k j) = _
    rw [keepZ (r := main_arg9) _ (by decide), keepX (r := main_arg9) _ (by decide)]
    rfl
  | ⟨2, h2⟩ =>
    show after opsZ (after opsX (V0 m c)) (Proc.devRef .tc main_arg10) (ix2 k j) = _
    rw [keepZ (r := main_arg10) _ (by decide), keepX (r := main_arg10) _ (by decide)]
    rfl
  | ⟨3, h3⟩ =>
    show after opsZ (after opsX (V0 m c)) (Proc.devRef .tc main_arg11) (ix2 k j) = _
    rw [keepZ (r := main_arg11) _ (by decide), keepX (r := main_arg11) _ (by decide)]
    rfl

/-- Entry `8 g + j` of the scalar's weights laid as a column: gate `g`'s weight times its mask entry. -/
theorem v44 (g : Fin 4) (j : Fin 8) :
    pre m c main_v44 (ix2 (cat g j) (0 : Fin 1))
      = (Cert.KerCell.args m c).weights.Wz g j * (Cert.KerCell.args m c).weights.mz g := by
  rw [pre_eq, L_v44, transpose_ix2_apply, concat4_cols_apply _ _ _ _ _ (0 : Fin 1) g j (cat g j) rfl]
  match g with
  | ⟨0, h0⟩ =>
    show after opsZ (after opsX (V0 m c)) (Proc.devRef .tc main_v24) (ix2 (0 : Fin 1) j) = _
    rw [Z_v24, foldZ_apply 0 _ _ _ ⟨0, h0⟩ rfl j, keepX (r := main_arg12) _ (by decide), keepX (r := main_arg27) _ (by decide)]
    rfl
  | ⟨1, h1⟩ =>
    show after opsZ (after opsX (V0 m c)) (Proc.devRef .tc main_v29) (ix2 (0 : Fin 1) j) = _
    rw [Z_v29, foldZ_apply 1 _ _ _ ⟨1, h1⟩ rfl j, keepX (r := main_arg13) _ (by decide), keepX (r := main_arg27) _ (by decide)]
    rfl
  | ⟨2, h2⟩ =>
    show after opsZ (after opsX (V0 m c)) (Proc.devRef .tc main_v34) (ix2 (0 : Fin 1) j) = _
    rw [Z_v34, foldZ_apply 2 _ _ _ ⟨2, h2⟩ rfl j, keepX (r := main_arg14) _ (by decide), keepX (r := main_arg27) _ (by decide)]
    rfl
  | ⟨3, h3⟩ =>
    show after opsZ (after opsX (V0 m c)) (Proc.devRef .tc main_v39) (ix2 (0 : Fin 1) j) = _
    rw [Z_v39, foldZ_apply 3 _ _ _ ⟨3, h3⟩ rfl j, keepX (r := main_arg15) _ (by decide), keepX (r := main_arg27) _ (by decide)]
    rfl

/-- Entry `8 g + j` of the biases laid as a column: gate `g`'s bias. -/
theorem v45 (g : Fin 4) (j : Fin 8) :
    pre m c main_v45 (ix2 (cat g j) (0 : Fin 1)) = (Cert.KerCell.args m c).weights.bg g j := by
  rw [pre_eq, L_v45, shapeCast_a_a1_apply, concat4_vec_apply _ _ _ _ _ g j (cat g j) rfl]
  match g with
  | ⟨0, h0⟩ =>
    show after opsZ (after opsX (V0 m c)) (Proc.devRef .tc main_arg16) (ix1 j) = _
    rw [keepZ (r := main_arg16) _ (by decide), keepX (r := main_arg16) _ (by decide)]
    rfl
  | ⟨1, h1⟩ =>
    show after opsZ (after opsX (V0 m c)) (Proc.devRef .tc main_arg17) (ix1 j) = _
    rw [keepZ (r := main_arg17) _ (by decide), keepX (r := main_arg17) _ (by decide)]
    rfl
  | ⟨2, h2⟩ =>
    show after opsZ (after opsX (V0 m c)) (Proc.devRef .tc main_arg18) (ix1 j) = _
    rw [keepZ (r := main_arg18) _ (by decide), keepX (r := main_arg18) _ (by decide)]
    rfl
  | ⟨3, h3⟩ =>
    show after opsZ (after opsX (V0 m c)) (Proc.devRef .tc main_arg19) (ix1 j) = _
    rw [keepZ (r := main_arg19) _ (by decide), keepX (r := main_arg19) _ (by decide)]
    rfl

end Cert.KerPrefix

end
-- ==== Proof.KerPrefixRows.lean ====
/-
  The small arrays the grid reads after the operations before it, read at an index.

  The previous hidden and cell states, stored batch-major under a leading unit axis, lose that axis and are transposed, so
  entry (k, r) of the result is unit k of batch row r; the previous scalar's column is transposed to a row. The two
  perceptron biases and the output bias, vectors, are laid as columns, and the two perceptron masks, rows, are relaid as
  columns: entry (f, 0) is entry f of the vector or entry (0, f) of the row. None of these is touched by the operations
  that scale the gates' weights.
-/
import proofs.«160326_j16810501997190_2_alg».proof.Proof.KerPrefixGates

set_option maxRecDepth 16384

noncomputable section

namespace Cert.KerPrefix

open Cert.KernelIdeal Cert.KernelIdeal.Gen Cert.KernelIdeal.GenP Cert.CellSpec
open Idealize.ShloMosaic Idealize.ShloMosaic.TcCoe Idealize.ShloMosaic.ValueIdx Idealize.SL.Sem
open Idealize.ShloMosaic.StableHlo (after after_cons after_nil)

variable (m : (ℓ : Loc nD τ sig) → Buf (Elt Ideal) ℓ) (c : Dev nD)

/-! ## The third stretch at the small arrays -/

theorem L_v46 (V : Valuation τ sig (Elt Ideal)) : after opsL V (Proc.devRef .tc main_v46)
    = shapeCast S5x1 (V (Proc.devRef .tc main_arg21)) shapeCasts_S5_S5x1 := by
  dsimp only [opsL]
  after_results
  rfl
theorem L_v47 (V : Valuation τ sig (Elt Ideal)) : after opsL V (Proc.devRef .tc main_v47)
    = shapeCast S5x1 (V (Proc.devRef .tc main_arg23)) shapeCasts_S5_S5x1 := by
  dsimp only [opsL]
  after_results
  rfl
theorem L_v48 (V : Valuation τ sig (Elt Ideal)) : after opsL V (Proc.devRef .tc main_v48)
    = shapeCast S1x1 (V (Proc.devRef .tc main_arg25)) shapeCasts_S1_S1x1 := by
  dsimp only [opsL]
  after_results
  rfl
theorem L_v49 (V : Valuation τ sig (Elt Ideal)) : after opsL V (Proc.devRef .tc main_v49)
    = shapeCast S5x1 (V (Proc.devRef .tc main_arg28)) shapeCasts_S1x5_S5x1 := by
  dsimp only [opsL]
  after_results
  rfl
theorem L_v50 (V : Valuation τ sig (Elt Ideal)) : after opsL V (Proc.devRef .tc main_v50)
    = shapeCast S5x1 (V (Proc.devRef .tc main_arg29)) shapeCasts_S1x5_S5x1 := by
  dsimp only [opsL]
  after_results
  rfl

theorem L_v52 (V : Valuation τ sig (Elt Ideal)) : after opsL V (Proc.devRef .tc main_v52)
    = transpose S8x65536 [1, 0] (shapeCast S65536x8 (V (Proc.devRef .tc main_arg1)) shapeCasts_S1x65536x8_S65536x8)
        transposes_S65536x8_S8x65536_1_0 := by
  dsimp only [opsL]
  after_results
  rfl
theorem L_v54 (V : Valuation τ sig (Elt Ideal)) : after opsL V (Proc.devRef .tc main_v54)
    = transpose S8x65536 [1, 0] (shapeCast S65536x8 (V (Proc.devRef .tc main_arg2)) shapeCasts_S1x65536x8_S65536x8)
        transposes_S65536x8_S8x65536_1_0 := by
  dsimp only [opsL]
  after_results
  rfl
theorem L_v55 (V : Valuation τ sig (Elt Ideal)) : after opsL V (Proc.devRef .tc main_v55)
    = transpose S1x65536 [1, 0] (V (Proc.devRef .tc main_arg3)) transposes_S65536x1_S1x65536_1_0 := by
  dsimp only [opsL]
  after_results

/-! ## The arrays at an index -/

/-- Entry `(k, r)` of the transposed previous hidden state: unit `k` of batch row `r`. -/
theorem v52 (k : Fin 8) (r : Fin 65536) : pre m c main_v52 (ix2 k r) = ((Cert.KerCell.args m c).row r).h k := by
  rw [pre_eq, L_v52, transpose_ix2_apply, shapeCast_1ab_ab_apply, keepZ (r := main_arg1) _ (by decide),
    keepX (r := main_arg1) _ (by decide)]
  rfl
/-- Entry `(k, r)` of the transposed previous cell state: unit `k` of batch row `r`. -/
theorem v54 (k : Fin 8) (r : Fin 65536) : pre m c main_v54 (ix2 k r) = ((Cert.KerCell.args m c).row r).c k := by
  rw [pre_eq, L_v54, transpose_ix2_apply, shapeCast_1ab_ab_apply, keepZ (r := main_arg2) _ (by decide),
    keepX (r := main_arg2) _ (by decide)]
  rfl
/-- Entry `(0, r)` of the previous scalar laid as a row: batch row `r`'s scalar. -/
theorem v55 (r : Fin 65536) : pre m c main_v55 (ix2 (0 : Fin 1) r) = ((Cert.KerCell.args m c).row r).z := by
  rw [pre_eq, L_v55, transpose_ix2_apply, keepZ (r := main_arg3) _ (by decide), keepX (r := main_arg3) _ (by decide)]
  rfl
/-- Entry `(f, 0)` of the first layer's bias laid as a column. -/
theorem v46 (f : Fin 5) : pre m c main_v46 (ix2 f (0 : Fin 1)) = (Cert.KerCell.args m c).weights.bd1 f := by
  rw [pre_eq, L_v46, shapeCast_a_a1_apply, keepZ (r := main_arg21) _ (by decide), keepX (r := main_arg21) _ (by decide)]
  rfl
/-- Entry `(f, 0)` of the second layer's bias laid as a column. -/
theorem v47 (f : Fin 5) : pre m c main_v47 (ix2 f (0 : Fin 1)) = (Cert.KerCell.args m c).weights.bd2 f := by
  rw [pre_eq, L_v47, shapeCast_a_a1_apply, keepZ (r := main_arg23) _ (by decide), keepX (r := main_arg23) _ (by decide)]
  rfl
/-- The output layer's bias as a one-entry column. -/
theorem v48 : pre m c main_v48 (ix2 (0 : Fin 1) (0 : Fin 1)) = (Cert.KerCell.args m c).weights.bd3 := by
  rw [pre_eq, L_v48, shapeCast_a_a1_apply, keepZ (r := main_arg25) _ (by decide), keepX (r := main_arg25) _ (by decide)]
  rfl
/-- Entry `(f, 0)` of the first layer's mask relaid as a column. -/
theorem v49 (f : Fin 5) : pre m c main_v49 (ix2 f (0 : Fin 1)) = (Cert.KerCell.args m c).weights.m1 f := by
  rw [pre_eq, L_v49, shapeCast_1a_a1_apply, keepZ (r := main_arg28) _ (by decide), keepX (r := main_arg28) _ (by decide)]
  rfl
/-- Entry `(f, 0)` of the second layer's mask relaid as a column. -/
theorem v50 (f : Fin 5) : pre m c main_v50 (ix2 f (0 : Fin 1)) = (Cert.KerCell.args m c).weights.m2 f := by
  rw [pre_eq, L_v50, shapeCast_1a_a1_apply, keepZ (r := main_arg29) _ (by decide), keepX (r := main_arg29) _ (by decide)]
  rfl

end Cert.KerPrefix

end
-- ==== Proof.KerPrefix.lean ====
/-
  The arrays the grid reads, after the operations before it, each read at an index: the four gates' concatenated arrays
  and the transposed or relaid small arrays.
-/
import proofs.«160326_j16810501997190_2_alg».proof.Proof.KerPrefixGates
import proofs.«160326_j16810501997190_2_alg».proof.Proof.KerPrefixRows
-- ==== Proof.BlocksIdeal.lean ====
/-
  From blocks to arrays, on the idealized kernel. Grid point `t` of 32 handles batch rows 2048 t … 2048 t + 2047: it reads
  rows of the input matrix, columns of the unit-major previous states and scalar, and the twelve parameter arrays whole, and
  writes back columns 2048 t … of the three unit-major results. With every input block identified as the corresponding
  rows' data and the body's arithmetic identified with the cell (the payload lemmas), what point `t` writes back is block `t`
  of the unit-major results of the specification; the 32 blocks cover the arrays, so the three arrays end at those
  results, and the three closing transposes turn them batch-major.
-/
import proofs.«160326_j16810501997190_2_alg».proof.Proof.FrameIdealRun
import proofs.«160326_j16810501997190_2_alg».proof.Proof.KerArgs
import proofs.«160326_j16810501997190_2_alg».proof.Proof.KerCellPay
import proofs.«160326_j16810501997190_2_alg».proof.Proof.KerPrefix
import Idealize.ShloMosaic.Lib.Pipeline.Value
import Idealize.ShloMosaic.Lib.ValueLayout
import Idealize.ShloMosaic.Lib.StableHlo.Run

set_option maxRecDepth 16384

noncomputable section

namespace Cert.KerCell

open Cert.KernelIdeal Cert.KernelIdeal.Gen Cert.KernelIdeal.GenP Cert.KernelIdeal.Hand Cert.CellSpec
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-! ## The unit-major results -/

def GZ (A : Args) : S1x65536.Idx → EReal := fun i => znew A.weights (A.row (i 1))
def GH (A : Args) : S8x65536.Idx → EReal := fun i => hnew A.weights (A.row (i 1)) (i 0)
def GC (A : Args) : S8x65536.Idx → EReal := fun i => cnew A.weights (A.row (i 1)) (i 0)

/-- The grid has 32 points. -/
theorem N32 : cfg0.N = 32 := N_0

/-- Row `b` of point `t`'s 2048 rows. -/
def rowOf (t : Fin cfg0.N) (b : Fin 2048) : Fin 65536 :=
  ⟨2048 * t.val + b.val, by have h : t.val < 32 := lt_of_lt_of_eq t.isLt N32; have := b.isLt; omega⟩

/-- Where the blocks sit: the row blocks move with the point, the parameter blocks do not. -/
theorem where_blocks : ∀ t : Fin cfg0.N,
    win0_0.index t (0 : Fin 2) = t.val ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_16.index t (0 : Fin 2) = 0 ∧ win0_16.index t (1 : Fin 2) = t.val
    ∧ win0_17.index t (0 : Fin 2) = 0 ∧ win0_17.index t (1 : Fin 2) = t.val
    ∧ win0_18.index t (0 : Fin 2) = 0 ∧ win0_18.index t (1 : Fin 2) = t.val :=
  (by decide +kernel : ∀ t : Fin grid0.N, _)

theorem where_params : ∀ t : Fin cfg0.N,
    win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0
    ∧ win0_15.index t (0 : Fin 2) = 0 ∧ win0_15.index t (1 : Fin 2) = 0 :=
  (by decide +kernel : ∀ t : Fin grid0.N, _)

/-- The memory when the grid starts, as the memory after the operations before it. -/
theorem V_eq_pre (c : Dev nD) (b : Ref sig .tc) : V m c b = Cert.KerPrefix.pre m c b := by
  unfold V V0 Cert.KerPrefix.pre
  simp only [List.flatten_cons, List.flatten_nil, List.append_nil]

/-! ## Where each window's block sits -/

theorem at0 (t : Fin cfg0.N) : win0_0.index t (0 : Fin 2) = t.val ∧ win0_0.index t (1 : Fin 2) = 0 := ⟨(where_blocks t).1, (where_blocks t).2.1⟩
theorem at1 (t : Fin cfg0.N) : win0_1.index t (0 : Fin 2) = 0 ∧ win0_1.index t (1 : Fin 2) = t.val := ⟨(where_blocks t).2.2.1, (where_blocks t).2.2.2.1⟩
theorem at2 (t : Fin cfg0.N) : win0_2.index t (0 : Fin 2) = 0 ∧ win0_2.index t (1 : Fin 2) = t.val := ⟨(where_blocks t).2.2.2.2.1, (where_blocks t).2.2.2.2.2.1⟩
theorem at3 (t : Fin cfg0.N) : win0_3.index t (0 : Fin 2) = 0 ∧ win0_3.index t (1 : Fin 2) = t.val := ⟨(where_blocks t).2.2.2.2.2.2.1, (where_blocks t).2.2.2.2.2.2.2.1⟩
theorem at16 (t : Fin cfg0.N) : win0_16.index t (0 : Fin 2) = 0 ∧ win0_16.index t (1 : Fin 2) = t.val := ⟨(where_blocks t).2.2.2.2.2.2.2.2.1, (where_blocks t).2.2.2.2.2.2.2.2.2.1⟩
theorem at17 (t : Fin cfg0.N) : win0_17.index t (0 : Fin 2) = 0 ∧ win0_17.index t (1 : Fin 2) = t.val := ⟨(where_blocks t).2.2.2.2.2.2.2.2.2.2.1, (where_blocks t).2.2.2.2.2.2.2.2.2.2.2.1⟩
theorem at18 (t : Fin cfg0.N) : win0_18.index t (0 : Fin 2) = 0 ∧ win0_18.index t (1 : Fin 2) = t.val := ⟨(where_blocks t).2.2.2.2.2.2.2.2.2.2.2.2.1, (where_blocks t).2.2.2.2.2.2.2.2.2.2.2.2.2⟩
theorem at4 (t : Fin cfg0.N) : win0_4.index t (0 : Fin 2) = 0 ∧ win0_4.index t (1 : Fin 2) = 0 := ⟨(where_params t).1, (where_params t).2.1⟩
theorem at5 (t : Fin cfg0.N) : win0_5.index t (0 : Fin 2) = 0 ∧ win0_5.index t (1 : Fin 2) = 0 := ⟨(where_params t).2.2.1, (where_params t).2.2.2.1⟩
theorem at6 (t : Fin cfg0.N) : win0_6.index t (0 : Fin 2) = 0 ∧ win0_6.index t (1 : Fin 2) = 0 := ⟨(where_params t).2.2.2.2.1, (where_params t).2.2.2.2.2.1⟩
theorem at7 (t : Fin cfg0.N) : win0_7.index t (0 : Fin 2) = 0 ∧ win0_7.index t (1 : Fin 2) = 0 := ⟨(where_params t).2.2.2.2.2.2.1, (where_params t).2.2.2.2.2.2.2.1⟩
theorem at8 (t : Fin cfg0.N) : win0_8.index t (0 : Fin 2) = 0 ∧ win0_8.index t (1 : Fin 2) = 0 := ⟨(where_params t).2.2.2.2.2.2.2.2.1, (where_params t).2.2.2.2.2.2.2.2.2.1⟩
theorem at9 (t : Fin cfg0.N) : win0_9.index t (0 : Fin 2) = 0 ∧ win0_9.index t (1 : Fin 2) = 0 := ⟨(where_params t).2.2.2.2.2.2.2.2.2.2.1, (where_params t).2.2.2.2.2.2.2.2.2.2.2.1⟩
theorem at10 (t : Fin cfg0.N) : win0_10.index t (0 : Fin 2) = 0 ∧ win0_10.index t (1 : Fin 2) = 0 := ⟨(where_params t).2.2.2.2.2.2.2.2.2.2.2.2.1, (where_params t).2.2.2.2.2.2.2.2.2.2.2.2.2.1⟩
theorem at11 (t : Fin cfg0.N) : win0_11.index t (0 : Fin 2) = 0 ∧ win0_11.index t (1 : Fin 2) = 0 := ⟨(where_params t).2.2.2.2.2.2.2.2.2.2.2.2.2.2.1, (where_params t).2.2.2.2.2.2.2.2.2.2.2.2.2.2.2.1⟩
theorem at12 (t : Fin cfg0.N) : win0_12.index t (0 : Fin 2) = 0 ∧ win0_12.index t (1 : Fin 2) = 0 := ⟨(where_params t).2.2.2.2.2.2.2.2.2.2.2.2.2.2.2.2.1, (where_params t).2.2.2.2.2.2.2.2.2.2.2.2.2.2.2.2.2.1⟩
theorem at13 (t : Fin cfg0.N) : win0_13.index t (0 : Fin 2) = 0 ∧ win0_13.index t (1 : Fin 2) = 0 := ⟨(where_params t).2.2.2.2.2.2.2.2.2.2.2.2.2.2.2.2.2.2.1, (where_params t).2.2.2.2.2.2.2.2.2.2.2.2.2.2.2.2.2.2.2.1⟩
theorem at14 (t : Fin cfg0.N) : win0_14.index t (0 : Fin 2) = 0 ∧ win0_14.index t (1 : Fin 2) = 0 := ⟨(where_params t).2.2.2.2.2.2.2.2.2.2.2.2.2.2.2.2.2.2.2.2.1, (where_params t).2.2.2.2.2.2.2.2.2.2.2.2.2.2.2.2.2.2.2.2.2.1⟩
theorem at15 (t : Fin cfg0.N) : win0_15.index t (0 : Fin 2) = 0 ∧ win0_15.index t (1 : Fin 2) = 0 := ⟨(where_params t).2.2.2.2.2.2.2.2.2.2.2.2.2.2.2.2.2.2.2.2.2.2.1, (where_params t).2.2.2.2.2.2.2.2.2.2.2.2.2.2.2.2.2.2.2.2.2.2.2⟩

/-! ## An index inside a block, as an index of the array -/

theorem emb0 (t : Fin cfg0.N) (b : Fin 2048) (d : Fin 1024) : ((cfg0.win 0).blk t).view.emb (ix2 b d) = ix2 (rowOf t b) d := by
  obtain ⟨e0, e1⟩ := at0 t
  funext a; apply Fin.ext
  match a with
  | ⟨0, _⟩ => show win0_0.index t (0 : Fin 2) * 2048 + 1 * b.val = 2048 * t.val + b.val; omega
  | ⟨1, _⟩ => show win0_0.index t (1 : Fin 2) * 1024 + 1 * d.val = d.val; omega
theorem emb1 (t : Fin cfg0.N) (k : Fin 8) (b : Fin 2048) : ((cfg0.win 1).blk t).view.emb (ix2 k b) = ix2 k (rowOf t b) := by
  obtain ⟨e0, e1⟩ := at1 t
  funext a; apply Fin.ext
  match a with
  | ⟨0, _⟩ => show win0_1.index t (0 : Fin 2) * 8 + 1 * k.val = k.val; omega
  | ⟨1, _⟩ => show win0_1.index t (1 : Fin 2) * 2048 + 1 * b.val = 2048 * t.val + b.val; omega
theorem emb2 (t : Fin cfg0.N) (k : Fin 8) (b : Fin 2048) : ((cfg0.win 2).blk t).view.emb (ix2 k b) = ix2 k (rowOf t b) := by
  obtain ⟨e0, e1⟩ := at2 t
  funext a; apply Fin.ext
  match a with
  | ⟨0, _⟩ => show win0_2.index t (0 : Fin 2) * 8 + 1 * k.val = k.val; omega
  | ⟨1, _⟩ => show win0_2.index t (1 : Fin 2) * 2048 + 1 * b.val = 2048 * t.val + b.val; omega
theorem emb3 (t : Fin cfg0.N) (k : Fin 1) (b : Fin 2048) : ((cfg0.win 3).blk t).view.emb (ix2 k b) = ix2 k (rowOf t b) := by
  obtain ⟨e0, e1⟩ := at3 t
  funext a; apply Fin.ext
  match a with
  | ⟨0, _⟩ => show win0_3.index t (0 : Fin 2) * 1 + 1 * k.val = k.val; omega
  | ⟨1, _⟩ => show win0_3.index t (1 : Fin 2) * 2048 + 1 * b.val = 2048 * t.val + b.val; omega
theorem emb16 (t : Fin cfg0.N) (k : Fin 1) (b : Fin 2048) : ((cfg0.win 16).blk t).view.emb (ix2 k b) = ix2 k (rowOf t b) := by
  obtain ⟨e0, e1⟩ := at16 t
  funext a; apply Fin.ext
  match a with
  | ⟨0, _⟩ => show win0_16.index t (0 : Fin 2) * 1 + 1 * k.val = k.val; omega
  | ⟨1, _⟩ => show win0_16.index t (1 : Fin 2) * 2048 + 1 * b.val = 2048 * t.val + b.val; omega
theorem emb17 (t : Fin cfg0.N) (k : Fin 8) (b : Fin 2048) : ((cfg0.win 17).blk t).view.emb (ix2 k b) = ix2 k (rowOf t b) := by
  obtain ⟨e0, e1⟩ := at17 t
  funext a; apply Fin.ext
  match a with
  | ⟨0, _⟩ => show win0_17.index t (0 : Fin 2) * 8 + 1 * k.val = k.val; omega
  | ⟨1, _⟩ => show win0_17.index t (1 : Fin 2) * 2048 + 1 * b.val = 2048 * t.val + b.val; omega
theorem emb18 (t : Fin cfg0.N) (k : Fin 8) (b : Fin 2048) : ((cfg0.win 18).blk t).view.emb (ix2 k b) = ix2 k (rowOf t b) := by
  obtain ⟨e0, e1⟩ := at18 t
  funext a; apply Fin.ext
  match a with
  | ⟨0, _⟩ => show win0_18.index t (0 : Fin 2) * 8 + 1 * k.val = k.val; omega
  | ⟨1, _⟩ => show win0_18.index t (1 : Fin 2) * 2048 + 1 * b.val = 2048 * t.val + b.val; omega
theorem emb4 (t : Fin cfg0.N) (p : Fin 1024) (q : Fin 32) : ((cfg0.win 4).blk t).view.emb (ix2 p q) = ix2 p q := by
  obtain ⟨e0, e1⟩ := at4 t
  funext a; apply Fin.ext
  match a with
  | ⟨0, _⟩ => show win0_4.index t (0 : Fin 2) * 1024 + 1 * p.val = p.val; omega
  | ⟨1, _⟩ => show win0_4.index t (1 : Fin 2) * 32 + 1 * q.val = q.val; omega
theorem emb5 (t : Fin cfg0.N) (p : Fin 8) (q : Fin 32) : ((cfg0.win 5).blk t).view.emb (ix2 p q) = ix2 p q := by
  obtain ⟨e0, e1⟩ := at5 t
  funext a; apply Fin.ext
  match a with
  | ⟨0, _⟩ => show win0_5.index t (0 : Fin 2) * 8 + 1 * p.val = p.val; omega
  | ⟨1, _⟩ => show win0_5.index t (1 : Fin 2) * 32 + 1 * q.val = q.val; omega
theorem emb6 (t : Fin cfg0.N) (p : Fin 32) (q : Fin 1) : ((cfg0.win 6).blk t).view.emb (ix2 p q) = ix2 p q := by
  obtain ⟨e0, e1⟩ := at6 t
  funext a; apply Fin.ext
  match a with
  | ⟨0, _⟩ => show win0_6.index t (0 : Fin 2) * 32 + 1 * p.val = p.val; omega
  | ⟨1, _⟩ => show win0_6.index t (1 : Fin 2) * 1 + 1 * q.val = q.val; omega
theorem emb7 (t : Fin cfg0.N) (p : Fin 32) (q : Fin 1) : ((cfg0.win 7).blk t).view.emb (ix2 p q) = ix2 p q := by
  obtain ⟨e0, e1⟩ := at7 t
  funext a; apply Fin.ext
  match a with
  | ⟨0, _⟩ => show win0_7.index t (0 : Fin 2) * 32 + 1 * p.val = p.val; omega
  | ⟨1, _⟩ => show win0_7.index t (1 : Fin 2) * 1 + 1 * q.val = q.val; omega
theorem emb8 (t : Fin cfg0.N) (p : Fin 8) (q : Fin 5) : ((cfg0.win 8).blk t).view.emb (ix2 p q) = ix2 p q := by
  obtain ⟨e0, e1⟩ := at8 t
  funext a; apply Fin.ext
  match a with
  | ⟨0, _⟩ => show win0_8.index t (0 : Fin 2) * 8 + 1 * p.val = p.val; omega
  | ⟨1, _⟩ => show win0_8.index t (1 : Fin 2) * 5 + 1 * q.val = q.val; omega
theorem emb9 (t : Fin cfg0.N) (p : Fin 5) (q : Fin 1) : ((cfg0.win 9).blk t).view.emb (ix2 p q) = ix2 p q := by
  obtain ⟨e0, e1⟩ := at9 t
  funext a; apply Fin.ext
  match a with
  | ⟨0, _⟩ => show win0_9.index t (0 : Fin 2) * 5 + 1 * p.val = p.val; omega
  | ⟨1, _⟩ => show win0_9.index t (1 : Fin 2) * 1 + 1 * q.val = q.val; omega
theorem emb10 (t : Fin cfg0.N) (p : Fin 5) (q : Fin 5) : ((cfg0.win 10).blk t).view.emb (ix2 p q) = ix2 p q := by
  obtain ⟨e0, e1⟩ := at10 t
  funext a; apply Fin.ext
  match a with
  | ⟨0, _⟩ => show win0_10.index t (0 : Fin 2) * 5 + 1 * p.val = p.val; omega
  | ⟨1, _⟩ => show win0_10.index t (1 : Fin 2) * 5 + 1 * q.val = q.val; omega
theorem emb11 (t : Fin cfg0.N) (p : Fin 5) (q : Fin 1) : ((cfg0.win 11).blk t).view.emb (ix2 p q) = ix2 p q := by
  obtain ⟨e0, e1⟩ := at11 t
  funext a; apply Fin.ext
  match a with
  | ⟨0, _⟩ => show win0_11.index t (0 : Fin 2) * 5 + 1 * p.val = p.val; omega
  | ⟨1, _⟩ => show win0_11.index t (1 : Fin 2) * 1 + 1 * q.val = q.val; omega
theorem emb12 (t : Fin cfg0.N) (p : Fin 5) (q : Fin 1) : ((cfg0.win 12).blk t).view.emb (ix2 p q) = ix2 p q := by
  obtain ⟨e0, e1⟩ := at12 t
  funext a; apply Fin.ext
  match a with
  | ⟨0, _⟩ => show win0_12.index t (0 : Fin 2) * 5 + 1 * p.val = p.val; omega
  | ⟨1, _⟩ => show win0_12.index t (1 : Fin 2) * 1 + 1 * q.val = q.val; omega
theorem emb13 (t : Fin cfg0.N) (p : Fin 1) (q : Fin 1) : ((cfg0.win 13).blk t).view.emb (ix2 p q) = ix2 p q := by
  obtain ⟨e0, e1⟩ := at13 t
  funext a; apply Fin.ext
  match a with
  | ⟨0, _⟩ => show win0_13.index t (0 : Fin 2) * 1 + 1 * p.val = p.val; omega
  | ⟨1, _⟩ => show win0_13.index t (1 : Fin 2) * 1 + 1 * q.val = q.val; omega
theorem emb14 (t : Fin cfg0.N) (p : Fin 5) (q : Fin 1) : ((cfg0.win 14).blk t).view.emb (ix2 p q) = ix2 p q := by
  obtain ⟨e0, e1⟩ := at14 t
  funext a; apply Fin.ext
  match a with
  | ⟨0, _⟩ => show win0_14.index t (0 : Fin 2) * 5 + 1 * p.val = p.val; omega
  | ⟨1, _⟩ => show win0_14.index t (1 : Fin 2) * 1 + 1 * q.val = q.val; omega
theorem emb15 (t : Fin cfg0.N) (p : Fin 5) (q : Fin 1) : ((cfg0.win 15).blk t).view.emb (ix2 p q) = ix2 p q := by
  obtain ⟨e0, e1⟩ := at15 t
  funext a; apply Fin.ext
  match a with
  | ⟨0, _⟩ => show win0_15.index t (0 : Fin 2) * 5 + 1 * p.val = p.val; omega
  | ⟨1, _⟩ => show win0_15.index t (1 : Fin 2) * 1 + 1 * q.val = q.val; omega

/-! ## What each input block holds -/

variable (c : Dev nD) (t : Fin cfg0.N)

theorem blk_x (b : Fin 2048) (d : Fin 1024) : iblk m c 0 t (ix2 b d) = ((args m c).row (rowOf t b)).x d := by
  show V m c main_arg0 (((cfg0.win 0).blk t).view.emb (ix2 b d)) = _
  rw [emb0, V_main_arg0]; rfl
theorem blk_h (k : Fin 8) (b : Fin 2048) : iblk m c 1 t (ix2 k b) = ((args m c).row (rowOf t b)).h k := by
  show V m c main_v52 (((cfg0.win 1).blk t).view.emb (ix2 k b)) = _
  rw [emb1, V_eq_pre]; exact Cert.KerPrefix.v52 m c k (rowOf t b)
theorem blk_c (k : Fin 8) (b : Fin 2048) : iblk m c 2 t (ix2 k b) = ((args m c).row (rowOf t b)).c k := by
  show V m c main_v54 (((cfg0.win 2).blk t).view.emb (ix2 k b)) = _
  rw [emb2, V_eq_pre]; exact Cert.KerPrefix.v54 m c k (rowOf t b)
theorem blk_z (b : Fin 2048) : iblk m c 3 t (ix2 0 b) = ((args m c).row (rowOf t b)).z := by
  show V m c main_v55 (((cfg0.win 3).blk t).view.emb (ix2 0 b)) = _
  rw [emb3, V_eq_pre]; exact Cert.KerPrefix.v55 m c (rowOf t b)
theorem blk_wx (g : Fin 4) (d : Fin 1024) (j : Fin 8) : iblk m c 4 t (ix2 d (cat g j)) = (args m c).weights.Wx g d j * (args m c).weights.mx g d := by
  show V m c main_v40 (((cfg0.win 4).blk t).view.emb (ix2 d (cat g j))) = _
  rw [emb4, V_eq_pre]; exact Cert.KerPrefix.v40 m c g d j
theorem blk_wh (g : Fin 4) (k j : Fin 8) : iblk m c 5 t (ix2 k (cat g j)) = (args m c).weights.Wh g k j := by
  show V m c main_v41 (((cfg0.win 5).blk t).view.emb (ix2 k (cat g j))) = _
  rw [emb5, V_eq_pre]; exact Cert.KerPrefix.v41 m c g k j
theorem blk_wz (g : Fin 4) (j : Fin 8) : iblk m c 6 t (ix2 (cat g j) 0) = (args m c).weights.Wz g j * (args m c).weights.mz g := by
  show V m c main_v44 (((cfg0.win 6).blk t).view.emb (ix2 (cat g j) 0)) = _
  rw [emb6, V_eq_pre]; exact Cert.KerPrefix.v44 m c g j
theorem blk_b (g : Fin 4) (j : Fin 8) : iblk m c 7 t (ix2 (cat g j) 0) = (args m c).weights.bg g j := by
  show V m c main_v45 (((cfg0.win 7).blk t).view.emb (ix2 (cat g j) 0)) = _
  rw [emb7, V_eq_pre]; exact Cert.KerPrefix.v45 m c g j
theorem blk_wd1 (k : Fin 8) (f : Fin 5) : iblk m c 8 t (ix2 k f) = (args m c).weights.Wd1 k f := by
  show V m c main_arg20 (((cfg0.win 8).blk t).view.emb (ix2 k f)) = _
  rw [emb8, V_main_arg20]; rfl
theorem blk_bd1 (f : Fin 5) : iblk m c 9 t (ix2 f 0) = (args m c).weights.bd1 f := by
  show V m c main_v46 (((cfg0.win 9).blk t).view.emb (ix2 f 0)) = _
  rw [emb9, V_eq_pre]; exact Cert.KerPrefix.v46 m c f
theorem blk_wd2 (k f : Fin 5) : iblk m c 10 t (ix2 k f) = (args m c).weights.Wd2 k f := by
  show V m c main_arg22 (((cfg0.win 10).blk t).view.emb (ix2 k f)) = _
  rw [emb10, V_main_arg22]; rfl
theorem blk_bd2 (f : Fin 5) : iblk m c 11 t (ix2 f 0) = (args m c).weights.bd2 f := by
  show V m c main_v47 (((cfg0.win 11).blk t).view.emb (ix2 f 0)) = _
  rw [emb11, V_eq_pre]; exact Cert.KerPrefix.v47 m c f
theorem blk_wd3 (k : Fin 5) : iblk m c 12 t (ix2 k 0) = (args m c).weights.Wd3 k := by
  show V m c main_arg24 (((cfg0.win 12).blk t).view.emb (ix2 k 0)) = _
  rw [emb12, V_main_arg24]; rfl
theorem blk_bd3 : iblk m c 13 t (ix2 0 0) = (args m c).weights.bd3 := by
  show V m c main_v48 (((cfg0.win 13).blk t).view.emb (ix2 0 0)) = _
  rw [emb13, V_eq_pre]; exact Cert.KerPrefix.v48 m c
theorem blk_m1 (f : Fin 5) : iblk m c 14 t (ix2 f 0) = (args m c).weights.m1 f := by
  show V m c main_v49 (((cfg0.win 14).blk t).view.emb (ix2 f 0)) = _
  rw [emb14, V_eq_pre]; exact Cert.KerPrefix.v49 m c f
theorem blk_m2 (f : Fin 5) : iblk m c 15 t (ix2 f 0) = (args m c).weights.m2 f := by
  show V m c main_v50 (((cfg0.win 15).blk t).view.emb (ix2 f 0)) = _
  rw [emb15, V_eq_pre]; exact Cert.KerPrefix.v50 m c f

/-! ## What point `t` writes back is block `t` of the specification's unit-major results -/

theorem flushedH : (dats m 0 c).flushed 17 t = ((cfg0.win 17).blk t).view.read (Elt Ideal) (GH (args m c)) := by
  show (cfg0.win 17).cut (grid0.coords t) ((dats m 0 c).after 17 t) = _
  rw [after17]
  unfold outH
  rw [View.canon_unit_zero origin2]
  simp only [View.ld_unit_zero (S := S2048x1024) origin2, View.ld_unit_zero (S := S8x2048) origin2, View.ld_unit_zero (S := S1x2048) origin2, View.ld_unit_zero (S := S1024x32) origin2, View.ld_unit_zero (S := S8x32) origin2, View.ld_unit_zero (S := S32x1) origin2, View.ld_unit_zero (S := S8x5) origin2, View.ld_unit_zero (S := S5x1) origin2, View.ld_unit_zero (S := S5x5) origin2, View.ld_unit_zero (S := S1x1) origin2]
  funext y
  obtain ⟨j, b, rfl⟩ : ∃ (j : Fin 8) (b : Fin 2048), y = ix2 j b := ⟨y 0, y 1, eq_ix2 y⟩
  refine (pay_h (args m c).weights (fun b => (args m c).row (rowOf t b)) (iblk m c 0 t) (iblk m c 1 t) (iblk m c 2 t) (iblk m c 3 t) (iblk m c 4 t) (iblk m c 5 t) (iblk m c 6 t) (iblk m c 7 t) (blk_x m c t) (blk_h m c t) (blk_c m c t) (blk_z m c t) (blk_wx m c t) (blk_wh m c t) (blk_wz m c t) (blk_b m c t) j b).trans ?_
  show _ = GH (args m c) (((cfg0.win 17).blk t).view.emb (ix2 j b))
  rw [emb17]; rfl

theorem flushedC : (dats m 0 c).flushed 18 t = ((cfg0.win 18).blk t).view.read (Elt Ideal) (GC (args m c)) := by
  show (cfg0.win 18).cut (grid0.coords t) ((dats m 0 c).after 18 t) = _
  rw [after18]
  unfold outC
  rw [View.canon_unit_zero origin2]
  simp only [View.ld_unit_zero (S := S2048x1024) origin2, View.ld_unit_zero (S := S8x2048) origin2, View.ld_unit_zero (S := S1x2048) origin2, View.ld_unit_zero (S := S1024x32) origin2, View.ld_unit_zero (S := S8x32) origin2, View.ld_unit_zero (S := S32x1) origin2, View.ld_unit_zero (S := S8x5) origin2, View.ld_unit_zero (S := S5x1) origin2, View.ld_unit_zero (S := S5x5) origin2, View.ld_unit_zero (S := S1x1) origin2]
  funext y
  obtain ⟨j, b, rfl⟩ : ∃ (j : Fin 8) (b : Fin 2048), y = ix2 j b := ⟨y 0, y 1, eq_ix2 y⟩
  refine (pay_c (args m c).weights (fun b => (args m c).row (rowOf t b)) (iblk m c 0 t) (iblk m c 1 t) (iblk m c 2 t) (iblk m c 3 t) (iblk m c 4 t) (iblk m c 5 t) (iblk m c 6 t) (iblk m c 7 t) (blk_x m c t) (blk_h m c t) (blk_c m c t) (blk_z m c t) (blk_wx m c t) (blk_wh m c t) (blk_wz m c t) (blk_b m c t) j b).trans ?_
  show _ = GC (args m c) (((cfg0.win 18).blk t).view.emb (ix2 j b))
  rw [emb18]; rfl

theorem flushedZ : (dats m 0 c).flushed 16 t = ((cfg0.win 16).blk t).view.read (Elt Ideal) (GZ (args m c)) := by
  show (cfg0.win 16).cut (grid0.coords t) ((dats m 0 c).after 16 t) = _
  rw [after16]
  unfold outZ
  rw [View.canon_unit_zero origin2]
  simp only [View.ld_unit_zero (S := S2048x1024) origin2, View.ld_unit_zero (S := S8x2048) origin2, View.ld_unit_zero (S := S1x2048) origin2, View.ld_unit_zero (S := S1024x32) origin2, View.ld_unit_zero (S := S8x32) origin2, View.ld_unit_zero (S := S32x1) origin2, View.ld_unit_zero (S := S8x5) origin2, View.ld_unit_zero (S := S5x1) origin2, View.ld_unit_zero (S := S5x5) origin2, View.ld_unit_zero (S := S1x1) origin2]
  funext y
  obtain ⟨z, b, rfl⟩ : ∃ (z : Fin 1) (b : Fin 2048), y = ix2 z b := ⟨y 0, y 1, eq_ix2 y⟩
  obtain rfl : z = 0 := Subsingleton.elim _ _
  refine (pay_z (args m c).weights (fun b => (args m c).row (rowOf t b)) (iblk m c 0 t) (iblk m c 1 t) (iblk m c 2 t) (iblk m c 3 t) (iblk m c 4 t) (iblk m c 5 t) (iblk m c 6 t) (iblk m c 7 t) (iblk m c 8 t) (iblk m c 9 t) (iblk m c 14 t) (iblk m c 11 t) (iblk m c 15 t) (iblk m c 12 t) (iblk m c 10 t) (iblk m c 13 t)
    (blk_x m c t) (blk_h m c t) (blk_c m c t) (blk_z m c t) (blk_wx m c t) (blk_wh m c t) (blk_wz m c t) (blk_b m c t) (blk_wd1 m c t) (blk_bd1 m c t) (blk_m1 m c t) (blk_wd2 m c t) (blk_bd2 m c t) (blk_m2 m c t) (blk_wd3 m c t) (blk_bd3 m c t) b).trans ?_
  show _ = GZ (args m c) (((cfg0.win 16).blk t).view.emb (ix2 0 b))
  rw [emb16]; rfl

end Cert.KerCell

end
-- ==== Proof.ArraysIdeal.lean ====
/-
  The three result arrays of the idealized kernel, whole. Batch row `r` belongs to grid point `r / 2048`, so the 32
  blocks of each unit-major result cover its array, and each array ends holding the specification's unit-major result. The
  program then transposes the three arrays; a transposed entry `(r, j)` is the unit-major entry `(j, r)`, which is the
  specification's batch-major result. So every weakly fair execution ends with the three results at the specification's
  advanced scalar, new hidden state and new cell state of the argument arrays, and the arguments unchanged.
-/
import proofs.«160326_j16810501997190_2_alg».proof.Proof.BlocksIdeal

set_option maxRecDepth 16384

noncomputable section

namespace Cert.KerCell

open Cert.KernelIdeal Cert.KernelIdeal.Gen Cert.KernelIdeal.GenP Cert.KernelIdeal.Hand Cert.CellSpec
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-! ## The blocks cover the arrays -/

/-- The grid point that handles batch row `r`. -/
def pointOf (r : Fin 65536) : Fin cfg0.N := ⟨r.val / 2048, lt_of_lt_of_eq (by have := r.isLt; omega : r.val / 2048 < 32) N32.symm⟩

theorem pointOf_val (r : Fin 65536) : (pointOf r).val = r.val / 2048 := rfl

/-- An index of the scalar's array is in point `t`'s block iff each coordinate is in the block's range on its axis. -/
theorem mem_blkZ (t : Fin cfg0.N) (i : S1x65536.Idx) :
    i ∈ ((cfg0.win 16).blk t).view.set ↔ ∀ a : Fin 2, win0_16.index t a * S1x2048.size a ≤ (i a).val ∧ (i a).val < win0_16.index t a * S1x2048.size a + S1x2048.size a := by
  show i ∈ ((View.whole main_v56_0).slice (win0_16.rect t)).set ↔ _
  rw [View.set_slice_whole, Rect.mem_set_unit]
  exact Iff.rfl

theorem mem_blkH (t : Fin cfg0.N) (i : S8x65536.Idx) :
    i ∈ ((cfg0.win 17).blk t).view.set ↔ ∀ a : Fin 2, win0_17.index t a * S8x2048.size a ≤ (i a).val ∧ (i a).val < win0_17.index t a * S8x2048.size a + S8x2048.size a := by
  show i ∈ ((View.whole main_v56_1).slice (win0_17.rect t)).set ↔ _
  rw [View.set_slice_whole, Rect.mem_set_unit]
  exact Iff.rfl

theorem mem_blkC (t : Fin cfg0.N) (i : S8x65536.Idx) :
    i ∈ ((cfg0.win 18).blk t).view.set ↔ ∀ a : Fin 2, win0_18.index t a * S8x2048.size a ≤ (i a).val ∧ (i a).val < win0_18.index t a * S8x2048.size a + S8x2048.size a := by
  show i ∈ ((View.whole main_v56_2).slice (win0_18.rect t)).set ↔ _
  rw [View.set_slice_whole, Rect.mem_set_unit]
  exact Iff.rfl

/-- Every entry of the scalar's array lies in the block of the point that handles its batch row. -/
theorem coverZ (i : S1x65536.Idx) : ∃ t : Fin cfg0.N, (cfg0.win 16).flush t = true ∧ i ∈ ((cfg0.win 16).blk t).view.set := by
  refine ⟨pointOf (i 1), flush0_16 _, ?_⟩
  rw [mem_blkZ]
  obtain ⟨e0, e1⟩ := at16 (pointOf (i 1))
  have hp := pointOf_val (i 1)
  have h0 : (i 0).val < 1 := (i 0).isLt
  have h1 : (i 1).val < 65536 := (i 1).isLt
  intro a
  match a with
  | ⟨0, _⟩ => show win0_16.index (pointOf (i 1)) (0 : Fin 2) * 1 ≤ (i 0).val ∧ (i 0).val < win0_16.index (pointOf (i 1)) (0 : Fin 2) * 1 + 1; omega
  | ⟨1, _⟩ => show win0_16.index (pointOf (i 1)) (1 : Fin 2) * 2048 ≤ (i 1).val ∧ (i 1).val < win0_16.index (pointOf (i 1)) (1 : Fin 2) * 2048 + 2048; omega

theorem coverH (i : S8x65536.Idx) : ∃ t : Fin cfg0.N, (cfg0.win 17).flush t = true ∧ i ∈ ((cfg0.win 17).blk t).view.set := by
  refine ⟨pointOf (i 1), flush0_17 _, ?_⟩
  rw [mem_blkH]
  obtain ⟨e0, e1⟩ := at17 (pointOf (i 1))
  have hp := pointOf_val (i 1)
  have h0 : (i 0).val < 8 := (i 0).isLt
  have h1 : (i 1).val < 65536 := (i 1).isLt
  intro a
  match a with
  | ⟨0, _⟩ => show win0_17.index (pointOf (i 1)) (0 : Fin 2) * 8 ≤ (i 0).val ∧ (i 0).val < win0_17.index (pointOf (i 1)) (0 : Fin 2) * 8 + 8; omega
  | ⟨1, _⟩ => show win0_17.index (pointOf (i 1)) (1 : Fin 2) * 2048 ≤ (i 1).val ∧ (i 1).val < win0_17.index (pointOf (i 1)) (1 : Fin 2) * 2048 + 2048; omega

theorem coverC (i : S8x65536.Idx) : ∃ t : Fin cfg0.N, (cfg0.win 18).flush t = true ∧ i ∈ ((cfg0.win 18).blk t).view.set := by
  refine ⟨pointOf (i 1), flush0_18 _, ?_⟩
  rw [mem_blkC]
  obtain ⟨e0, e1⟩ := at18 (pointOf (i 1))
  have hp := pointOf_val (i 1)
  have h0 : (i 0).val < 8 := (i 0).isLt
  have h1 : (i 1).val < 65536 := (i 1).isLt
  intro a
  match a with
  | ⟨0, _⟩ => show win0_18.index (pointOf (i 1)) (0 : Fin 2) * 8 ≤ (i 0).val ∧ (i 0).val < win0_18.index (pointOf (i 1)) (0 : Fin 2) * 8 + 8; omega
  | ⟨1, _⟩ => show win0_18.index (pointOf (i 1)) (1 : Fin 2) * 2048 ≤ (i 1).val ∧ (i 1).val < win0_18.index (pointOf (i 1)) (1 : Fin 2) * 2048 + 2048; omega

/-! ## The arrays after the grid -/

variable (c : Dev nD)

/-- The scalar's array ends holding the specification's unit-major advanced scalar. -/
theorem finalZ : (dats m 0 c).arrAt 16 cfg0.N = GZ (args m c) :=
  (dats m 0 c).arrAt_eq_of_cover 16 (GZ (args m c)) (fun t _ => flushedZ m c t) coverZ

/-- The hidden state's array ends holding the specification's unit-major new hidden state. -/
theorem finalH : (dats m 0 c).arrAt 17 cfg0.N = GH (args m c) :=
  (dats m 0 c).arrAt_eq_of_cover 17 (GH (args m c)) (fun t _ => flushedH m c t) coverH

/-- The cell state's array ends holding the specification's unit-major new cell state. -/
theorem finalC : (dats m 0 c).arrAt 18 cfg0.N = GC (args m c) :=
  (dats m 0 c).arrAt_eq_of_cover 18 (GC (args m c)) (fun t _ => flushedC m c t) coverC

/-! ## The closing transposes -/

/-- The first result: entry `(r, 0)` of the transposed scalar's array is the advanced scalar of batch row `r`. -/
theorem tailZ : Pipeline.afterTail₀ cfgs (dats m) 0 (V0 m) [hostOps1] c main_v57 = (args m c).zt := by
  unfold Pipeline.afterTail₀
  show StableHlo.after hostOps1 _ (Proc.devRef .tc main_v57) = _
  after_results
  rw [(Pipeline.withArrays_arr spec0 launch0.win.arr_inj c _ _ 16).trans (finalZ m c)]
  funext i
  obtain ⟨r, z, rfl⟩ : ∃ (r : Fin 65536) (z : Fin 1), i = ix2 r z := ⟨i 0, i 1, eq_ix2 i⟩
  exact transpose_ix2_apply _ _ r z

/-- The second result: entry `(r, j)` of the transposed hidden state's array is unit `j` of batch row `r`'s new hidden state. -/
theorem tailH : Pipeline.afterTail₀ cfgs (dats m) 0 (V0 m) [hostOps1] c main_v58 = (args m c).ht := by
  unfold Pipeline.afterTail₀
  show StableHlo.after hostOps1 _ (Proc.devRef .tc main_v58) = _
  after_results
  rw [(Pipeline.withArrays_arr spec0 launch0.win.arr_inj c _ _ 17).trans (finalH m c)]
  funext i
  obtain ⟨r, j, rfl⟩ : ∃ (r : Fin 65536) (j : Fin 8), i = ix2 r j := ⟨i 0, i 1, eq_ix2 i⟩
  exact transpose_ix2_apply _ _ r j

/-- The third result: entry `(r, j)` of the transposed cell state's array is unit `j` of batch row `r`'s new cell state. -/
theorem tailC : Pipeline.afterTail₀ cfgs (dats m) 0 (V0 m) [hostOps1] c main_v59 = (args m c).ct := by
  unfold Pipeline.afterTail₀
  show StableHlo.after hostOps1 _ (Proc.devRef .tc main_v59) = _
  after_results
  rw [(Pipeline.withArrays_arr spec0 launch0.win.arr_inj c _ _ 18).trans (finalC m c)]
  funext i
  obtain ⟨r, j, rfl⟩ : ∃ (r : Fin 65536) (j : Fin 8), i = ix2 r j := ⟨i 0, i 1, eq_ix2 i⟩
  exact transpose_ix2_apply _ _ r j

/-! ## The run -/

/-- The idealized kernel's run: the three results are the specification's functions of the arguments, the arguments
    unchanged. -/
theorem run : θ_run defs (onTc (τ := τ) (main (F := Ideal))) ⟨m, fun _ => 0, ρ⟩ (fun r => ∀ c : Dev nD,
      r.2.mem ((c.tc : Thread nD τ).loc main_v57) = (args m c).zt
      ∧ r.2.mem ((c.tc : Thread nD τ).loc main_v58) = (args m c).ht
      ∧ r.2.mem ((c.tc : Thread nD τ).loc main_v59) = (args m c).ct
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  (θ_run defs _ _).mono (fun _ h c => ⟨
    ((h c).2 main_v57 (Pipeline.mem_restRefs_of main_v57 (by decide) (by decide))).trans (tailZ m c),
    ((h c).2 main_v58 (Pipeline.mem_restRefs_of main_v58 (by decide) (by decide))).trans (tailH m c),
    ((h c).2 main_v59 (Pipeline.mem_restRefs_of main_v59 (by decide) (by decide))).trans (tailC m c),
    ((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c),
    ((h c).2 main_arg10 (Pipeline.mem_restRefs_of main_arg10 (by decide) (by decide))).trans (W_main_arg10 m (dats m) c),
    ((h c).2 main_arg11 (Pipeline.mem_restRefs_of main_arg11 (by decide) (by decide))).trans (W_main_arg11 m (dats m) c),
    ((h c).2 main_arg12 (Pipeline.mem_restRefs_of main_arg12 (by decide) (by decide))).trans (W_main_arg12 m (dats m) c),
    ((h c).2 main_arg13 (Pipeline.mem_restRefs_of main_arg13 (by decide) (by decide))).trans (W_main_arg13 m (dats m) c),
    ((h c).2 main_arg14 (Pipeline.mem_restRefs_of main_arg14 (by decide) (by decide))).trans (W_main_arg14 m (dats m) c),
    ((h c).2 main_arg15 (Pipeline.mem_restRefs_of main_arg15 (by decide) (by decide))).trans (W_main_arg15 m (dats m) c),
    ((h c).2 main_arg16 (Pipeline.mem_restRefs_of main_arg16 (by decide) (by decide))).trans (W_main_arg16 m (dats m) c),
    ((h c).2 main_arg17 (Pipeline.mem_restRefs_of main_arg17 (by decide) (by decide))).trans (W_main_arg17 m (dats m) c),
    ((h c).2 main_arg18 (Pipeline.mem_restRefs_of main_arg18 (by decide) (by decide))).trans (W_main_arg18 m (dats m) c),
    ((h c).2 main_arg19 (Pipeline.mem_restRefs_of main_arg19 (by decide) (by decide))).trans (W_main_arg19 m (dats m) c),
    ((h c).1 8).trans (((dats m 0 c).arrAt_in 8 rfl _).trans ((A_eq m c 8).trans (V_main_arg20 m c))),
    ((h c).2 main_arg21 (Pipeline.mem_restRefs_of main_arg21 (by decide) (by decide))).trans (W_main_arg21 m (dats m) c),
    ((h c).1 10).trans (((dats m 0 c).arrAt_in 10 rfl _).trans ((A_eq m c 10).trans (V_main_arg22 m c))),
    ((h c).2 main_arg23 (Pipeline.mem_restRefs_of main_arg23 (by decide) (by decide))).trans (W_main_arg23 m (dats m) c),
    ((h c).1 12).trans (((dats m 0 c).arrAt_in 12 rfl _).trans ((A_eq m c 12).trans (V_main_arg24 m c))),
    ((h c).2 main_arg25 (Pipeline.mem_restRefs_of main_arg25 (by decide) (by decide))).trans (W_main_arg25 m (dats m) c),
    ((h c).2 main_arg26 (Pipeline.mem_restRefs_of main_arg26 (by decide) (by decide))).trans (W_main_arg26 m (dats m) c),
    ((h c).2 main_arg27 (Pipeline.mem_restRefs_of main_arg27 (by decide) (by decide))).trans (W_main_arg27 m (dats m) c),
    ((h c).2 main_arg28 (Pipeline.mem_restRefs_of main_arg28 (by decide) (by decide))).trans (W_main_arg28 m (dats m) c),
    ((h c).2 main_arg29 (Pipeline.mem_restRefs_of main_arg29 (by decide) (by decide))).trans (W_main_arg29 m (dats m) c)⟩) (run_main m ρ)

end Cert.KerCell

end
-- ==== Proof.RefCellMask.lean ====
/-
  The reference's layout stages read at an index: the masked input and the masked scalar of each gate, the previous
  hidden and cell states, and the broadcast biases.

  The reference forms the masked inputs of all four gates at once as a [4, 65536, 1024] array (the input broadcast over the
  gate axis times the mask broadcast over the batch axis), then takes gate g's slab [g, :, :] and reshapes it to
  [65536, 1024]: entry (r, d) of gate g's masked input is x[r, d] · mx[g, d]. The masked scalar is formed the same way
  from z : [65536, 1] and mz : [4, 1]: entry (r, 0) is z[r, 0] · mz[g, 0]. The previous states arrive as [1, 65536, 8] and
  are reshaped to [65536, 8]; a bias [8] is broadcast to [65536, 8].
-/
import proofs.«160326_j16810501997190_2_alg».proof.Proof.Gen.ReferenceIdeal.Read

noncomputable section

namespace Cert.RefCell

open Cert.ReferenceIdeal Cert.ReferenceIdeal.Read Idealize.ShloMosaic Idealize.ShloMosaic.ValueIdx

/-- Row-major position (r, d) of a [65536, 1024] array, divided back into its coordinates. -/
private theorem split1024 (r d : Nat) (hd : d < 1024) (hr : r < 65536) :
    (r * 1024 + d) / 1024 % 65536 = r ∧ (r * 1024 + d) % 1024 = d := by omega

/-- Row-major position (r, k) of a [65536, 8] array, divided back into its coordinates. -/
private theorem split8 (r k : Nat) (hk : k < 8) (hr : r < 65536) :
    (r * 8 + k) / 8 % 65536 = r ∧ (r * 8 + k) % 8 = k := by omega

/-- Row-major position (r, 0) of a [65536, 1] array, divided back into its coordinates. -/
private theorem split1 (r : Nat) (hr : r < 65536) : (r * 1 + 0) / 1 % 65536 = r := by omega

/-- Gate 0's masked input at (r, d) is x[r, d] · mx[0, d]. -/
theorem xmask0 (x0 : (⟨S65536x1024, .f32⟩ : BufTy).Contents (Elt Ideal)) (x26 : (⟨S4x1024, .f32⟩ : BufTy).Contents (Elt Ideal)) (r : Fin 65536) (d : Fin 1024) :
    val_main_v13 (F := Ideal) x0 x26 (ix2 r d) = x0 (ix2 r d) * x26 (ix2 0 d) := by
  rw [val_main_v13_apply, val_main_v12_apply, val_main_v6_apply, val_main_v4_apply, val_main_v5_apply,
    val_main_v2_apply, val_main_v3_apply]
  have h := split1024 r.val d.val d.isLt r.isLt
  have e1 : idx_main_v2 (idx_main_v4 (idx_main_v12 (idx_main_v13 (ix2 r d)))) = ix2 r d := by
    funext a
    match a with
    | ⟨0, _⟩ => exact Fin.ext h.1
    | ⟨1, _⟩ => exact Fin.ext h.2
  have e2 : idx_main_v3 (idx_main_v5 (idx_main_v12 (idx_main_v13 (ix2 r d)))) = ix2 0 d := by
    funext a
    match a with
    | ⟨0, _⟩ => exact Fin.ext rfl
    | ⟨1, _⟩ => exact Fin.ext h.2
  rw [e1, e2]
  rfl

/-- Gate 0's masked scalar at (r, 0) is z[r, 0] · mz[0, 0]. -/
theorem zmask0 (x3 : (⟨S65536x1, .f32⟩ : BufTy).Contents (Elt Ideal)) (x27 : (⟨S4x1, .f32⟩ : BufTy).Contents (Elt Ideal)) (r : Fin 65536) :
    val_main_v18 (F := Ideal) x3 x27 (ix2 r 0) = x3 (ix2 r 0) * x27 (ix2 0 0) := by
  rw [val_main_v18_apply, val_main_v17_apply, val_main_v11_apply, val_main_v9_apply, val_main_v10_apply,
    val_main_v7_apply, val_main_v8_apply]
  have h := split1 r.val r.isLt
  have e1 : idx_main_v7 (idx_main_v9 (idx_main_v17 (idx_main_v18 (ix2 r 0)))) = ix2 r 0 := by
    funext a
    match a with
    | ⟨0, _⟩ => exact Fin.ext h
    | ⟨1, _⟩ => exact Fin.ext rfl
  have e2 : idx_main_v8 (idx_main_v10 (idx_main_v17 (idx_main_v18 (ix2 r 0)))) = ix2 0 0 := by
    funext a
    match a with
    | ⟨0, _⟩ => exact Fin.ext rfl
    | ⟨1, _⟩ => exact Fin.ext rfl
  rw [e1, e2]
  rfl

/-- Gate 0's bias, broadcast over the batch: entry (r, j) is b[j]. -/
theorem bias0 (x16 : (⟨S8, .f32⟩ : BufTy).Contents (Elt Ideal)) (r : Fin 65536) (j : Fin 8) :
    val_main_v22 (F := Ideal) x16 (ix2 r j) = x16 (ix1 j) := by
  rw [val_main_v22_apply, val_main_v21_apply]
  have e : idx_main_v21 (idx_main_v22 (ix2 r j)) = ix1 j := by
    funext a
    match a with
    | ⟨0, _⟩ => rfl
  rw [e]

/-- Gate 1's masked input at (r, d) is x[r, d] · mx[1, d]. -/
theorem xmask1 (x0 : (⟨S65536x1024, .f32⟩ : BufTy).Contents (Elt Ideal)) (x26 : (⟨S4x1024, .f32⟩ : BufTy).Contents (Elt Ideal)) (r : Fin 65536) (d : Fin 1024) :
    val_main_v25 (F := Ideal) x0 x26 (ix2 r d) = x0 (ix2 r d) * x26 (ix2 1 d) := by
  rw [val_main_v25_apply, val_main_v24_apply, val_main_v6_apply, val_main_v4_apply, val_main_v5_apply,
    val_main_v2_apply, val_main_v3_apply]
  have h := split1024 r.val d.val d.isLt r.isLt
  have e1 : idx_main_v2 (idx_main_v4 (idx_main_v24 (idx_main_v25 (ix2 r d)))) = ix2 r d := by
    funext a
    match a with
    | ⟨0, _⟩ => exact Fin.ext h.1
    | ⟨1, _⟩ => exact Fin.ext h.2
  have e2 : idx_main_v3 (idx_main_v5 (idx_main_v24 (idx_main_v25 (ix2 r d)))) = ix2 1 d := by
    funext a
    match a with
    | ⟨0, _⟩ => exact Fin.ext rfl
    | ⟨1, _⟩ => exact Fin.ext h.2
  rw [e1, e2]
  rfl

/-- Gate 1's masked scalar at (r, 0) is z[r, 0] · mz[1, 0]. -/
theorem zmask1 (x3 : (⟨S65536x1, .f32⟩ : BufTy).Contents (Elt Ideal)) (x27 : (⟨S4x1, .f32⟩ : BufTy).Contents (Elt Ideal)) (r : Fin 65536) :
    val_main_v30 (F := Ideal) x3 x27 (ix2 r 0) = x3 (ix2 r 0) * x27 (ix2 1 0) := by
  rw [val_main_v30_apply, val_main_v29_apply, val_main_v11_apply, val_main_v9_apply, val_main_v10_apply,
    val_main_v7_apply, val_main_v8_apply]
  have h := split1 r.val r.isLt
  have e1 : idx_main_v7 (idx_main_v9 (idx_main_v29 (idx_main_v30 (ix2 r 0)))) = ix2 r 0 := by
    funext a
    match a with
    | ⟨0, _⟩ => exact Fin.ext h
    | ⟨1, _⟩ => exact Fin.ext rfl
  have e2 : idx_main_v8 (idx_main_v10 (idx_main_v29 (idx_main_v30 (ix2 r 0)))) = ix2 1 0 := by
    funext a
    match a with
    | ⟨0, _⟩ => exact Fin.ext rfl
    | ⟨1, _⟩ => exact Fin.ext rfl
  rw [e1, e2]
  rfl

/-- Gate 1's bias, broadcast over the batch: entry (r, j) is b[j]. -/
theorem bias1 (x17 : (⟨S8, .f32⟩ : BufTy).Contents (Elt Ideal)) (r : Fin 65536) (j : Fin 8) :
    val_main_v34 (F := Ideal) x17 (ix2 r j) = x17 (ix1 j) := by
  rw [val_main_v34_apply, val_main_v33_apply]
  have e : idx_main_v33 (idx_main_v34 (ix2 r j)) = ix1 j := by
    funext a
    match a with
    | ⟨0, _⟩ => rfl
  rw [e]

/-- Gate 2's masked input at (r, d) is x[r, d] · mx[2, d]. -/
theorem xmask2 (x0 : (⟨S65536x1024, .f32⟩ : BufTy).Contents (Elt Ideal)) (x26 : (⟨S4x1024, .f32⟩ : BufTy).Contents (Elt Ideal)) (r : Fin 65536) (d : Fin 1024) :
    val_main_v37 (F := Ideal) x0 x26 (ix2 r d) = x0 (ix2 r d) * x26 (ix2 2 d) := by
  rw [val_main_v37_apply, val_main_v36_apply, val_main_v6_apply, val_main_v4_apply, val_main_v5_apply,
    val_main_v2_apply, val_main_v3_apply]
  have h := split1024 r.val d.val d.isLt r.isLt
  have e1 : idx_main_v2 (idx_main_v4 (idx_main_v36 (idx_main_v37 (ix2 r d)))) = ix2 r d := by
    funext a
    match a with
    | ⟨0, _⟩ => exact Fin.ext h.1
    | ⟨1, _⟩ => exact Fin.ext h.2
  have e2 : idx_main_v3 (idx_main_v5 (idx_main_v36 (idx_main_v37 (ix2 r d)))) = ix2 2 d := by
    funext a
    match a with
    | ⟨0, _⟩ => exact Fin.ext rfl
    | ⟨1, _⟩ => exact Fin.ext h.2
  rw [e1, e2]
  rfl

/-- Gate 2's masked scalar at (r, 0) is z[r, 0] · mz[2, 0]. -/
theorem zmask2 (x3 : (⟨S65536x1, .f32⟩ : BufTy).Contents (Elt Ideal)) (x27 : (⟨S4x1, .f32⟩ : BufTy).Contents (Elt Ideal)) (r : Fin 65536) :
    val_main_v42 (F := Ideal) x3 x27 (ix2 r 0) = x3 (ix2 r 0) * x27 (ix2 2 0) := by
  rw [val_main_v42_apply, val_main_v41_apply, val_main_v11_apply, val_main_v9_apply, val_main_v10_apply,
    val_main_v7_apply, val_main_v8_apply]
  have h := split1 r.val r.isLt
  have e1 : idx_main_v7 (idx_main_v9 (idx_main_v41 (idx_main_v42 (ix2 r 0)))) = ix2 r 0 := by
    funext a
    match a with
    | ⟨0, _⟩ => exact Fin.ext h
    | ⟨1, _⟩ => exact Fin.ext rfl
  have e2 : idx_main_v8 (idx_main_v10 (idx_main_v41 (idx_main_v42 (ix2 r 0)))) = ix2 2 0 := by
    funext a
    match a with
    | ⟨0, _⟩ => exact Fin.ext rfl
    | ⟨1, _⟩ => exact Fin.ext rfl
  rw [e1, e2]
  rfl

/-- Gate 2's bias, broadcast over the batch: entry (r, j) is b[j]. -/
theorem bias2 (x18 : (⟨S8, .f32⟩ : BufTy).Contents (Elt Ideal)) (r : Fin 65536) (j : Fin 8) :
    val_main_v46 (F := Ideal) x18 (ix2 r j) = x18 (ix1 j) := by
  rw [val_main_v46_apply, val_main_v45_apply]
  have e : idx_main_v45 (idx_main_v46 (ix2 r j)) = ix1 j := by
    funext a
    match a with
    | ⟨0, _⟩ => rfl
  rw [e]

/-- Gate 3's masked input at (r, d) is x[r, d] · mx[3, d]. -/
theorem xmask3 (x0 : (⟨S65536x1024, .f32⟩ : BufTy).Contents (Elt Ideal)) (x26 : (⟨S4x1024, .f32⟩ : BufTy).Contents (Elt Ideal)) (r : Fin 65536) (d : Fin 1024) :
    val_main_v49 (F := Ideal) x0 x26 (ix2 r d) = x0 (ix2 r d) * x26 (ix2 3 d) := by
  rw [val_main_v49_apply, val_main_v48_apply, val_main_v6_apply, val_main_v4_apply, val_main_v5_apply,
    val_main_v2_apply, val_main_v3_apply]
  have h := split1024 r.val d.val d.isLt r.isLt
  have e1 : idx_main_v2 (idx_main_v4 (idx_main_v48 (idx_main_v49 (ix2 r d)))) = ix2 r d := by
    funext a
    match a with
    | ⟨0, _⟩ => exact Fin.ext h.1
    | ⟨1, _⟩ => exact Fin.ext h.2
  have e2 : idx_main_v3 (idx_main_v5 (idx_main_v48 (idx_main_v49 (ix2 r d)))) = ix2 3 d := by
    funext a
    match a with
    | ⟨0, _⟩ => exact Fin.ext rfl
    | ⟨1, _⟩ => exact Fin.ext h.2
  rw [e1, e2]
  rfl

/-- Gate 3's masked scalar at (r, 0) is z[r, 0] · mz[3, 0]. -/
theorem zmask3 (x3 : (⟨S65536x1, .f32⟩ : BufTy).Contents (Elt Ideal)) (x27 : (⟨S4x1, .f32⟩ : BufTy).Contents (Elt Ideal)) (r : Fin 65536) :
    val_main_v54 (F := Ideal) x3 x27 (ix2 r 0) = x3 (ix2 r 0) * x27 (ix2 3 0) := by
  rw [val_main_v54_apply, val_main_v53_apply, val_main_v11_apply, val_main_v9_apply, val_main_v10_apply,
    val_main_v7_apply, val_main_v8_apply]
  have h := split1 r.val r.isLt
  have e1 : idx_main_v7 (idx_main_v9 (idx_main_v53 (idx_main_v54 (ix2 r 0)))) = ix2 r 0 := by
    funext a
    match a with
    | ⟨0, _⟩ => exact Fin.ext h
    | ⟨1, _⟩ => exact Fin.ext rfl
  have e2 : idx_main_v8 (idx_main_v10 (idx_main_v53 (idx_main_v54 (ix2 r 0)))) = ix2 3 0 := by
    funext a
    match a with
    | ⟨0, _⟩ => exact Fin.ext rfl
    | ⟨1, _⟩ => exact Fin.ext rfl
  rw [e1, e2]
  rfl

/-- Gate 3's bias, broadcast over the batch: entry (r, j) is b[j]. -/
theorem bias3 (x19 : (⟨S8, .f32⟩ : BufTy).Contents (Elt Ideal)) (r : Fin 65536) (j : Fin 8) :
    val_main_v58 (F := Ideal) x19 (ix2 r j) = x19 (ix1 j) := by
  rw [val_main_v58_apply, val_main_v57_apply]
  have e : idx_main_v57 (idx_main_v58 (ix2 r j)) = ix1 j := by
    funext a
    match a with
    | ⟨0, _⟩ => rfl
  rw [e]

/-- The previous hidden state, reshaped from [1, 65536, 8] to [65536, 8]: entry (r, k) is h[0, r, k]. -/
theorem hprev (x1 : (⟨S1x65536x8, .f32⟩ : BufTy).Contents (Elt Ideal)) (r : Fin 65536) (k : Fin 8) :
    val_main_v0 (F := Ideal) x1 (ix2 r k) = x1 (ix3 0 r k) := by
  rw [val_main_v0_apply]
  have h := split8 r.val k.val k.isLt r.isLt
  have e : idx_main_v0 (ix2 r k) = ix3 0 r k := by
    funext a
    match a with
    | ⟨0, _⟩ => rfl
    | ⟨1, _⟩ => exact Fin.ext h.1
    | ⟨2, _⟩ => exact Fin.ext h.2
  rw [e]

/-- The previous cell state, reshaped from [1, 65536, 8] to [65536, 8]: entry (r, k) is c[0, r, k]. -/
theorem cprev (x2 : (⟨S1x65536x8, .f32⟩ : BufTy).Contents (Elt Ideal)) (r : Fin 65536) (k : Fin 8) :
    val_main_v1 (F := Ideal) x2 (ix2 r k) = x2 (ix3 0 r k) := by
  rw [val_main_v1_apply]
  have h := split8 r.val k.val k.isLt r.isLt
  have e : idx_main_v1 (ix2 r k) = ix3 0 r k := by
    funext a
    match a with
    | ⟨0, _⟩ => rfl
    | ⟨1, _⟩ => exact Fin.ext h.1
    | ⟨2, _⟩ => exact Fin.ext h.2
  rw [e]

end Cert.RefCell

end
-- ==== Proof.RefCellGates.lean ====
/-
  The four gates' pre-activations of the reference, read at an index.

  Gate g at batch row r and hidden unit j is
      ((Σ_d (x[r,d] · mx[g,d]) · Wx_g[d,j]  +  Σ_k h[0,r,k] · Wh_g[k,j])  +  (z[r,0] · mz[g,0]) · Wz_g[0,j])  +  b_g[j]:
  two contractions over the input and hidden axes, a contraction over an axis of extent one (a single product), and the
  broadcast bias, added in that order.
-/
import proofs.«160326_j16810501997190_2_alg».proof.Proof.Gen.ReferenceIdeal.Read
import proofs.«160326_j16810501997190_2_alg».proof.Proof.RefCellMask

noncomputable section

namespace Cert.RefCell

open Cert.ReferenceIdeal Cert.ReferenceIdeal.Read Idealize.ShloMosaic Idealize.ShloMosaic.ValueIdx

/-- Gate 0's pre-activation at (r, j). -/
theorem gate0 (x0 : (⟨S65536x1024, .f32⟩ : BufTy).Contents (Elt Ideal)) (x1 : (⟨S1x65536x8, .f32⟩ : BufTy).Contents (Elt Ideal)) (x3 : (⟨S65536x1, .f32⟩ : BufTy).Contents (Elt Ideal))
    (x4 : (⟨S1024x8, .f32⟩ : BufTy).Contents (Elt Ideal)) (x8 : (⟨S8x8, .f32⟩ : BufTy).Contents (Elt Ideal)) (x12 : (⟨S1x8, .f32⟩ : BufTy).Contents (Elt Ideal)) (x16 : (⟨S8, .f32⟩ : BufTy).Contents (Elt Ideal))
    (x26 : (⟨S4x1024, .f32⟩ : BufTy).Contents (Elt Ideal)) (x27 : (⟨S4x1, .f32⟩ : BufTy).Contents (Elt Ideal)) (r : Fin 65536) (j : Fin 8) :
    val_main_v23 (F := Ideal) x0 x1 x3 x4 x8 x12 x16 x26 x27 (ix2 r j)
      = (((∑ d : Fin 1024, (x0 (ix2 r d) * x26 (ix2 0 d)) * x4 (ix2 d j)) + (∑ k : Fin 8, x1 (ix3 0 r k) * x8 (ix2 k j)))
          + (x3 (ix2 r 0) * x27 (ix2 0 0)) * x12 (ix2 0 j)) + x16 (ix1 j) := by
  have lx : ∀ k, lidx_main_v14 (ix2 r j) k = ix2 r k := fun k => by
    funext a; match a with | ⟨0, _⟩ => rfl | ⟨1, _⟩ => rfl
  have rx : ∀ k, ridx_main_v14 (ix2 r j) k = ix2 k j := fun k => by
    funext a; match a with | ⟨0, _⟩ => rfl | ⟨1, _⟩ => rfl
  have lh : ∀ k, lidx_main_v15 (ix2 r j) k = ix2 r k := fun k => by
    funext a; match a with | ⟨0, _⟩ => rfl | ⟨1, _⟩ => rfl
  have rh : ∀ k, ridx_main_v15 (ix2 r j) k = ix2 k j := fun k => by
    funext a; match a with | ⟨0, _⟩ => rfl | ⟨1, _⟩ => rfl
  have lz : lidx_main_v19 (ix2 r j) 0 = ix2 r 0 := by
    funext a; match a with | ⟨0, _⟩ => rfl | ⟨1, _⟩ => rfl
  have rz : ridx_main_v19 (ix2 r j) 0 = ix2 0 j := by
    funext a; match a with | ⟨0, _⟩ => rfl | ⟨1, _⟩ => rfl
  rw [val_main_v23_apply, val_main_v20_apply, val_main_v16_apply, val_main_v14_apply, val_main_v15_apply,
    val_main_v19_apply, Fin.sum_univ_one, bias0]
  simp only [lx, rx, lh, rh, lz, rz, xmask0, hprev, zmask0, Ideal.addf_def]

/-- Gate 1's pre-activation at (r, j). -/
theorem gate1 (x0 : (⟨S65536x1024, .f32⟩ : BufTy).Contents (Elt Ideal)) (x1 : (⟨S1x65536x8, .f32⟩ : BufTy).Contents (Elt Ideal)) (x3 : (⟨S65536x1, .f32⟩ : BufTy).Contents (Elt Ideal))
    (x5 : (⟨S1024x8, .f32⟩ : BufTy).Contents (Elt Ideal)) (x9 : (⟨S8x8, .f32⟩ : BufTy).Contents (Elt Ideal)) (x13 : (⟨S1x8, .f32⟩ : BufTy).Contents (Elt Ideal)) (x17 : (⟨S8, .f32⟩ : BufTy).Contents (Elt Ideal))
    (x26 : (⟨S4x1024, .f32⟩ : BufTy).Contents (Elt Ideal)) (x27 : (⟨S4x1, .f32⟩ : BufTy).Contents (Elt Ideal)) (r : Fin 65536) (j : Fin 8) :
    val_main_v35 (F := Ideal) x0 x1 x3 x5 x9 x13 x17 x26 x27 (ix2 r j)
      = (((∑ d : Fin 1024, (x0 (ix2 r d) * x26 (ix2 1 d)) * x5 (ix2 d j)) + (∑ k : Fin 8, x1 (ix3 0 r k) * x9 (ix2 k j)))
          + (x3 (ix2 r 0) * x27 (ix2 1 0)) * x13 (ix2 0 j)) + x17 (ix1 j) := by
  have lx : ∀ k, lidx_main_v26 (ix2 r j) k = ix2 r k := fun k => by
    funext a; match a with | ⟨0, _⟩ => rfl | ⟨1, _⟩ => rfl
  have rx : ∀ k, ridx_main_v26 (ix2 r j) k = ix2 k j := fun k => by
    funext a; match a with | ⟨0, _⟩ => rfl | ⟨1, _⟩ => rfl
  have lh : ∀ k, lidx_main_v27 (ix2 r j) k = ix2 r k := fun k => by
    funext a; match a with | ⟨0, _⟩ => rfl | ⟨1, _⟩ => rfl
  have rh : ∀ k, ridx_main_v27 (ix2 r j) k = ix2 k j := fun k => by
    funext a; match a with | ⟨0, _⟩ => rfl | ⟨1, _⟩ => rfl
  have lz : lidx_main_v31 (ix2 r j) 0 = ix2 r 0 := by
    funext a; match a with | ⟨0, _⟩ => rfl | ⟨1, _⟩ => rfl
  have rz : ridx_main_v31 (ix2 r j) 0 = ix2 0 j := by
    funext a; match a with | ⟨0, _⟩ => rfl | ⟨1, _⟩ => rfl
  rw [val_main_v35_apply, val_main_v32_apply, val_main_v28_apply, val_main_v26_apply, val_main_v27_apply,
    val_main_v31_apply, Fin.sum_univ_one, bias1]
  simp only [lx, rx, lh, rh, lz, rz, xmask1, hprev, zmask1, Ideal.addf_def]

/-- Gate 2's pre-activation at (r, j). -/
theorem gate2 (x0 : (⟨S65536x1024, .f32⟩ : BufTy).Contents (Elt Ideal)) (x1 : (⟨S1x65536x8, .f32⟩ : BufTy).Contents (Elt Ideal)) (x3 : (⟨S65536x1, .f32⟩ : BufTy).Contents (Elt Ideal))
    (x6 : (⟨S1024x8, .f32⟩ : BufTy).Contents (Elt Ideal)) (x10 : (⟨S8x8, .f32⟩ : BufTy).Contents (Elt Ideal)) (x14 : (⟨S1x8, .f32⟩ : BufTy).Contents (Elt Ideal)) (x18 : (⟨S8, .f32⟩ : BufTy).Contents (Elt Ideal))
    (x26 : (⟨S4x1024, .f32⟩ : BufTy).Contents (Elt Ideal)) (x27 : (⟨S4x1, .f32⟩ : BufTy).Contents (Elt Ideal)) (r : Fin 65536) (j : Fin 8) :
    val_main_v47 (F := Ideal) x0 x1 x3 x6 x10 x14 x18 x26 x27 (ix2 r j)
      = (((∑ d : Fin 1024, (x0 (ix2 r d) * x26 (ix2 2 d)) * x6 (ix2 d j)) + (∑ k : Fin 8, x1 (ix3 0 r k) * x10 (ix2 k j)))
          + (x3 (ix2 r 0) * x27 (ix2 2 0)) * x14 (ix2 0 j)) + x18 (ix1 j) := by
  have lx : ∀ k, lidx_main_v38 (ix2 r j) k = ix2 r k := fun k => by
    funext a; match a with | ⟨0, _⟩ => rfl | ⟨1, _⟩ => rfl
  have rx : ∀ k, ridx_main_v38 (ix2 r j) k = ix2 k j := fun k => by
    funext a; match a with | ⟨0, _⟩ => rfl | ⟨1, _⟩ => rfl
  have lh : ∀ k, lidx_main_v39 (ix2 r j) k = ix2 r k := fun k => by
    funext a; match a with | ⟨0, _⟩ => rfl | ⟨1, _⟩ => rfl
  have rh : ∀ k, ridx_main_v39 (ix2 r j) k = ix2 k j := fun k => by
    funext a; match a with | ⟨0, _⟩ => rfl | ⟨1, _⟩ => rfl
  have lz : lidx_main_v43 (ix2 r j) 0 = ix2 r 0 := by
    funext a; match a with | ⟨0, _⟩ => rfl | ⟨1, _⟩ => rfl
  have rz : ridx_main_v43 (ix2 r j) 0 = ix2 0 j := by
    funext a; match a with | ⟨0, _⟩ => rfl | ⟨1, _⟩ => rfl
  rw [val_main_v47_apply, val_main_v44_apply, val_main_v40_apply, val_main_v38_apply, val_main_v39_apply,
    val_main_v43_apply, Fin.sum_univ_one, bias2]
  simp only [lx, rx, lh, rh, lz, rz, xmask2, hprev, zmask2, Ideal.addf_def]

/-- Gate 3's pre-activation at (r, j). -/
theorem gate3 (x0 : (⟨S65536x1024, .f32⟩ : BufTy).Contents (Elt Ideal)) (x1 : (⟨S1x65536x8, .f32⟩ : BufTy).Contents (Elt Ideal)) (x3 : (⟨S65536x1, .f32⟩ : BufTy).Contents (Elt Ideal))
    (x7 : (⟨S1024x8, .f32⟩ : BufTy).Contents (Elt Ideal)) (x11 : (⟨S8x8, .f32⟩ : BufTy).Contents (Elt Ideal)) (x15 : (⟨S1x8, .f32⟩ : BufTy).Contents (Elt Ideal)) (x19 : (⟨S8, .f32⟩ : BufTy).Contents (Elt Ideal))
    (x26 : (⟨S4x1024, .f32⟩ : BufTy).Contents (Elt Ideal)) (x27 : (⟨S4x1, .f32⟩ : BufTy).Contents (Elt Ideal)) (r : Fin 65536) (j : Fin 8) :
    val_main_v59 (F := Ideal) x0 x1 x3 x7 x11 x15 x19 x26 x27 (ix2 r j)
      = (((∑ d : Fin 1024, (x0 (ix2 r d) * x26 (ix2 3 d)) * x7 (ix2 d j)) + (∑ k : Fin 8, x1 (ix3 0 r k) * x11 (ix2 k j)))
          + (x3 (ix2 r 0) * x27 (ix2 3 0)) * x15 (ix2 0 j)) + x19 (ix1 j) := by
  have lx : ∀ k, lidx_main_v50 (ix2 r j) k = ix2 r k := fun k => by
    funext a; match a with | ⟨0, _⟩ => rfl | ⟨1, _⟩ => rfl
  have rx : ∀ k, ridx_main_v50 (ix2 r j) k = ix2 k j := fun k => by
    funext a; match a with | ⟨0, _⟩ => rfl | ⟨1, _⟩ => rfl
  have lh : ∀ k, lidx_main_v51 (ix2 r j) k = ix2 r k := fun k => by
    funext a; match a with | ⟨0, _⟩ => rfl | ⟨1, _⟩ => rfl
  have rh : ∀ k, ridx_main_v51 (ix2 r j) k = ix2 k j := fun k => by
    funext a; match a with | ⟨0, _⟩ => rfl | ⟨1, _⟩ => rfl
  have lz : lidx_main_v55 (ix2 r j) 0 = ix2 r 0 := by
    funext a; match a with | ⟨0, _⟩ => rfl | ⟨1, _⟩ => rfl
  have rz : ridx_main_v55 (ix2 r j) 0 = ix2 0 j := by
    funext a; match a with | ⟨0, _⟩ => rfl | ⟨1, _⟩ => rfl
  rw [val_main_v59_apply, val_main_v56_apply, val_main_v52_apply, val_main_v50_apply, val_main_v51_apply,
    val_main_v55_apply, Fin.sum_univ_one, bias3]
  simp only [lx, rx, lh, rh, lz, rz, xmask3, hprev, zmask3, Ideal.addf_def]

end Cert.RefCell

end
-- ==== Proof.RefCellState.lean ====
/-
  The reference's new cell state and new hidden state are the specification's, index by index.

  A gate's hard sigmoid is clip (t / 6 + 1/2) to [0, 1], computed as min 1 (max 0 ·); the new cell state is
  σ(gate 1) · c + σ(gate 0) · tanh (gate 2) and the new hidden state σ(gate 3) · tanh (new cell state).
-/
import proofs.«160326_j16810501997190_2_alg».proof.Proof.Gen.ReferenceIdeal.Read
import proofs.«160326_j16810501997190_2_alg».proof.Proof.CellSpec
import proofs.«160326_j16810501997190_2_alg».proof.Proof.RefCellGates

noncomputable section

namespace Cert.RefCell

open Cert.ReferenceIdeal Cert.ReferenceIdeal.Read Idealize.ShloMosaic Idealize.ShloMosaic.ValueIdx

/-- The hard sigmoid of gate 0, at any index. -/
theorem hsig0 (x0 : (⟨S65536x1024, .f32⟩ : BufTy).Contents (Elt Ideal)) (x1 : (⟨S1x65536x8, .f32⟩ : BufTy).Contents (Elt Ideal)) (x3 : (⟨S65536x1, .f32⟩ : BufTy).Contents (Elt Ideal)) (x4 : (⟨S1024x8, .f32⟩ : BufTy).Contents (Elt Ideal)) (x8 : (⟨S8x8, .f32⟩ : BufTy).Contents (Elt Ideal)) (x12 : (⟨S1x8, .f32⟩ : BufTy).Contents (Elt Ideal)) (x16 : (⟨S8, .f32⟩ : BufTy).Contents (Elt Ideal)) (x26 : (⟨S4x1024, .f32⟩ : BufTy).Contents (Elt Ideal)) (x27 : (⟨S4x1, .f32⟩ : BufTy).Contents (Elt Ideal)) (i : S65536x8.Idx) :
    val_main_v64 (F := Ideal) x0 x1 x3 x4 x8 x12 x16 x26 x27 i = CellSpec.hsig (val_main_v23 (F := Ideal) x0 x1 x3 x4 x8 x12 x16 x26 x27 i) := by
  rw [val_main_v64_apply, val_main_call0_v4_apply, val_main_call0_v3_apply, val_main_cst_2_apply,
    val_main_call0_v2_apply, val_main_call0_v1_apply, val_main_call0_v0_apply, val_main_cst_1_apply,
    val_main_v63_apply, val_main_v61_apply, val_main_v60_apply, val_main_cst_apply,
    val_main_v62_apply, val_main_cst_0_apply]
  rfl

/-- The hard sigmoid of gate 1, at any index. -/
theorem hsig1 (x0 : (⟨S65536x1024, .f32⟩ : BufTy).Contents (Elt Ideal)) (x1 : (⟨S1x65536x8, .f32⟩ : BufTy).Contents (Elt Ideal)) (x3 : (⟨S65536x1, .f32⟩ : BufTy).Contents (Elt Ideal)) (x5 : (⟨S1024x8, .f32⟩ : BufTy).Contents (Elt Ideal)) (x9 : (⟨S8x8, .f32⟩ : BufTy).Contents (Elt Ideal)) (x13 : (⟨S1x8, .f32⟩ : BufTy).Contents (Elt Ideal)) (x17 : (⟨S8, .f32⟩ : BufTy).Contents (Elt Ideal)) (x26 : (⟨S4x1024, .f32⟩ : BufTy).Contents (Elt Ideal)) (x27 : (⟨S4x1, .f32⟩ : BufTy).Contents (Elt Ideal)) (i : S65536x8.Idx) :
    val_main_v69 (F := Ideal) x0 x1 x3 x5 x9 x13 x17 x26 x27 i = CellSpec.hsig (val_main_v35 (F := Ideal) x0 x1 x3 x5 x9 x13 x17 x26 x27 i) := by
  rw [val_main_v69_apply, val_main_call1_v4_apply, val_main_call1_v3_apply, val_main_cst_6_apply,
    val_main_call1_v2_apply, val_main_call1_v1_apply, val_main_call1_v0_apply, val_main_cst_5_apply,
    val_main_v68_apply, val_main_v66_apply, val_main_v65_apply, val_main_cst_3_apply,
    val_main_v67_apply, val_main_cst_4_apply]
  rfl

/-- The hard sigmoid of gate 3, at any index. -/
theorem hsig3 (x0 : (⟨S65536x1024, .f32⟩ : BufTy).Contents (Elt Ideal)) (x1 : (⟨S1x65536x8, .f32⟩ : BufTy).Contents (Elt Ideal)) (x3 : (⟨S65536x1, .f32⟩ : BufTy).Contents (Elt Ideal)) (x7 : (⟨S1024x8, .f32⟩ : BufTy).Contents (Elt Ideal)) (x11 : (⟨S8x8, .f32⟩ : BufTy).Contents (Elt Ideal)) (x15 : (⟨S1x8, .f32⟩ : BufTy).Contents (Elt Ideal)) (x19 : (⟨S8, .f32⟩ : BufTy).Contents (Elt Ideal)) (x26 : (⟨S4x1024, .f32⟩ : BufTy).Contents (Elt Ideal)) (x27 : (⟨S4x1, .f32⟩ : BufTy).Contents (Elt Ideal)) (i : S65536x8.Idx) :
    val_main_v78 (F := Ideal) x0 x1 x3 x7 x11 x15 x19 x26 x27 i = CellSpec.hsig (val_main_v59 (F := Ideal) x0 x1 x3 x7 x11 x15 x19 x26 x27 i) := by
  rw [val_main_v78_apply, val_main_call2_v4_apply, val_main_call2_v3_apply, val_main_cst_10_apply,
    val_main_call2_v2_apply, val_main_call2_v1_apply, val_main_call2_v0_apply, val_main_cst_9_apply,
    val_main_v77_apply, val_main_v75_apply, val_main_v74_apply, val_main_cst_7_apply,
    val_main_v76_apply, val_main_cst_8_apply]
  rfl

/-- Gate 0's pre-activation is the specification's. -/
theorem gateA0 (A : CellSpec.Args) (r : Fin 65536) (j : Fin 8) :
    val_main_v23 (F := Ideal) A.x A.hp A.zp (A.Wx 0) (A.Wh 0) (A.Wz 0) (A.b 0) A.mx A.mz (ix2 r j) = CellSpec.gate A.weights (A.row r) 0 j :=
  (gate0 A.x A.hp A.zp (A.Wx 0) (A.Wh 0) (A.Wz 0) (A.b 0) A.mx A.mz r j).trans rfl

/-- Gate 1's pre-activation is the specification's. -/
theorem gateA1 (A : CellSpec.Args) (r : Fin 65536) (j : Fin 8) :
    val_main_v35 (F := Ideal) A.x A.hp A.zp (A.Wx 1) (A.Wh 1) (A.Wz 1) (A.b 1) A.mx A.mz (ix2 r j) = CellSpec.gate A.weights (A.row r) 1 j :=
  (gate1 A.x A.hp A.zp (A.Wx 1) (A.Wh 1) (A.Wz 1) (A.b 1) A.mx A.mz r j).trans rfl

/-- Gate 2's pre-activation is the specification's. -/
theorem gateA2 (A : CellSpec.Args) (r : Fin 65536) (j : Fin 8) :
    val_main_v47 (F := Ideal) A.x A.hp A.zp (A.Wx 2) (A.Wh 2) (A.Wz 2) (A.b 2) A.mx A.mz (ix2 r j) = CellSpec.gate A.weights (A.row r) 2 j :=
  (gate2 A.x A.hp A.zp (A.Wx 2) (A.Wh 2) (A.Wz 2) (A.b 2) A.mx A.mz r j).trans rfl

/-- Gate 3's pre-activation is the specification's. -/
theorem gateA3 (A : CellSpec.Args) (r : Fin 65536) (j : Fin 8) :
    val_main_v59 (F := Ideal) A.x A.hp A.zp (A.Wx 3) (A.Wh 3) (A.Wz 3) (A.b 3) A.mx A.mz (ix2 r j) = CellSpec.gate A.weights (A.row r) 3 j :=
  (gate3 A.x A.hp A.zp (A.Wx 3) (A.Wh 3) (A.Wz 3) (A.b 3) A.mx A.mz r j).trans rfl

/-- The new cell state at (r, j). -/
theorem ct_apply (A : CellSpec.Args) (r : Fin 65536) (j : Fin 8) :
    val_main_v73 (F := Ideal) A.x A.hp A.cp A.zp (A.Wx 0) (A.Wx 1) (A.Wx 2) (A.Wh 0) (A.Wh 1) (A.Wh 2) (A.Wz 0) (A.Wz 1) (A.Wz 2) (A.b 0) (A.b 1) (A.b 2) A.mx A.mz (ix2 r j) = CellSpec.cnew A.weights (A.row r) j := by
  rw [val_main_v73_apply, val_main_v70_apply, val_main_v72_apply, val_main_v71_apply, hsig1, hsig0,
    gateA1, gateA0, gateA2, cprev]
  rfl

/-- The new hidden state at (r, j). -/
theorem ht_apply (A : CellSpec.Args) (r : Fin 65536) (j : Fin 8) :
    val_main_v80 (F := Ideal) A.x A.hp A.cp A.zp (A.Wx 0) (A.Wx 1) (A.Wx 2) (A.Wx 3) (A.Wh 0) (A.Wh 1) (A.Wh 2) (A.Wh 3) (A.Wz 0) (A.Wz 1) (A.Wz 2) (A.Wz 3) (A.b 0) (A.b 1) (A.b 2) (A.b 3) A.mx A.mz (ix2 r j) = CellSpec.hnew A.weights (A.row r) j := by
  rw [val_main_v80_apply, val_main_v79_apply, hsig3, gateA3, ct_apply]
  rfl

/-- The reference's new cell state is the specification's. -/
theorem ct_eq (A : CellSpec.Args) :
    val_main_v73 (F := Ideal) A.x A.hp A.cp A.zp (A.Wx 0) (A.Wx 1) (A.Wx 2) (A.Wh 0) (A.Wh 1) (A.Wh 2) (A.Wz 0) (A.Wz 1) (A.Wz 2) (A.b 0) (A.b 1) (A.b 2) A.mx A.mz = A.ct := by
  funext i
  obtain ⟨r, j, rfl⟩ : ∃ (r : Fin 65536) (j : Fin 8), i = ix2 r j := ⟨i 0, i 1, eq_ix2 i⟩
  exact ct_apply A r j

/-- The reference's new hidden state is the specification's. -/
theorem ht_eq (A : CellSpec.Args) :
    val_main_v80 (F := Ideal) A.x A.hp A.cp A.zp (A.Wx 0) (A.Wx 1) (A.Wx 2) (A.Wx 3) (A.Wh 0) (A.Wh 1) (A.Wh 2) (A.Wh 3) (A.Wz 0) (A.Wz 1) (A.Wz 2) (A.Wz 3) (A.b 0) (A.b 1) (A.b 2) (A.b 3) A.mx A.mz = A.ht := by
  funext i
  obtain ⟨r, j, rfl⟩ : ∃ (r : Fin 65536) (j : Fin 8), i = ix2 r j := ⟨i 0, i 1, eq_ix2 i⟩
  exact ht_apply A r j

end Cert.RefCell

end
-- ==== Proof.RefCellMlp.lean ====
/-
  The reference's three-layer perceptron and the advanced scalar are the specification's, index by index.

  Layer one is relu (hnew @ Wd1 + bd1) · m1, layer two relu (d1 @ Wd2 + bd2) · m2 (each mask a [1, 5] row broadcast over the
  batch), the output relu (d2 @ Wd3 + bd3) with relu t = max t 0, and the scalar advances by adding the output.
-/
import proofs.«160326_j16810501997190_2_alg».proof.Proof.Gen.ReferenceIdeal.Read
import proofs.«160326_j16810501997190_2_alg».proof.Proof.RefCellState

noncomputable section

namespace Cert.RefCell

open Cert.ReferenceIdeal Cert.ReferenceIdeal.Read Idealize.ShloMosaic Idealize.ShloMosaic.ValueIdx

/-- The perceptron's first layer at (r, f). -/
theorem d1_apply (A : CellSpec.Args) (r : Fin 65536) (f : Fin 5) :
    val_main_v87 (F := Ideal) A.x A.hp A.cp A.zp (A.Wx 0) (A.Wx 1) (A.Wx 2) (A.Wx 3) (A.Wh 0) (A.Wh 1) (A.Wh 2) (A.Wh 3) (A.Wz 0) (A.Wz 1) (A.Wz 2) (A.Wz 3) (A.b 0) (A.b 1) (A.b 2) (A.b 3) A.Wd1 A.bd1 A.mx A.mz A.m1 (ix2 r f) = CellSpec.d1 A.weights (A.row r) f := by
  have l : ∀ k, lidx_main_v81 (ix2 r f) k = ix2 r k := fun k => by
    funext a; match a with | ⟨0, _⟩ => rfl | ⟨1, _⟩ => rfl
  have rr : ∀ k, ridx_main_v81 (ix2 r f) k = ix2 k f := fun k => by
    funext a; match a with | ⟨0, _⟩ => rfl | ⟨1, _⟩ => rfl
  have eb : idx_main_v82 (idx_main_v83 (ix2 r f)) = ix1 f := by
    funext a; match a with | ⟨0, _⟩ => rfl
  have em : idx_main_v86 (ix2 r f) = ix2 0 f := by
    funext a; match a with | ⟨0, _⟩ => rfl | ⟨1, _⟩ => rfl
  rw [val_main_v87_apply, val_main_v85_apply, val_main_v84_apply, val_main_v81_apply, val_main_v83_apply,
    val_main_v82_apply, val_main_call3_v0_apply, val_main_call3_cst_apply, val_main_v86_apply, eb, em]
  simp only [l, rr, ht_apply]
  rfl

/-- The perceptron's second layer at (r, f). -/
theorem d2_apply (A : CellSpec.Args) (r : Fin 65536) (f : Fin 5) :
    val_main_v94 (F := Ideal) A.x A.hp A.cp A.zp (A.Wx 0) (A.Wx 1) (A.Wx 2) (A.Wx 3) (A.Wh 0) (A.Wh 1) (A.Wh 2) (A.Wh 3) (A.Wz 0) (A.Wz 1) (A.Wz 2) (A.Wz 3) (A.b 0) (A.b 1) (A.b 2) (A.b 3) A.Wd1 A.bd1 A.Wd2 A.bd2 A.mx A.mz A.m1 A.m2 (ix2 r f) = CellSpec.d2 A.weights (A.row r) f := by
  have l : ∀ k, lidx_main_v88 (ix2 r f) k = ix2 r k := fun k => by
    funext a; match a with | ⟨0, _⟩ => rfl | ⟨1, _⟩ => rfl
  have rr : ∀ k, ridx_main_v88 (ix2 r f) k = ix2 k f := fun k => by
    funext a; match a with | ⟨0, _⟩ => rfl | ⟨1, _⟩ => rfl
  have eb : idx_main_v89 (idx_main_v90 (ix2 r f)) = ix1 f := by
    funext a; match a with | ⟨0, _⟩ => rfl
  have em : idx_main_v93 (ix2 r f) = ix2 0 f := by
    funext a; match a with | ⟨0, _⟩ => rfl | ⟨1, _⟩ => rfl
  rw [val_main_v94_apply, val_main_v92_apply, val_main_v91_apply, val_main_v88_apply, val_main_v90_apply,
    val_main_v89_apply, val_main_call4_v0_apply, val_main_call4_cst_apply, val_main_v93_apply, eb, em]
  simp only [l, rr, d1_apply]
  rfl

/-- The advanced scalar at (r, 0). -/
theorem zt_apply (A : CellSpec.Args) (r : Fin 65536) :
    val_main_v100 (F := Ideal) A.x A.hp A.cp A.zp (A.Wx 0) (A.Wx 1) (A.Wx 2) (A.Wx 3) (A.Wh 0) (A.Wh 1) (A.Wh 2) (A.Wh 3) (A.Wz 0) (A.Wz 1) (A.Wz 2) (A.Wz 3) (A.b 0) (A.b 1) (A.b 2) (A.b 3) A.Wd1 A.bd1 A.Wd2 A.bd2 A.Wd3 A.bd3 A.mx A.mz A.m1 A.m2 (ix2 r 0) = CellSpec.znew A.weights (A.row r) := by
  have l : ∀ k, lidx_main_v95 (ix2 r 0) k = ix2 r k := fun k => by
    funext a; match a with | ⟨0, _⟩ => rfl | ⟨1, _⟩ => rfl
  have rr : ∀ k, ridx_main_v95 (ix2 r 0) k = ix2 k 0 := fun k => by
    funext a; match a with | ⟨0, _⟩ => rfl | ⟨1, _⟩ => rfl
  have eb : idx_main_v96 (idx_main_v97 (ix2 r 0)) = ix1 0 := by
    funext a; match a with | ⟨0, _⟩ => rfl
  rw [val_main_v100_apply, val_main_v99_apply, val_main_v98_apply, val_main_v95_apply, val_main_v97_apply,
    val_main_v96_apply, val_main_call5_v0_apply, val_main_call5_cst_apply, eb]
  simp only [l, rr, d2_apply]
  rfl

/-- The reference's advanced scalar is the specification's. -/
theorem zt_eq (A : CellSpec.Args) :
    val_main_v100 (F := Ideal) A.x A.hp A.cp A.zp (A.Wx 0) (A.Wx 1) (A.Wx 2) (A.Wx 3) (A.Wh 0) (A.Wh 1) (A.Wh 2) (A.Wh 3) (A.Wz 0) (A.Wz 1) (A.Wz 2) (A.Wz 3) (A.b 0) (A.b 1) (A.b 2) (A.b 3) A.Wd1 A.bd1 A.Wd2 A.bd2 A.Wd3 A.bd3 A.mx A.mz A.m1 A.m2 = A.zt := by
  funext i
  have h1 : @Eq (Fin 1) (i 1) 0 := Fin.ext (Nat.lt_one_iff.mp (idx2_lt1 i))
  obtain ⟨r, rfl⟩ : ∃ r : Fin 65536, i = ix2 r 0 :=
    ⟨i 0, (eq_ix2 i).trans (congrArg (ix2 (i 0)) h1)⟩
  exact zt_apply A r

end Cert.RefCell

end
-- ==== Proof.RefCell.lean ====
/-
  The reference program's run, stated against the specification: every weakly fair execution of the reference ends
  with its three results equal to the specification's advanced scalar, new hidden state and new cell state of the
  argument arrays, and with the thirty argument arrays unchanged.
-/
import proofs.«160326_j16810501997190_2_alg».proof.Proof.Gen.ReferenceIdeal.Read
import proofs.«160326_j16810501997190_2_alg».proof.Proof.RefCellState
import proofs.«160326_j16810501997190_2_alg».proof.Proof.RefCellMlp

noncomputable section

namespace Cert.RefCell

open Cert.ReferenceIdeal Cert.ReferenceIdeal.Gen Idealize.ShloMosaic Idealize.ShloMosaic.TcCoe Idealize.SL.Sem Idealize.ShloMosaic.StableHlo

/-- The thirty argument arrays of core `c` in the memory `m`, as the specification's arguments. -/
def args (m : (ℓ : Loc Cert.ReferenceIdeal.nD Cert.ReferenceIdeal.τ Cert.ReferenceIdeal.sig) → Buf (Elt Ideal) ℓ)
    (c : Dev Cert.ReferenceIdeal.nD) : Cert.CellSpec.Args where
  x := m ((c.tc : Thread nD τ).loc main_arg0)
  hp := m ((c.tc : Thread nD τ).loc main_arg1)
  cp := m ((c.tc : Thread nD τ).loc main_arg2)
  zp := m ((c.tc : Thread nD τ).loc main_arg3)
  Wx := ![m ((c.tc : Thread nD τ).loc main_arg4), m ((c.tc : Thread nD τ).loc main_arg5), m ((c.tc : Thread nD τ).loc main_arg6), m ((c.tc : Thread nD τ).loc main_arg7)]
  Wh := ![m ((c.tc : Thread nD τ).loc main_arg8), m ((c.tc : Thread nD τ).loc main_arg9), m ((c.tc : Thread nD τ).loc main_arg10), m ((c.tc : Thread nD τ).loc main_arg11)]
  Wz := ![m ((c.tc : Thread nD τ).loc main_arg12), m ((c.tc : Thread nD τ).loc main_arg13), m ((c.tc : Thread nD τ).loc main_arg14), m ((c.tc : Thread nD τ).loc main_arg15)]
  b := ![m ((c.tc : Thread nD τ).loc main_arg16), m ((c.tc : Thread nD τ).loc main_arg17), m ((c.tc : Thread nD τ).loc main_arg18), m ((c.tc : Thread nD τ).loc main_arg19)]
  Wd1 := m ((c.tc : Thread nD τ).loc main_arg20)
  bd1 := m ((c.tc : Thread nD τ).loc main_arg21)
  Wd2 := m ((c.tc : Thread nD τ).loc main_arg22)
  bd2 := m ((c.tc : Thread nD τ).loc main_arg23)
  Wd3 := m ((c.tc : Thread nD τ).loc main_arg24)
  bd3 := m ((c.tc : Thread nD τ).loc main_arg25)
  mx := m ((c.tc : Thread nD τ).loc main_arg26)
  mz := m ((c.tc : Thread nD τ).loc main_arg27)
  m1 := m ((c.tc : Thread nD τ).loc main_arg28)
  m2 := m ((c.tc : Thread nD τ).loc main_arg29)

/-- The reference's run: the three results are the specification's functions of the arguments, the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
      r.2.mem ((c.tc : Thread nD τ).loc main_v100) = (args m c).zt
      ∧ r.2.mem ((c.tc : Thread nD τ).loc main_v80) = (args m c).ht
      ∧ r.2.mem ((c.tc : Thread nD τ).loc main_v73) = (args m c).ct
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  (θ_run (Cert.ReferenceIdeal.defs (F := Ideal)) _ _).mono
    (fun _ h c =>
      ⟨(h c).1.trans ((Cert.ReferenceIdeal.Read.val_main_v100_eq m c).trans (zt_eq (args m c))),
        (h c).2.1.trans ((Cert.ReferenceIdeal.Read.val_main_v80_eq m c).trans (ht_eq (args m c))),
        (h c).2.2.1.trans ((Cert.ReferenceIdeal.Read.val_main_v73_eq m c).trans (ct_eq (args m c))),
        (h c).2.2.2⟩)
    (Cert.ReferenceIdeal.Value.run (F := Ideal) m ρ)

end Cert.RefCell

end
-- ==== Proof.lean ====
/-
  The claim, assembled. The cell is an input, forget, candidate and output gate over a 1024-wide input, an 8-wide hidden
  state and a scalar, followed by a three-layer perceptron of the new hidden state that advances the scalar. The kernel folds
  the four masks into the gates' weights before its grid, lays the four gates' weights side by side, keeps the narrow arrays
  unit-major, computes 2048 batch rows per grid point and transposes its three results back; the reference masks the
  inputs instead and works batch-major. On the extended reals the two agree entry by entry: a masked input times a weight
  is the input times the masked weight (multiplication is commutative and associative there), a sum over a contracted axis
  does not depend on how the operands are laid out, and the remaining operations are applied to equal arguments. Both runs
  are stated against one specification of the cell, so the algebraic claim is the two runs side by side with the argument
  arrays identified. Each program's frame is its run with the results forgotten; the ideal pass rewrote nothing, so
  `preserves` has nothing to say.
-/
import proofs.«160326_j16810501997190_2_alg».proof.Defs
import proofs.«160326_j16810501997190_2_alg».proof.Proof.Gen.Kernel
import proofs.«160326_j16810501997190_2_alg».proof.Proof.Gen.KernelIdeal
import proofs.«160326_j16810501997190_2_alg».proof.Proof.Gen.ReferenceIdeal
import proofs.«160326_j16810501997190_2_alg».proof.Proof.Gen.Pre_finite_inputs
import proofs.«160326_j16810501997190_2_alg».proof.Proof.Gen.ReferenceIdeal.Run
import proofs.«160326_j16810501997190_2_alg».proof.Proof.Gen.ReferenceIdeal.Read
import proofs.«160326_j16810501997190_2_alg».proof.Proof.FrameBitsRun
import proofs.«160326_j16810501997190_2_alg».proof.Proof.FrameIdealRun
import proofs.«160326_j16810501997190_2_alg».proof.Proof.ArraysIdeal
import proofs.«160326_j16810501997190_2_alg».proof.Proof.RefCell
import Idealize.ShloMosaic.Adequacy
import Idealize.ShloMosaic.Init

noncomputable section

namespace Cert.Proof

open Idealize.ShloMosaic Idealize.SL.Sem

/-- The word-level kernel runs to its end without a fault and leaves its thirty arguments unchanged. -/
theorem frame_bits : Cert.frame_Kernel (hKernel := Cert.Kernel.Gen.facts) (hPre_finite_inputs := Cert.Pre_finite_inputs.Gen.facts) :=
  fun m ρ _ => Cert.Kernel.Hand.frame m ρ

/-- So does the idealized kernel. -/
theorem frame_ideal : Cert.frame_KernelIdeal (hKernelIdeal := Cert.KernelIdeal.Gen.facts) (hPre_finite_inputs := Cert.Pre_finite_inputs.Gen.facts) :=
  fun m ρ _ => Cert.KernelIdeal.Hand.frame m ρ

/-- The reference's frame is its run with the three results forgotten. -/
theorem frame_ref : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (Cert.ReferenceIdeal.Value.run (F := Ideal) m ρ)

/-- Run from memories that agree on the thirty arguments, the idealized kernel and the idealized reference end with equal
    results: both end at the specification's advanced scalar, new hidden state and new cell state of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  have hargs : ∀ c, Cert.RefCell.args m' c = Cert.KerCell.args m c := fun c => by
    obtain ⟨h0, h1, h2, h3, h4, h5, h6, h7, h8, h9, h10, h11, h12, h13, h14, h15, h16, h17, h18, h19, h20, h21, h22, h23, h24, h25, h26, h27, h28, h29⟩ := hagree c
    simp only [Cert.RefCell.args, Cert.KerCell.args, h0, h1, h2, h3, h4, h5, h6, h7, h8, h9, h10, h11, h12, h13, h14, h15, h16, h17, h18, h19, h20, h21, h22, h23, h24, h25, h26, h27, h28, h29]
  refine ⟨fun c => (Cert.KerCell.args m c).zt, fun c => (Cert.KerCell.args m c).ht, fun c => (Cert.KerCell.args m c).ct,
    Cert.KerCell.run m ρ, ?_⟩
  refine (θ_run Cert.ReferenceIdeal.defs _ _).mono (fun _ h c => ?_) (Cert.RefCell.run m' ρ')
  have hc := h c
  rw [hargs c] at hc
  exact hc

theorem claim : Cert.Claim :=
  ⟨Cert.Kernel.Gen.facts, Cert.KernelIdeal.Gen.facts, Cert.ReferenceIdeal.Gen.facts, Cert.Pre_finite_inputs.Gen.facts,
    frame_bits, frame_ideal, frame_ref, trivial, algebraic⟩

end Cert.Proof

end
